-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x13 : Shape := ⟨2, ![65536, 13]⟩
abbrev S2048x13 : Shape := ⟨2, ![2048, 13]⟩
abbrev S300x13 : Shape := ⟨2, ![300, 13]⟩
abbrev S300 : Shape := ⟨1, ![300]⟩
abbrev S600x300 : Shape := ⟨2, ![600, 300]⟩
abbrev S600 : Shape := ⟨1, ![600]⟩
abbrev S100x600 : Shape := ⟨2, ![100, 600]⟩
abbrev S100 : Shape := ⟨1, ![100]⟩
abbrev S13x100 : Shape := ⟨2, ![13, 100]⟩
abbrev S13 : Shape := ⟨1, ![13]⟩
abbrev S_ : Shape := ⟨0, ![]⟩

class Facts : Prop where
  bcast_S_S65536x13 : S_.BroadcastsInDim S65536x13 (![] : Fin 0 → Fin S65536x13.rank)
  reducesTo_S65536x13_S_d0_1 : S65536x13.ReducesTo [0, 1] S_
  h_S_ : 0 < S_.numel
  bcast_S_S2048x13 : S_.BroadcastsInDim S2048x13 (![] : Fin 0 → Fin S2048x13.rank)
  reducesTo_S2048x13_S_d0_1 : S2048x13.ReducesTo [0, 1] S_
  bcast_S_S300x13 : S_.BroadcastsInDim S300x13 (![] : Fin 0 → Fin S300x13.rank)
  reducesTo_S300x13_S_d0_1 : S300x13.ReducesTo [0, 1] S_
  bcast_S_S300 : S_.BroadcastsInDim S300 (![] : Fin 0 → Fin S300.rank)
  reducesTo_S300_S_d0 : S300.ReducesTo [0] S_
  bcast_S_S600x300 : S_.BroadcastsInDim S600x300 (![] : Fin 0 → Fin S600x300.rank)
  reducesTo_S600x300_S_d0_1 : S600x300.ReducesTo [0, 1] S_
  bcast_S_S600 : S_.BroadcastsInDim S600 (![] : Fin 0 → Fin S600.rank)
  reducesTo_S600_S_d0 : S600.ReducesTo [0] S_
  bcast_S_S100x600 : S_.BroadcastsInDim S100x600 (![] : Fin 0 → Fin S100x600.rank)
  reducesTo_S100x600_S_d0_1 : S100x600.ReducesTo [0, 1] S_
  bcast_S_S100 : S_.BroadcastsInDim S100 (![] : Fin 0 → Fin S100.rank)
  reducesTo_S100_S_d0 : S100.ReducesTo [0] S_
  bcast_S_S13x100 : S_.BroadcastsInDim S13x100 (![] : Fin 0 → Fin S13x100.rank)
  reducesTo_S13x100_S_d0_1 : S13x100.ReducesTo [0, 1] S_
  bcast_S_S13 : S_.BroadcastsInDim S13 (![] : Fin 0 → Fin S13.rank)
  reducesTo_S13_S_d0 : S13.ReducesTo [0] S_

variable [Facts]

def fn_part2 {F : FTy → Type} [FloatOps F] (main_arg7 : FVec F S100 .f32) (main_arg8 : FVec F S13x100 .f32) (main_arg9 : FVec F S13 .f32) (main_v33 : IVec S_ 1) : IVec S_ 1 :=
  let main_v34 : FVec F S100 .f32 := Host.absf main_arg7
  let main_cst_12 : FVec F S_ .f32 := constant S_ .f32 0x7F800000#32
  let main_v35 : FVec F S100 .f32 := broadcastInDim S100 ![] bcast_S_S100 main_cst_12
  let main_v36 : IVec S100 1 := cmpf .olt main_v34 main_v35
  let main_c_13 : IVec S_ 1 := constantI S_ 1 1#1
  let main_v37 : IVec S_ 1 := (fun x v => Host.reduce IntOp.andi x v reducesTo_S100_S_d0 h_S_) main_v36 main_c_13
  let main_v38 : IVec S_ 1 := andi main_v33 main_v37
  let main_v39 : FVec F S13x100 .f32 := Host.absf main_arg8
  let main_cst_14 : FVec F S_ .f32 := constant S_ .f32 0x7F800000#32
  let main_v40 : FVec F S13x100 .f32 := broadcastInDim S13x100 ![] bcast_S_S13x100 main_cst_14
  let main_v41 : IVec S13x100 1 := cmpf .olt main_v39 main_v40
  let main_c_15 : IVec S_ 1 := constantI S_ 1 1#1
  let main_v42 : IVec S_ 1 := (fun x v => Host.reduce IntOp.andi x v reducesTo_S13x100_S_d0_1 h_S_) main_v41 main_c_15
  let main_v43 : IVec S_ 1 := andi main_v38 main_v42
  let main_v44 : FVec F S13 .f32 := Host.absf main_arg9
  let main_cst_16 : FVec F S_ .f32 := constant S_ .f32 0x7F800000#32
  let main_v45 : FVec F S13 .f32 := broadcastInDim S13 ![] bcast_S_S13 main_cst_16
  let main_v46 : IVec S13 1 := cmpf .olt main_v44 main_v45
  let main_c_17 : IVec S_ 1 := constantI S_ 1 1#1
  let main_v47 : IVec S_ 1 := (fun x v => Host.reduce IntOp.andi x v reducesTo_S13_S_d0 h_S_) main_v46 main_c_17
  let main_v48 : IVec S_ 1 := andi main_v43 main_v47
  main_v48

def fn_part1 {F : FTy → Type} [FloatOps F] (main_arg4 : FVec F S600x300 .f32) (main_arg5 : FVec F S600 .f32) (main_arg6 : FVec F S100x600 .f32) (main_arg7 : FVec F S100 .f32) (main_arg8 : FVec F S13x100 .f32) (main_arg9 : FVec F S13 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S600x300 .f32 := Host.absf main_arg4
  let main_cst_6 : FVec F S_ .f32 := constant S_ .f32 0x7F800000#32
  let main_v20 : FVec F S600x300 .f32 := broadcastInDim S600x300 ![] bcast_S_S600x300 main_cst_6
  let main_v21 : IVec S600x300 1 := cmpf .olt main_v19 main_v20
  let main_c_7 : IVec S_ 1 := constantI S_ 1 1#1
  let main_v22 : IVec S_ 1 := (fun x v => Host.reduce IntOp.andi x v reducesTo_S600x300_S_d0_1 h_S_) main_v21 main_c_7
  let main_v23 : IVec S_ 1 := andi main_v18 main_v22
  let main_v24 : FVec F S600 .f32 := Host.absf main_arg5
  let main_cst_8 : FVec F S_ .f32 := constant S_ .f32 0x7F800000#32
  let main_v25 : FVec F S600 .f32 := broadcastInDim S600 ![] bcast_S_S600 main_cst_8
  let main_v26 : IVec S600 1 := cmpf .olt main_v24 main_v25
  let main_c_9 : IVec S_ 1 := constantI S_ 1 1#1
  let main_v27 : IVec S_ 1 := (fun x v => Host.reduce IntOp.andi x v reducesTo_S600_S_d0 h_S_) main_v26 main_c_9
  let main_v28 : IVec S_ 1 := andi main_v23 main_v27
  let main_v29 : FVec F S100x600 .f32 := Host.absf main_arg6
  let main_cst_10 : FVec F S_ .f32 := constant S_ .f32 0x7F800000#32
  let main_v30 : FVec F S100x600 .f32 := broadcastInDim S100x600 ![] bcast_S_S100x600 main_cst_10
  let main_v31 : IVec S100x600 1 := cmpf .olt main_v29 main_v30
  let main_c_11 : IVec S_ 1 := constantI S_ 1 1#1
  let main_v32 : IVec S_ 1 := (fun x v => Host.reduce IntOp.andi x v reducesTo_S100x600_S_d0_1 h_S_) main_v31 main_c_11
  let main_v33 : IVec S_ 1 := andi main_v28 main_v32
  fn_part2 (F := F) main_arg7 main_arg8 main_arg9 main_v33

def fn {F : FTy → Type} [FloatOps F] (main_arg0 : FVec F S65536x13 .f32) (main_arg1 : FVec F S2048x13 .f32) (main_arg2 : FVec F S300x13 .f32) (main_arg3 : FVec F S300 .f32) (main_arg4 : FVec F S600x300 .f32) (main_arg5 : FVec F S600 .f32) (main_arg6 : FVec F S100x600 .f32) (main_arg7 : FVec F S100 .f32) (main_arg8 : FVec F S13x100 .f32) (main_arg9 : FVec F S13 .f32) : IVec S_ 1 :=
  let main_v0 : FVec F S65536x13 .f32 := Host.absf main_arg0
  let main_cst : FVec F S_ .f32 := constant S_ .f32 0x7F800000#32
  let main_v1 : FVec F S65536x13 .f32 := broadcastInDim S65536x13 ![] bcast_S_S65536x13 main_cst
  let main_v2 : IVec S65536x13 1 := cmpf .olt main_v0 main_v1
  let main_c : IVec S_ 1 := constantI S_ 1 1#1
  let main_v3 : IVec S_ 1 := (fun x v => Host.reduce IntOp.andi x v reducesTo_S65536x13_S_d0_1 h_S_) main_v2 main_c
  let main_v4 : FVec F S2048x13 .f32 := Host.absf main_arg1
  let main_cst_0 : FVec F S_ .f32 := constant S_ .f32 0x7F800000#32
  let main_v5 : FVec F S2048x13 .f32 := broadcastInDim S2048x13 ![] bcast_S_S2048x13 main_cst_0
  let main_v6 : IVec S2048x13 1 := cmpf .olt main_v4 main_v5
  let main_c_1 : IVec S_ 1 := constantI S_ 1 1#1
  let main_v7 : IVec S_ 1 := (fun x v => Host.reduce IntOp.andi x v reducesTo_S2048x13_S_d0_1 h_S_) main_v6 main_c_1
  let main_v8 : IVec S_ 1 := andi main_v3 main_v7
  let main_v9 : FVec F S300x13 .f32 := Host.absf main_arg2
  let main_cst_2 : FVec F S_ .f32 := constant S_ .f32 0x7F800000#32
  let main_v10 : FVec F S300x13 .f32 := broadcastInDim S300x13 ![] bcast_S_S300x13 main_cst_2
  let main_v11 : IVec S300x13 1 := cmpf .olt main_v9 main_v10
  let main_c_3 : IVec S_ 1 := constantI S_ 1 1#1
  let main_v12 : IVec S_ 1 := (fun x v => Host.reduce IntOp.andi x v reducesTo_S300x13_S_d0_1 h_S_) main_v11 main_c_3
  let main_v13 : IVec S_ 1 := andi main_v8 main_v12
  let main_v14 : FVec F S300 .f32 := Host.absf main_arg3
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg4 main_arg5 main_arg6 main_arg7 main_arg8 main_arg9 main_v13 main_v16
-- ==== Kernel.lean ====
abbrev S65536x13 : Shape := ⟨2, ![65536, 13]⟩
abbrev S2048x13 : Shape := ⟨2, ![2048, 13]⟩
abbrev S300x13 : Shape := ⟨2, ![300, 13]⟩
abbrev S300 : Shape := ⟨1, ![300]⟩
abbrev S600x300 : Shape := ⟨2, ![600, 300]⟩
abbrev S600 : Shape := ⟨1, ![600]⟩
abbrev S100x600 : Shape := ⟨2, ![100, 600]⟩
abbrev S100 : Shape := ⟨1, ![100]⟩
abbrev S13x100 : Shape := ⟨2, ![13, 100]⟩
abbrev S13 : Shape := ⟨1, ![13]⟩
abbrev S13x300 : Shape := ⟨2, ![13, 300]⟩
abbrev S300x600 : Shape := ⟨2, ![300, 600]⟩
abbrev S600x100 : Shape := ⟨2, ![600, 100]⟩
abbrev S100x13 : Shape := ⟨2, ![100, 13]⟩
abbrev S1x300 : Shape := ⟨2, ![1, 300]⟩
abbrev S1x600 : Shape := ⟨2, ![1, 600]⟩
abbrev S1x100 : Shape := ⟨2, ![1, 100]⟩
abbrev S1x13 : Shape := ⟨2, ![1, 13]⟩
abbrev S_ : Shape := ⟨0, ![]⟩
abbrev S2048 : Shape := ⟨1, ![2048]⟩
abbrev S2048x1 : Shape := ⟨2, ![2048, 1]⟩
abbrev S2x1x2048 : Shape := ⟨3, ![2, 1, 2048]⟩
abbrev S1024x13 : Shape := ⟨2, ![1024, 13]⟩
abbrev S1x1x2048 : Shape := ⟨3, ![1, 1, 2048]⟩
abbrev S1024x300 : Shape := ⟨2, ![1024, 300]⟩
abbrev S1024x600 : Shape := ⟨2, ![1024, 600]⟩
abbrev S1024x100 : Shape := ⟨2, ![1024, 100]⟩
abbrev S1024 : Shape := ⟨1, ![1024]⟩
abbrev S1024x1 : Shape := ⟨2, ![1024, 1]⟩
abbrev S2048x1024 : Shape := ⟨2, ![2048, 1024]⟩
abbrev S2x2048 : Shape := ⟨2, ![2, 2048]⟩

abbrev nBuf : Space → Nat
  | .hbm => 37
  | .vmem => 13
  | .smem => 0
  | _ => 0

abbrev bufTy : (tb : Table) → Fin (tcTables nBuf tb) → BufTy
  | .hbm, ⟨0, _⟩ => ⟨S65536x13, .f32⟩
  | .hbm, ⟨1, _⟩ => ⟨S2048x13, .f32⟩
  | .hbm, ⟨2, _⟩ => ⟨S300x13, .f32⟩
  | .hbm, ⟨3, _⟩ => ⟨S300, .f32⟩
  | .hbm, ⟨4, _⟩ => ⟨S600x300, .f32⟩
  | .hbm, ⟨5, _⟩ => ⟨S600, .f32⟩
  | .hbm, ⟨6, _⟩ => ⟨S100x600, .f32⟩
  | .hbm, ⟨7, _⟩ => ⟨S100, .f32⟩
  | .hbm, ⟨8, _⟩ => ⟨S13x100, .f32⟩
  | .hbm, ⟨9, _⟩ => ⟨S13, .f32⟩
  | .hbm, ⟨10, _⟩ => ⟨S13x300, .f32⟩
  | .hbm, ⟨11, _⟩ => ⟨S13x300, .bf16⟩
  | .hbm, ⟨12, _⟩ => ⟨S300x600, .f32⟩
  | .hbm, ⟨13, _⟩ => ⟨S300x600, .bf16⟩
  | .hbm, ⟨14, _⟩ => ⟨S600x100, .f32⟩
  | .hbm, ⟨15, _⟩ => ⟨S600x100, .bf16⟩
  | .hbm, ⟨16, _⟩ => ⟨S100x13, .f32⟩
  | .hbm, ⟨17, _⟩ => ⟨S100x13, .bf16⟩
  | .hbm, ⟨18, _⟩ => ⟨S1x300, .f32⟩
  | .hbm, ⟨19, _⟩ => ⟨S1x600, .f32⟩
  | .hbm, ⟨20, _⟩ => ⟨S1x100, .f32⟩
  | .hbm, ⟨21, _⟩ => ⟨S1x13, .f32⟩
  | .hbm, ⟨22, _⟩ => ⟨S2048x13, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S2048x13, .f32⟩
  | .hbm, ⟨31, _⟩ => ⟨S2048x13, .f32⟩
  | .hbm, ⟨32, _⟩ => ⟨S2048x13, .bf16⟩
  | .hbm, ⟨33, _⟩ => ⟨S2x1x2048, .f32⟩
  | .hbm, ⟨34, _⟩ => ⟨S2x2048, .f32⟩
  | .hbm, ⟨35, _⟩ => ⟨S_, .f32⟩
  | .hbm, ⟨36, _⟩ => ⟨S2048, .f32⟩
  | .local _ .vmem, ⟨0, _⟩ => ⟨S2048x13, .bf16⟩
  | .local _ .vmem, ⟨1, _⟩ => ⟨S1024x13, .f32⟩
  | .local _ .vmem, ⟨2, _⟩ => ⟨S1024x13, .f32⟩
  | .local _ .vmem, ⟨3, _⟩ => ⟨S13x300, .bf16⟩
  | .local _ .vmem, ⟨4, _⟩ => ⟨S1x300, .f32⟩
  | .local _ .vmem, ⟨5, _⟩ => ⟨S300x600, .bf16⟩
  | .local _ .vmem, ⟨6, _⟩ => ⟨S1x600, .f32⟩
  | .local _ .vmem, ⟨7, _⟩ => ⟨S600x100, .bf16⟩
  | .local _ .vmem, ⟨8, _⟩ => ⟨S1x100, .f32⟩
  | .local _ .vmem, ⟨9, _⟩ => ⟨S100x13, .bf16⟩
  | .local _ .vmem, ⟨10, _⟩ => ⟨S1x13, .f32⟩
  | .local _ .vmem, ⟨11, _⟩ => ⟨S1x1x2048, .f32⟩
  | .local _ .vmem, ⟨12, _⟩ => ⟨S1x1x2048, .f32⟩
  | _, _ => ⟨S65536x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_call0_v0 : Ref sig .tc := ⟨.hbm, 22, rfl⟩
abbrev main_call0_cst : Ref sig .tc := ⟨.hbm, 23, rfl⟩
abbrev main_call0_v1 : Ref sig .tc := ⟨.hbm, 24, rfl⟩
abbrev main_call0_v2 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x13 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x13 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S13x300 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x300 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S300x600 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x600 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S600x100 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x100 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S100x13 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x13 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

class Facts₀ : Prop where
  transposes_S300x13_S13x300_1_0 : S300x13.Transposes [1, 0] S13x300
  bitsLt_bf16_f32 : FTy.bits .bf16 < FTy.bits .f32
  transposes_S600x300_S300x600_1_0 : S600x300.Transposes [1, 0] S300x600
  transposes_S100x600_S600x100_1_0 : S100x600.Transposes [1, 0] S600x100
  transposes_S13x100_S100x13_1_0 : S13x100.Transposes [1, 0] S100x13
  shapeCasts_S300_S1x300 : S300.ShapeCasts S1x300
  shapeCasts_S600_S1x600 : S600.ShapeCasts S1x600
  shapeCasts_S100_S1x100 : S100.ShapeCasts S1x100
  shapeCasts_S13_S1x13 : S13.ShapeCasts S1x13
  reducesTo_S2048x13_S2048_d1 : S2048x13.ReducesTo [1] S2048
  h_S_ : 0 < S_.numel
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x13_0_1 : S2048x1.BroadcastsInDim S2048x13 (![0, 1] : Fin 2 → Fin S2048x13.rank)
  inb_S1024x13_S1024x13_0_0 : ∀ a, (![0, 0] : Fin 2 → Nat) a + S1024x13.size a ≤ S1024x13.size a
  h_S1024x13 : 0 < S1024x13.numel
  inb_S13x300_S13x300_0_0 : ∀ a, (![0, 0] : Fin 2 → Nat) a + S13x300.size a ≤ S13x300.size a
  h_S13x300 : 0 < S13x300.numel
  shapeCasts_S13x300_S13x300 : S13x300.ShapeCasts S13x300
  inb_S1x300_S1x300_0_0 : ∀ a, (![0, 0] : Fin 2 → Nat) a + S1x300.size a ≤ S1x300.size a
  h_S1x300 : 0 < S1x300.numel
  shapeCasts_S1x300_S1x300 : S1x300.ShapeCasts S1x300
  broadcasts_S1x300_S1024x300 : S1x300.Broadcasts S1024x300
  inb_S300x600_S300x600_0_0 : ∀ a, (![0, 0] : Fin 2 → Nat) a + S300x600.size a ≤ S300x600.size a
  h_S300x600 : 0 < S300x600.numel
  shapeCasts_S300x600_S300x600 : S300x600.ShapeCasts S300x600
  inb_S1x600_S1x600_0_0 : ∀ a, (![0, 0] : Fin 2 → Nat) a + S1x600.size a ≤ S1x600.size a
  h_S1x600 : 0 < S1x600.numel
  shapeCasts_S1x600_S1x600 : S1x600.ShapeCasts S1x600
  broadcasts_S1x600_S1024x600 : S1x600.Broadcasts S1024x600
  inb_S600x100_S600x100_0_0 : ∀ a, (![0, 0] : Fin 2 → Nat) a + S600x100.size a ≤ S600x100.size a
  h_S600x100 : 0 < S600x100.numel
  shapeCasts_S600x100_S600x100 : S600x100.ShapeCasts S600x100
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S1x100_S1024x100 : S1x100.Broadcasts S1024x100
  inb_S100x13_S100x13_0_0 : ∀ a, (![0, 0] : Fin 2 → Nat) a + S100x13.size a ≤ S100x13.size a
  h_S100x13 : 0 < S100x13.numel
  shapeCasts_S100x13_S100x13 : S100x13.ShapeCasts S100x13
  inb_S1x13_S1x13_0_0 : ∀ a, (![0, 0] : Fin 2 → Nat) a + S1x13.size a ≤ S1x13.size a
  h_S1x13 : 0 < S1x13.numel
  shapeCasts_S1x13_S1x13 : S1x13.ShapeCasts S1x13
  broadcasts_S1x13_S1024x13 : S1x13.Broadcasts S1024x13
  reduces_S1024x13_S1024 : S1024x13.Reduces [1] S1024
  shapeCasts_S1024_S1024x1 : S1024.ShapeCasts S1024x1
  broadcasts_S1024x1_S1024x13 : S1024x1.Broadcasts S1024x13
  inb_S2048x13_S2048x13_0_0 : ∀ a, (![0, 0] : Fin 2 → Nat) a + S2048x13.size a ≤ S2048x13.size a
  h_S2048x13 : 0 < S2048x13.numel
  shapeCasts_S2048x13_S2048x13 : S2048x13.ShapeCasts S2048x13
  reduces_S2048x1024_S2048 : S2048x1024.Reduces [1] S2048
  shapeCasts_S2048_S1x1x2048 : S2048.ShapeCasts S1x1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x1x2048 : S1x1x2048.ShapeCasts S1x1x2048
  shapeCasts_S2x1x2048_S2x2048 : S2x1x2048.ShapeCasts S2x2048
  reducesTo_S2x2048_S2048_d0 : S2x2048.ReducesTo [0] S2048
  dot_S1024x13_S13x300_S1024x300_1_0_0_1_n_n_wf : DotDims.WF S1024x13 S13x300 S1024x300 [1] [0] [0] [1] [] []
  dot_S1024x300_S300x600_S1024x600_1_0_0_1_n_n_wf : DotDims.WF S1024x300 S300x600 S1024x600 [1] [0] [0] [1] [] []
  dot_S1024x600_S600x100_S1024x100_1_0_0_1_n_n_wf : DotDims.WF S1024x600 S600x100 S1024x100 [1] [0] [0] [1] [] []
  dot_S1024x100_S100x13_S1024x13_1_0_0_1_n_n_wf : DotDims.WF S1024x100 S100x13 S1024x13 [1] [0] [0] [1] [] []
  dot_S2048x13_S1024x13_S2048x1024_1_1_0_0_n_n_wf : DotDims.WF S2048x13 S1024x13 S2048x1024 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x13.size a ≤ S2048x13.size a
  hwx0_0 : ∀ i : grid0.Coords, EltTy.bits .bf16 = 32 ∨ (Rect.block (s := S2048x13) S2048x13.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x13.size a ≤ S65536x13.size a
  hwx0_1 : ∀ i : grid0.Coords, EltTy.bits .f32 = 32 ∨ (Rect.block (s := S65536x13) S1024x13.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S13x300.size a ≤ S13x300.size a
  hwx0_2 : ∀ i : grid0.Coords, EltTy.bits .bf16 = 32 ∨ (Rect.block (s := S13x300) S13x300.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x300.size a ≤ S1x300.size a
  hwx0_3 : ∀ i : grid0.Coords, EltTy.bits .f32 = 32 ∨ (Rect.block (s := S1x300) S1x300.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S300x600.size a ≤ S300x600.size a
  hwx0_4 : ∀ i : grid0.Coords, EltTy.bits .bf16 = 32 ∨ (Rect.block (s := S300x600) S300x600.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x600.size a ≤ S1x600.size a
  hwx0_5 : ∀ i : grid0.Coords, EltTy.bits .f32 = 32 ∨ (Rect.block (s := S1x600) S1x600.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S600x100.size a ≤ S600x100.size a
  hwx0_6 : ∀ i : grid0.Coords, EltTy.bits .bf16 = 32 ∨ (Rect.block (s := S600x100) S600x100.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x100.size a ≤ S1x100.size a
  hwx0_7 : ∀ i : grid0.Coords, EltTy.bits .f32 = 32 ∨ (Rect.block (s := S1x100) S1x100.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S100x13.size a ≤ S100x13.size a
  hwx0_8 : ∀ i : grid0.Coords, EltTy.bits .bf16 = 32 ∨ (Rect.block (s := S100x13) S100x13.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x13.size a ≤ S1x13.size a
  hwx0_9 : ∀ i : grid0.Coords, EltTy.bits .f32 = 32 ∨ (Rect.block (s := S1x13) S1x13.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x2048.size a ≤ S2x1x2048.size a
  hwx0_10 : ∀ i : grid0.Coords, EltTy.bits .f32 = 32 ∨ (Rect.block (s := S2x1x2048) S1x1x2048.size (cc0_transform_10 i) (hinb0_10 i)).WholeWords (EltTy.packing .f32)

variable [Facts₀]

def dot_S1024x13_S13x300_S1024x300_1_0_0_1_n_n : DotDims S1024x13 S13x300 S1024x300 where
  lhsContracting := [1]
  rhsContracting := [0]
  lhsNonContracting := [0]
  rhsNonContracting := [1]
  lhsBatch := []
  rhsBatch := []
  wf := dot_S1024x13_S13x300_S1024x300_1_0_0_1_n_n_wf
def dot_S1024x300_S300x600_S1024x600_1_0_0_1_n_n : DotDims S1024x300 S300x600 S1024x600 where
  lhsContracting := [1]
  rhsContracting := [0]
  lhsNonContracting := [0]
  rhsNonContracting := [1]
  lhsBatch := []
  rhsBatch := []
  wf := dot_S1024x300_S300x600_S1024x600_1_0_0_1_n_n_wf
def dot_S1024x600_S600x100_S1024x100_1_0_0_1_n_n : DotDims S1024x600 S600x100 S1024x100 where
  lhsContracting := [1]
  rhsContracting := [0]
  lhsNonContracting := [0]
  rhsNonContracting := [1]
  lhsBatch := []
  rhsBatch := []
  wf := dot_S1024x600_S600x100_S1024x100_1_0_0_1_n_n_wf
def dot_S1024x100_S100x13_S1024x13_1_0_0_1_n_n : DotDims S1024x100 S100x13 S1024x13 where
  lhsContracting := [1]
  rhsContracting := [0]
  lhsNonContracting := [0]
  rhsNonContracting := [1]
  lhsBatch := []
  rhsBatch := []
  wf := dot_S1024x100_S100x13_S1024x13_1_0_0_1_n_n_wf
def dot_S2048x13_S1024x13_S2048x1024_1_1_0_0_n_n : DotDims S2048x13 S1024x13 S2048x1024 where
  lhsContracting := [1]
  rhsContracting := [1]
  lhsNonContracting := [0]
  rhsNonContracting := [0]
  lhsBatch := []
  rhsBatch := []
  wf := dot_S2048x13_S1024x13_S2048x1024_1_1_0_0_n_n_wf

abbrev win0_0 : Pipeline.Window sig grid0 :=
  Pipeline.Window.ofSpec (Memref.whole main_v17) S2048x13.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x13.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S13x300.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x300.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S300x600.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x600.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S600x100.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x100.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S100x13.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x13.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v18) S1x1x2048.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S65536x13 : Shape := ⟨2, ![65536, 13]⟩
abbrev S2048x13 : Shape := ⟨2, ![2048, 13]⟩
abbrev S300x13 : Shape := ⟨2, ![300, 13]⟩
abbrev S300 : Shape := ⟨1, ![300]⟩
abbrev S600x300 : Shape := ⟨2, ![600, 300]⟩
abbrev S600 : Shape := ⟨1, ![600]⟩
abbrev S100x600 : Shape := ⟨2, ![100, 600]⟩
abbrev S100 : Shape := ⟨1, ![100]⟩
abbrev S13x100 : Shape := ⟨2, ![13, 100]⟩
abbrev S13 : Shape := ⟨1, ![13]⟩
abbrev S13x300 : Shape := ⟨2, ![13, 300]⟩
abbrev S65536x300 : Shape := ⟨2, ![65536, 300]⟩
abbrev S1x300 : Shape := ⟨2, ![1, 300]⟩
abbrev S_ : Shape := ⟨0, ![]⟩
abbrev S300x600 : Shape := ⟨2, ![300, 600]⟩
abbrev S65536x600 : Shape := ⟨2, ![65536, 600]⟩
abbrev S1x600 : Shape := ⟨2, ![1, 600]⟩
abbrev S600x100 : Shape := ⟨2, ![600, 100]⟩
abbrev S65536x100 : Shape := ⟨2, ![65536, 100]⟩
abbrev S1x100 : Shape := ⟨2, ![1, 100]⟩
abbrev S100x13 : Shape := ⟨2, ![100, 13]⟩
abbrev S1x13 : Shape := ⟨2, ![1, 13]⟩
abbrev S65536 : Shape := ⟨1, ![65536]⟩
abbrev S65536x1 : Shape := ⟨2, ![65536, 1]⟩
abbrev S2048 : Shape := ⟨1, ![2048]⟩
abbrev S2048x1 : Shape := ⟨2, ![2048, 1]⟩
abbrev S13x65536 : Shape := ⟨2, ![13, 65536]⟩
abbrev S2048x65536 : Shape := ⟨2, ![2048, 65536]⟩

abbrev nBuf : Space → Nat
  | .hbm => 79
  | .vmem => 0
  | .smem => 0
  | _ => 0

abbrev bufTy : (tb : Table) → Fin (tcTables nBuf tb) → BufTy
  | .hbm, ⟨0, _⟩ => ⟨S65536x13, .f32⟩
  | .hbm, ⟨1, _⟩ => ⟨S2048x13, .f32⟩
  | .hbm, ⟨2, _⟩ => ⟨S300x13, .f32⟩
  | .hbm, ⟨3, _⟩ => ⟨S300, .f32⟩
  | .hbm, ⟨4, _⟩ => ⟨S600x300, .f32⟩
  | .hbm, ⟨5, _⟩ => ⟨S600, .f32⟩
  | .hbm, ⟨6, _⟩ => ⟨S100x600, .f32⟩
  | .hbm, ⟨7, _⟩ => ⟨S100, .f32⟩
  | .hbm, ⟨8, _⟩ => ⟨S13x100, .f32⟩
  | .hbm, ⟨9, _⟩ => ⟨S13, .f32⟩
  | .hbm, ⟨10, _⟩ => ⟨S13x300, .f32⟩
  | .hbm, ⟨11, _⟩ => ⟨S65536x300, .f32⟩
  | .hbm, ⟨12, _⟩ => ⟨S1x300, .f32⟩
  | .hbm, ⟨13, _⟩ => ⟨S65536x300, .f32⟩
  | .hbm, ⟨14, _⟩ => ⟨S65536x300, .f32⟩
  | .hbm, ⟨15, _⟩ => ⟨S_, .f32⟩
  | .hbm, ⟨16, _⟩ => ⟨S65536x300, .f32⟩
  | .hbm, ⟨17, _⟩ => ⟨S65536x300, .f32⟩
  | .hbm, ⟨18, _⟩ => ⟨S300x600, .f32⟩
  | .hbm, ⟨19, _⟩ => ⟨S65536x600, .f32⟩
  | .hbm, ⟨20, _⟩ => ⟨S1x600, .f32⟩
  | .hbm, ⟨21, _⟩ => ⟨S65536x600, .f32⟩
  | .hbm, ⟨22, _⟩ => ⟨S65536x600, .f32⟩
  | .hbm, ⟨23, _⟩ => ⟨S_, .f32⟩
  | .hbm, ⟨24, _⟩ => ⟨S_, .f32⟩
  | .hbm, ⟨25, _⟩ => ⟨S65536x600, .f32⟩
  | .hbm, ⟨26, _⟩ => ⟨S65536x600, .i1⟩
  | .hbm, ⟨27, _⟩ => ⟨S_, .f32⟩
  | .hbm, ⟨28, _⟩ => ⟨S65536x600, .f32⟩
  | .hbm, ⟨29, _⟩ => ⟨S65536x600, .f32⟩
  | .hbm, ⟨30, _⟩ => ⟨S65536x600, .f32⟩
  | .hbm, ⟨31, _⟩ => ⟨S600x100, .f32⟩
  | .hbm, ⟨32, _⟩ => ⟨S65536x100, .f32⟩
  | .hbm, ⟨33, _⟩ => ⟨S1x100, .f32⟩
  | .hbm, ⟨34, _⟩ => ⟨S65536x100, .f32⟩
  | .hbm, ⟨35, _⟩ => ⟨S65536x100, .f32⟩
  | .hbm, ⟨36, _⟩ => ⟨S_, .f32⟩
  | .hbm, ⟨37, _⟩ => ⟨S65536x100, .f32⟩
  | .hbm, ⟨38, _⟩ => ⟨S65536x100, .f32⟩
  | .hbm, ⟨39, _⟩ => ⟨S100x13, .f32⟩
  | .hbm, ⟨40, _⟩ => ⟨S65536x13, .f32⟩
  | .hbm, ⟨41, _⟩ => ⟨S1x13, .f32⟩
  | .hbm, ⟨42, _⟩ => ⟨S65536x13, .f32⟩
  | .hbm, ⟨43, _⟩ => ⟨S65536x13, .f32⟩
  | .hbm, ⟨44, _⟩ => ⟨S_, .f32⟩
  | .hbm, ⟨45, _⟩ => ⟨S_, .f32⟩
  | .hbm, ⟨46, _⟩ => ⟨S65536x13, .f32⟩
  | .hbm, ⟨47, _⟩ => ⟨S65536x13, .i1⟩
  | .hbm, ⟨48, _⟩ => ⟨S_, .f32⟩
  | .hbm, ⟨49, _⟩ => ⟨S65536x13, .f32⟩
  | .hbm, ⟨50, _⟩ => ⟨S65536x13, .f32⟩
  | .hbm, ⟨51, _⟩ => ⟨S65536x13, .f32⟩
  | .hbm, ⟨52, _⟩ => ⟨S65536x13, .f32⟩
  | .hbm, ⟨53, _⟩ => ⟨S_, .f32⟩
  | .hbm, ⟨54, _⟩ => ⟨S65536, .f32⟩
  | .hbm, ⟨55, _⟩ => ⟨S65536x1, .f32⟩
  | .hbm, ⟨56, _⟩ => ⟨S65536x1, .f32⟩
  | .hbm, ⟨57, _⟩ => ⟨S_, .f32⟩
  | .hbm, ⟨58, _⟩ => ⟨S65536x1, .f32⟩
  | .hbm, ⟨59, _⟩ => ⟨S65536x1, .f32⟩
  | .hbm, ⟨60, _⟩ => ⟨S65536x13, .f32⟩
  | .hbm, ⟨61, _⟩ => ⟨S65536x13, .f32⟩
  | .hbm, ⟨62, _⟩ => ⟨S2048x13, .f32⟩
  | .hbm, ⟨63, _⟩ => ⟨S_, .f32⟩
  | .hbm, ⟨64, _⟩ => ⟨S2048, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048x1, .f32⟩
  | .hbm, ⟨69, _⟩ => ⟨S2048x1, .f32⟩
  | .hbm, ⟨70, _⟩ => ⟨S2048x13, .f32⟩
  | .hbm, ⟨71, _⟩ => ⟨S2048x13, .f32⟩
  | .hbm, ⟨72, _⟩ => ⟨S13x65536, .f32⟩
  | .hbm, ⟨73, _⟩ => ⟨S2048x65536, .f32⟩
  | .hbm, ⟨74, _⟩ => ⟨S_, .f32⟩
  | .hbm, ⟨75, _⟩ => ⟨S2048x65536, .f32⟩
  | .hbm, ⟨76, _⟩ => ⟨S2048x65536, .f32⟩
  | .hbm, ⟨77, _⟩ => ⟨S_, .f32⟩
  | .hbm, ⟨78, _⟩ => ⟨S2048, .f32⟩
  | _, _ => ⟨S65536x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_call1_cst : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_call2_cst : Ref sig .tc := ⟨.hbm, 36, rfl⟩
abbrev main_call2_v0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_0 : Ref sig .tc := ⟨.hbm, 44, rfl⟩
abbrev main_call3_cst : Ref sig .tc := ⟨.hbm, 45, rfl⟩
abbrev main_call3_v0 : Ref sig .tc := ⟨.hbm, 46, rfl⟩
abbrev main_call3_v1 : Ref sig .tc := ⟨.hbm, 47, rfl⟩
abbrev main_call3_v2 : Ref sig .tc := ⟨.hbm, 48, rfl⟩
abbrev main_call3_v3 : Ref sig .tc := ⟨.hbm, 49, rfl⟩
abbrev main_call3_v4 : Ref sig .tc := ⟨.hbm, 50, rfl⟩
abbrev main_v23 : Ref sig .tc := ⟨.hbm, 51, rfl⟩
abbrev main_call4_v0 : Ref sig .tc := ⟨.hbm, 52, rfl⟩
abbrev main_call4_cst : Ref sig .tc := ⟨.hbm, 53, rfl⟩
abbrev main_call4_v1 : Ref sig .tc := ⟨.hbm, 54, rfl⟩
abbrev main_call4_v2 : Ref sig .tc := ⟨.hbm, 55, rfl⟩
abbrev main_v24 : Ref sig .tc := ⟨.hbm, 56, rfl⟩
abbrev main_cst_1 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_call5_v0 : Ref sig .tc := ⟨.hbm, 62, rfl⟩
abbrev main_call5_cst : Ref sig .tc := ⟨.hbm, 63, rfl⟩
abbrev main_call5_v1 : Ref sig .tc := ⟨.hbm, 64, rfl⟩
abbrev main_call5_v2 : Ref sig .tc := ⟨.hbm, 65, rfl⟩
abbrev main_v29 : Ref sig .tc := ⟨.hbm, 66, rfl⟩
abbrev main_cst_2 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_cst_3 : Ref sig .tc := ⟨.hbm, 74, rfl⟩
abbrev main_v36 : Ref sig .tc := ⟨.hbm, 75, rfl⟩
abbrev main_v37 : Ref sig .tc := ⟨.hbm, 76, rfl⟩
abbrev main_cst_4 : Ref sig .tc := ⟨.hbm, 77, rfl⟩
abbrev main_v38 : Ref sig .tc := ⟨.hbm, 78, rfl⟩

abbrev nD : Nat := 1
abbrev τ : Topo := Topo.v7x

variable {F : FTy → Type} [FloatOps F]

class Facts₀ : Prop where
  transposes_S300x13_S13x300_1_0 : S300x13.Transposes [1, 0] S13x300
  bcast_S300_S1x300_1 : S300.BroadcastsInDim S1x300 (![1] : Fin 1 → Fin S1x300.rank)
  bcast_S1x300_S65536x300_0_1 : S1x300.BroadcastsInDim S65536x300 (![0, 1] : Fin 2 → Fin S65536x300.rank)
  bcast_S_S65536x300 : S_.BroadcastsInDim S65536x300 (![] : Fin 0 → Fin S65536x300.rank)
  transposes_S600x300_S300x600_1_0 : S600x300.Transposes [1, 0] S300x600
  bcast_S600_S1x600_1 : S600.BroadcastsInDim S1x600 (![1] : Fin 1 → Fin S1x600.rank)
  bcast_S1x600_S65536x600_0_1 : S1x600.BroadcastsInDim S65536x600 (![0, 1] : Fin 2 → Fin S65536x600.rank)
  bcast_S_S65536x600 : S_.BroadcastsInDim S65536x600 (![] : Fin 0 → Fin S65536x600.rank)
  transposes_S100x600_S600x100_1_0 : S100x600.Transposes [1, 0] S600x100
  bcast_S100_S1x100_1 : S100.BroadcastsInDim S1x100 (![1] : Fin 1 → Fin S1x100.rank)
  bcast_S1x100_S65536x100_0_1 : S1x100.BroadcastsInDim S65536x100 (![0, 1] : Fin 2 → Fin S65536x100.rank)
  bcast_S_S65536x100 : S_.BroadcastsInDim S65536x100 (![] : Fin 0 → Fin S65536x100.rank)
  transposes_S13x100_S100x13_1_0 : S13x100.Transposes [1, 0] S100x13
  bcast_S13_S1x13_1 : S13.BroadcastsInDim S1x13 (![1] : Fin 1 → Fin S1x13.rank)
  bcast_S1x13_S65536x13_0_1 : S1x13.BroadcastsInDim S65536x13 (![0, 1] : Fin 2 → Fin S65536x13.rank)
  bcast_S_S65536x13 : S_.BroadcastsInDim S65536x13 (![] : Fin 0 → Fin S65536x13.rank)
  reducesTo_S65536x13_S65536_d1 : S65536x13.ReducesTo [1] S65536
  h_S_ : 0 < S_.numel
  bcast_S65536_S65536x1_0 : S65536.BroadcastsInDim S65536x1 (![0] : Fin 1 → Fin S65536x1.rank)
  bcast_S_S65536x1 : S_.BroadcastsInDim S65536x1 (![] : Fin 0 → Fin S65536x1.rank)
  bcast_S65536x1_S65536x13_0_1 : S65536x1.BroadcastsInDim S65536x13 (![0, 1] : Fin 2 → Fin S65536x13.rank)
  reducesTo_S2048x13_S2048_d1 : S2048x13.ReducesTo [1] S2048
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S2048x1_S2048x13_0_1 : S2048x1.BroadcastsInDim S2048x13 (![0, 1] : Fin 2 → Fin S2048x13.rank)
  transposes_S65536x13_S13x65536_1_0 : S65536x13.Transposes [1, 0] S13x65536
  bcast_S_S2048x65536 : S_.BroadcastsInDim S2048x65536 (![] : Fin 0 → Fin S2048x65536.rank)
  reducesTo_S2048x65536_S2048_d1 : S2048x65536.ReducesTo [1] S2048
  dot_S65536x13_S13x300_S65536x300_1_0_0_1_n_n_wf : DotDims.WF S65536x13 S13x300 S65536x300 [1] [0] [0] [1] [] []
  dot_S65536x300_S300x600_S65536x600_1_0_0_1_n_n_wf : DotDims.WF S65536x300 S300x600 S65536x600 [1] [0] [0] [1] [] []
  dot_S65536x600_S600x100_S65536x100_1_0_0_1_n_n_wf : DotDims.WF S65536x600 S600x100 S65536x100 [1] [0] [0] [1] [] []
  dot_S65536x100_S100x13_S65536x13_1_0_0_1_n_n_wf : DotDims.WF S65536x100 S100x13 S65536x13 [1] [0] [0] [1] [] []
  dot_S2048x13_S13x65536_S2048x65536_1_0_0_1_n_n_wf : DotDims.WF S2048x13 S13x65536 S2048x65536 [1] [0] [0] [1] [] []

variable [Facts₀]

def dot_S65536x13_S13x300_S65536x300_1_0_0_1_n_n : DotDims S65536x13 S13x300 S65536x300 where
  lhsContracting := [1]
  rhsContracting := [0]
  lhsNonContracting := [0]
  rhsNonContracting := [1]
  lhsBatch := []
  rhsBatch := []
  wf := dot_S65536x13_S13x300_S65536x300_1_0_0_1_n_n_wf
def dot_S65536x300_S300x600_S65536x600_1_0_0_1_n_n : DotDims S65536x300 S300x600 S65536x600 where
  lhsContracting := [1]
  rhsContracting := [0]
  lhsNonContracting := [0]
  rhsNonContracting := [1]
  lhsBatch := []
  rhsBatch := []
  wf := dot_S65536x300_S300x600_S65536x600_1_0_0_1_n_n_wf
def dot_S65536x600_S600x100_S65536x100_1_0_0_1_n_n : DotDims S65536x600 S600x100 S65536x100 where
  lhsContracting := [1]
  rhsContracting := [0]
  lhsNonContracting := [0]
  rhsNonContracting := [1]
  lhsBatch := []
  rhsBatch := []
  wf := dot_S65536x600_S600x100_S65536x100_1_0_0_1_n_n_wf
def dot_S65536x100_S100x13_S65536x13_1_0_0_1_n_n : DotDims S65536x100 S100x13 S65536x13 where
  lhsContracting := [1]
  rhsContracting := [0]
  lhsNonContracting := [0]
  rhsNonContracting := [1]
  lhsBatch := []
  rhsBatch := []
  wf := dot_S65536x100_S100x13_S65536x13_1_0_0_1_n_n_wf
def dot_S2048x13_S13x65536_S2048x65536_1_0_0_1_n_n : DotDims S2048x13 S13x65536 S2048x65536 where
  lhsContracting := [1]
  rhsContracting := [0]
  lhsNonContracting := [0]
  rhsNonContracting := [1]
  lhsBatch := []
  rhsBatch := []
  wf := dot_S2048x13_S13x65536_S2048x65536_1_0_0_1_n_n_wf

class Facts : Prop extends Facts₀ where

variable [Facts]
-- ==== Proof.KernelPieces.lean ====
import proofs.«144253_j65335042507035_2_alg».proof.Proof.Gen.KernelIdeal.Frame
import Idealize.ShloMosaic.Lib.Pipeline.Value
import Idealize.ShloMosaic.Lib.Tactic

set_option maxRecDepth 16384

noncomputable section

/-! What the body leaves in the output block after one grid point, as a function of the input blocks: the running
maximum's new value is the larger of the old value — the finite starting value at the first tile of a run, otherwise
what the point before left — and the tile's own maximum. -/

namespace Cert.KernelIdeal.Pieces

open Idealize.ShloMosaic Idealize.ShloMosaic.TcCoe Idealize.ShloMosaic.Tactic
open Idealize.SL Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A point that is not the first of its run: the block held `xo10`, and ends at the larger of `xo10` and the tile's
    maximum. -/
theorem out_B (c : Dev nD) (i : grid0.Coords) (arg2 : Memref sig .tc .vmem S2048x13 .bf16) (harg2 : arg2.IsWhole) (arg3 : Memref sig .tc .vmem S1024x13 .f32) (harg3 : arg3.IsWhole) (arg4 : Memref sig .tc .vmem S13x300 .bf16) (harg4 : arg4.IsWhole) (arg5 : Memref sig .tc .vmem S1x300 .f32) (harg5 : arg5.IsWhole) (arg6 : Memref sig .tc .vmem S300x600 .bf16) (harg6 : arg6.IsWhole) (arg7 : Memref sig .tc .vmem S1x600 .f32) (harg7 : arg7.IsWhole) (arg8 : Memref sig .tc .vmem S600x100 .bf16) (harg8 : arg8.IsWhole) (arg9 : Memref sig .tc .vmem S1x100 .f32) (harg9 : arg9.IsWhole) (arg10 : Memref sig .tc .vmem S100x13 .bf16) (harg10 : arg10.IsWhole) (arg11 : Memref sig .tc .vmem S1x13 .f32) (harg11 : arg11.IsWhole) (arg12 : Memref sig .tc .vmem S1x1x2048 .f32) (harg12 : arg12.IsWhole) (hc0 : ¬cond0_0 i)
    (x0 : Vec F S2048x13 .bf16) (x1 : Vec F S1024x13 .f32) (x2 : Vec F S13x300 .bf16) (x3 : Vec F S1x300 .f32) (x4 : Vec F S300x600 .bf16) (x5 : Vec F S1x600 .f32) (x6 : Vec F S600x100 .bf16) (x7 : Vec F S1x100 .f32) (x8 : Vec F S100x13 .bf16) (x9 : Vec F S1x13 .f32) (xo10 : Vec F S1x1x2048 .f32) :
    out0_B_10 c i arg2 harg2 arg3 harg3 arg4 harg4 arg5 harg5 arg6 harg6 arg7 harg7 arg8 harg8 arg9 harg9 arg10 harg10 arg11 harg11 arg12 harg12 hc0 x0 x1 x2 x3 x4 x5 x6 x7 x8 x9 xo10 = k0_pay2 (k0_pay3 x1 x2 x3 x4 x5 x6 x7) x8 x9 x0 xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 hc0 x0 x1 x2 x3 x4 x5 x6 x7 x8 x9 xo10)]
  unfold kernelRun0_B
  dsimp only
  sl_unfold_words
  rw [View.canon_unit_zero hz3]
  simp only [View.readAt_eq_ld, harg2.read_unread, harg3.read_unread, harg4.read_unread, harg5.read_unread,
    harg6.read_unread, harg7.read_unread, harg8.read_unread, harg9.read_unread, harg10.read_unread, harg11.read_unread,
    harg12.read_unread, View.ld_unit_zero (S := S2048x13) hz2, View.ld_unit_zero (S := S1024x13) hz2,
    View.ld_unit_zero (S := S13x300) hz2, View.ld_unit_zero (S := S1x300) hz2, View.ld_unit_zero (S := S300x600) hz2,
    View.ld_unit_zero (S := S1x600) hz2, View.ld_unit_zero (S := S600x100) hz2, View.ld_unit_zero (S := S1x100) hz2,
    View.ld_unit_zero (S := S100x13) hz2, View.ld_unit_zero (S := S1x13) hz2, View.ld_unit_zero (S := S1x1x2048) hz3]

/-- The first point of a run: the block is first filled with the finite starting value, and ends at the larger of that
    and the tile's maximum. -/
theorem out_A (c : Dev nD) (i : grid0.Coords) (arg2 : Memref sig .tc .vmem S2048x13 .bf16) (harg2 : arg2.IsWhole) (arg3 : Memref sig .tc .vmem S1024x13 .f32) (harg3 : arg3.IsWhole) (arg4 : Memref sig .tc .vmem S13x300 .bf16) (harg4 : arg4.IsWhole) (arg5 : Memref sig .tc .vmem S1x300 .f32) (harg5 : arg5.IsWhole) (arg6 : Memref sig .tc .vmem S300x600 .bf16) (harg6 : arg6.IsWhole) (arg7 : Memref sig .tc .vmem S1x600 .f32) (harg7 : arg7.IsWhole) (arg8 : Memref sig .tc .vmem S600x100 .bf16) (harg8 : arg8.IsWhole) (arg9 : Memref sig .tc .vmem S1x100 .f32) (harg9 : arg9.IsWhole) (arg10 : Memref sig .tc .vmem S100x13 .bf16) (harg10 : arg10.IsWhole) (arg11 : Memref sig .tc .vmem S1x13 .f32) (harg11 : arg11.IsWhole) (arg12 : Memref sig .tc .vmem S1x1x2048 .f32) (harg12 : arg12.IsWhole) (hc0 : cond0_0 i)
    (x0 : Vec F S2048x13 .bf16) (x1 : Vec F S1024x13 .f32) (x2 : Vec F S13x300 .bf16) (x3 : Vec F S1x300 .f32) (x4 : Vec F S300x600 .bf16) (x5 : Vec F S1x600 .f32) (x6 : Vec F S600x100 .bf16) (x7 : Vec F S1x100 .f32) (x8 : Vec F S100x13 .bf16) (x9 : Vec F S1x13 .f32) :
    out0_A_10 c i arg2 harg2 arg3 harg3 arg4 harg4 arg5 harg5 arg6 harg6 arg7 harg7 arg8 harg8 arg9 harg9 arg10 harg10 arg11 harg11 arg12 harg12 hc0 x0 x1 x2 x3 x4 x5 x6 x7 x8 x9 = k0_pay2 (k0_pay3 x1 x2 x3 x4 x5 x6 x7) x8 x9 x0 k0_pay1 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 hc0 x0 x1 x2 x3 x4 x5 x6 x7 x8 x9)]
  unfold kernelRun0_A
  dsimp only
  sl_unfold_words
  rw [View.canon_cons_unit_zero (S := S1x1x2048) hz3, View.readCov_unit_zero (S := S1x1x2048) _ hz3]
  simp only [View.readAt_eq_ld, harg2.read_unread, harg3.read_unread, harg4.read_unread, harg5.read_unread,
    harg6.read_unread, harg7.read_unread, harg8.read_unread, harg9.read_unread, harg10.read_unread, harg11.read_unread,
    View.ld_unit_zero (S := S2048x13) hz2, View.ld_unit_zero (S := S1024x13) hz2,
    View.ld_unit_zero (S := S13x300) hz2, View.ld_unit_zero (S := S1x300) hz2, View.ld_unit_zero (S := S300x600) hz2,
    View.ld_unit_zero (S := S1x600) hz2, View.ld_unit_zero (S := S600x100) hz2, View.ld_unit_zero (S := S1x100) hz2,
    View.ld_unit_zero (S := S100x13) hz2, View.ld_unit_zero (S := S1x13) hz2, View.ld_unit_zero (S := S1x1x2048) hz3]

end Cert.KernelIdeal.Pieces

end
-- ==== Proof.PayStages.lean ====
/-
  The kernel body's arithmetic in stages. One grid point holds a tile of 1024 memory rows; it passes them through the
  four dense layers (rectifier, leaky rectifier, rectifier, leaky rectifier), divides each resulting row by the larger
  of its length and the floor, takes the dot of every query row (already so divided) with every tile row times 23, and
  per query row the greatest of these 1024 numbers; the block's new content is the larger of its old content and that.
  Each stage below is the body's own operations on its direct inputs; their composition is the body's stored value.
-/
import proofs.«144253_j65335042507035_2_alg».proof.Proof.Gen.KernelIdeal.Skeleton
import Idealize.ShloMosaic.PureOps.Ideal

noncomputable section

namespace Cert.KernelIdeal.Stages

open Idealize.ShloMosaic
open Cert.KernelIdeal Cert.KernelIdeal.Gen

/-- First layer: the tile times the first weight matrix, plus the bias row, rectified. -/
def act1 (x1 : FVec Ideal S1024x13 .f32) (x2 : FVec Ideal S13x300 .bf16) (x3 : FVec Ideal S1x300 .f32) :
    FVec Ideal S1024x300 .f32 :=
  maximumf
    (addf (matmul dot_S1024x13_S13x300_S1024x300_1_0_0_1_n_n none (truncf .bf16 x1 bitsLt_bf16_f32)
        (shapeCast S13x300 x2 shapeCasts_S13x300_S13x300) (constant S1024x300 .f32 0x00000000#32))
      (broadcastTo S1024x300 (shapeCast S1x300 x3 shapeCasts_S1x300_S1x300) broadcasts_S1x300_S1024x300))
    (broadcast S1024x300 (Scalar.ofBits .f32 0x00000000#32))

/-- Second layer before its activation. -/
def pre2 (h : FVec Ideal S1024x300 .f32) (x4 : FVec Ideal S300x600 .bf16) (x5 : FVec Ideal S1x600 .f32) :
    FVec Ideal S1024x600 .f32 :=
  addf (matmul dot_S1024x300_S300x600_S1024x600_1_0_0_1_n_n none (truncf .bf16 h bitsLt_bf16_f32)
      (shapeCast S300x600 x4 shapeCasts_S300x600_S300x600) (constant S1024x600 .f32 0x00000000#32))
    (broadcastTo S1024x600 (shapeCast S1x600 x5 shapeCasts_S1x600_S1x600) broadcasts_S1x600_S1024x600)

/-- The leaky rectifier on a [1024, 600] array: where an entry is positive the entry, elsewhere the entry times the slope. -/
def leaky2 (p : FVec Ideal S1024x600 .f32) : FVec Ideal S1024x600 .f32 :=
  select (cmpf .ogt p (broadcast S1024x600 (Scalar.ofBits .f32 0x00000000#32))) p
    (mulf p (broadcast S1024x600 (Scalar.ofBits .f32 0x3C23D70A#32)))

/-- Third layer, rectified. -/
def act3 (h : FVec Ideal S1024x600 .f32) (x6 : FVec Ideal S600x100 .bf16) (x7 : FVec Ideal S1x100 .f32) :
    FVec Ideal S1024x100 .f32 :=
  maximumf
    (addf (matmul dot_S1024x600_S600x100_S1024x100_1_0_0_1_n_n none (truncf .bf16 h bitsLt_bf16_f32)
        (shapeCast S600x100 x6 shapeCasts_S600x100_S600x100) (constant S1024x100 .f32 0x00000000#32))
      (broadcastTo S1024x100 (shapeCast S1x100 x7 shapeCasts_S1x100_S1x100) broadcasts_S1x100_S1024x100))
    (broadcast S1024x100 (Scalar.ofBits .f32 0x00000000#32))

/-- Fourth layer before its activation. -/
def pre4 (h : FVec Ideal S1024x100 .bf16) (x8 : FVec Ideal S100x13 .bf16) (x9 : FVec Ideal S1x13 .f32) :
    FVec Ideal S1024x13 .f32 :=
  addf (matmul dot_S1024x100_S100x13_S1024x13_1_0_0_1_n_n none h
      (shapeCast S100x13 x8 shapeCasts_S100x13_S100x13) (constant S1024x13 .f32 0x00000000#32))
    (broadcastTo S1024x13 (shapeCast S1x13 x9 shapeCasts_S1x13_S1x13) broadcasts_S1x13_S1024x13)

/-- The leaky rectifier on a [1024, 13] array. -/
def leaky4 (p : FVec Ideal S1024x13 .f32) : FVec Ideal S1024x13 .f32 :=
  select (cmpf .ogt p (broadcast S1024x13 (Scalar.ofBits .f32 0x00000000#32))) p
    (mulf p (broadcast S1024x13 (Scalar.ofBits .f32 0x3C23D70A#32)))

/-- Every row divided by the larger of its Euclidean length and the floor. -/
def unitRows (t : FVec Ideal S1024x13 .f32) : FVec Ideal S1024x13 .bf16 :=
  truncf .bf16
    (divf t
      (broadcastTo S1024x13
        (maximumf
          (sqrt (shapeCast S1024x1
            (multiReduction .add [1] S1024 (mulf t t) 0x00000000#32 reduces_S1024x13_S1024 (.inl rfl) rfl)
            shapeCasts_S1024_S1024x1))
          (broadcast S1024x1 (Scalar.ofBits .f32 0x322BCC77#32)))
        broadcasts_S1024x1_S1024x13))
    bitsLt_bf16_f32

/-- The dot of every query row with every tile row, times 23. -/
def tileScores (x0 : FVec Ideal S2048x13 .bf16) (u : FVec Ideal S1024x13 .bf16) : FVec Ideal S2048x1024 .f32 :=
  mulf (matmul dot_S2048x13_S1024x13_S2048x1024_1_1_0_0_n_n none (shapeCast S2048x13 x0 shapeCasts_S2048x13_S2048x13) u
      (constant S2048x1024 .f32 0x00000000#32))
    (broadcast S2048x1024 (Scalar.ofBits .f32 0x41B80000#32))

/-- Per query row the greatest of its 1024 scores, laid out as a [1, 1, 2048] block. -/
def tileTop (s : FVec Ideal S2048x1024 .f32) : FVec Ideal S1x1x2048 .f32 :=
  shapeCast S1x1x2048
    (multiReduction .maximumf [1] S2048 s 0xFF800000#32 reduces_S2048x1024_S2048 (.inl rfl) rfl)
    shapeCasts_S2048_S1x1x2048

/-- The tile's rows after the network. -/
def tileNet (x1 : FVec Ideal S1024x13 .f32) (x2 : FVec Ideal S13x300 .bf16) (x3 : FVec Ideal S1x300 .f32)
    (x4 : FVec Ideal S300x600 .bf16) (x5 : FVec Ideal S1x600 .f32) (x6 : FVec Ideal S600x100 .bf16)
    (x7 : FVec Ideal S1x100 .f32) (x8 : FVec Ideal S100x13 .bf16) (x9 : FVec Ideal S1x13 .f32) :
    FVec Ideal S1024x13 .f32 :=
  leaky4 (pre4 (truncf .bf16 (act3 (leaky2 (pre2 (act1 x1 x2 x3) x4 x5)) x6 x7) bitsLt_bf16_f32) x8 x9)

/-- The body's stored value is the larger of the block's previous content and the tile's per-query maximum. -/
theorem pay_eq (x0 : FVec Ideal S2048x13 .bf16) (x1 : FVec Ideal S1024x13 .f32) (x2 : FVec Ideal S13x300 .bf16)
    (x3 : FVec Ideal S1x300 .f32) (x4 : FVec Ideal S300x600 .bf16) (x5 : FVec Ideal S1x600 .f32)
    (x6 : FVec Ideal S600x100 .bf16) (x7 : FVec Ideal S1x100 .f32) (x8 : FVec Ideal S100x13 .bf16)
    (x9 : FVec Ideal S1x13 .f32) (prev : FVec Ideal S1x1x2048 .f32) :
    k0_pay2 (F := Ideal) (k0_pay3 x1 x2 x3 x4 x5 x6 x7) x8 x9 x0 prev
      = maximumf (shapeCast S1x1x2048 prev shapeCasts_S1x1x2048_S1x1x2048)
          (tileTop (tileScores x0 (unitRows (tileNet x1 x2 x3 x4 x5 x6 x7 x8 x9)))) := rfl

/-- The finite starting value, as a block. -/
theorem pay1_eq : k0_pay1 (F := Ideal) = broadcast S1x1x2048 (Scalar.ofBits .f32 0xF149F2CA#32) := rfl

end Cert.KernelIdeal.Stages

end
-- ==== Proof.KernelChain.lean ====
/-
  The output block point by point. After grid point `n` the block holds, for every query row, the larger of what it
  held before and the tile's own maximum, where "before" is the finite starting value at the first tile of each run of
  32 and the previous point's block otherwise. This is the generated accumulation, read through the two cases' stored
  values; the proof is by induction on the point.
-/
import proofs.«144253_j65335042507035_2_alg».proof.Proof.KernelPieces
import proofs.«144253_j65335042507035_2_alg».proof.Proof.PayStages

set_option maxRecDepth 16384

noncomputable section

namespace Cert.KernelIdeal.Chain

open Idealize.ShloMosaic Idealize.ShloMosaic.TcCoe
open Idealize.SL Idealize.SL.Sem
open Cert.KernelIdeal Cert.KernelIdeal.Gen Cert.KernelIdeal.Stages

variable (m : (ℓ : Loc nD τ sig) → Buf (Elt Ideal) ℓ)

/-- The tile's per-query maximum at grid point `t`, from the point's input blocks. -/
def tileBlock (c : Dev nD) (t : Fin cfg0.N) : FVec Ideal S1x1x2048 .f32 :=
  tileTop (tileScores (iblk m c 0 t) (unitRows (tileNet (iblk m c 1 t) (iblk m c 2 t) (iblk m c 3 t) (iblk m c 4 t)
    (iblk m c 5 t) (iblk m c 6 t) (iblk m c 7 t) (iblk m c 8 t) (iblk m c 9 t))))

/-- One point's update of the block. -/
def step (prev : FVec Ideal S1x1x2048 .f32) (c : Dev nD) (t : Fin cfg0.N) : FVec Ideal S1x1x2048 .f32 :=
  maximumf (shapeCast S1x1x2048 prev shapeCasts_S1x1x2048_S1x1x2048) (tileBlock m c t)

/-- The block after point `n`. -/
def chain (c : Dev nD) : (n : ℕ) → n < cfg0.N → FVec Ideal S1x1x2048 .f32
  | 0, h => step m (k0_pay1 (F := Ideal)) c ⟨0, h⟩
  | n + 1, h =>
    if (n + 1) % 32 = 0 then step m (k0_pay1 (F := Ideal)) c ⟨n + 1, h⟩
    else step m (chain c n (Nat.lt_of_succ_lt h)) c ⟨n + 1, h⟩

theorem chain_zero (c : Dev nD) (h : 0 < cfg0.N) : chain m c 0 h = step m (k0_pay1 (F := Ideal)) c ⟨0, h⟩ := rfl

theorem chain_succ (c : Dev nD) (n : ℕ) (h : n + 1 < cfg0.N) :
    chain m c (n + 1) h = if (n + 1) % 32 = 0 then step m (k0_pay1 (F := Ideal)) c ⟨n + 1, h⟩
      else step m (chain m c n (Nat.lt_of_succ_lt h)) c ⟨n + 1, h⟩ := rfl

/-- At the first point of a run the generated accumulation is one update of the starting value. -/
theorem first (c : Dev nD) (t : Fin cfg0.N) (h0 : t.val % 32 = 0) :
    outsAt0 m c t.val t.isLt = step m (k0_pay1 (F := Ideal)) c t := by
  rw [outsAt0_A m c t h0]
  refine (Pieces.out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).trans ?_
  exact pay_eq (iblk m c 0 t) (iblk m c 1 t) (iblk m c 2 t) (iblk m c 3 t) (iblk m c 4 t) (iblk m c 5 t) (iblk m c 6 t) (iblk m c 7 t) (iblk m c 8 t) (iblk m c 9 t) (k0_pay1 (F := Ideal))

/-- At any other point it is one update of what the point before left. -/
theorem later (c : Dev nD) (t : Fin cfg0.N) (h0 : ¬t.val % 32 = 0) :
    outsAt0 m c t.val t.isLt
      = step m (outsAt0 m c (t.val - 1) (Nat.lt_of_le_of_lt (Nat.sub_le _ _) t.isLt)) c t := by
  rw [outsAt0_B m c t h0]
  refine (Pieces.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt))).trans ?_
  exact pay_eq (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt))

/-- The generated accumulation is the chain of updates. -/
theorem outsAt_eq (c : Dev nD) : ∀ (n : ℕ) (h : n < cfg0.N), outsAt0 m c n h = chain m c n h
  | 0, h => first m c ⟨0, h⟩ rfl
  | n + 1, h => by
    rw [chain_succ]
    by_cases h0 : (n + 1) % 32 = 0
    · rw [if_pos h0]
      exact first m c ⟨n + 1, h⟩ h0
    · rw [if_neg h0, later m c ⟨n + 1, h⟩ h0]
      show step m (outsAt0 m c n _) c _ = step m (chain m c n _) c _
      rw [outsAt_eq c n]

end Cert.KernelIdeal.Chain

end
-- ==== Proof.KernelBlocks.lean ====
/-
  Each window's block at a grid point, as a part of the array the region finds. Nine of the ten inputs are fetched
  whole (their block is the array); the memory tile at point `t` is rows 1024·t … 1024·t + 1023 of the memory array; the
  output's block at point `t` is plane t / 32 of the [2, 1, 2048] result.
-/
import proofs.«144253_j65335042507035_2_alg».proof.Proof.Gen.KernelIdeal.Frame
import Idealize.ShloMosaic.Lib.Pipeline.Value
import Idealize.ShloMosaic.Lib.ValueIdx

set_option maxRecDepth 16384

noncomputable section

namespace Cert.KernelIdeal.Blocks

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The printed index maps, decided once over the 64 grid points. -/
theorem idx_facts : ∀ t : Fin cfg0.N,
    win0_0.index t (0 : Fin 2) = 0
    ∧ win0_0.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_1.index t (0 : Fin 2) = t.val
    ∧ win0_1.index t (1 : Fin 2) = 0
    ∧ win0_10.index t (0 : Fin 3) = t.val / 32
    ∧ win0_10.index t (1 : Fin 3) = 0
    ∧ win0_10.index t (2 : Fin 3) = 0 :=
  (by decide +kernel : ∀ t : Fin grid0.N, _)

/-- Window 0 is fetched whole. -/
theorem iblk0_eq (c : Dev nD) (t : Fin cfg0.N) : (iblk m c 0 t : Vec Ideal S2048x13 .bf16) = V m c main_v17 := by
  have hf := idx_facts t
  funext x
  unfold iblk
  rw [View.read_apply]
  show V m c main_v17 _ = V m c main_v17 x
  congr 1
  funext a
  apply Fin.ext
  match a with
  | ⟨0, _⟩ => show win0_0.index t (0 : Fin 2) * 2048 + 1 * (x 0).val = (x 0).val; rw [(hf.1)]; omega
  | ⟨1, _⟩ => show win0_0.index t (1 : Fin 2) * 13 + 1 * (x 1).val = (x 1).val; rw [(hf.2.1)]; omega

/-- Window 2 is fetched whole. -/
theorem iblk2_eq (c : Dev nD) (t : Fin cfg0.N) : (iblk m c 2 t : Vec Ideal S13x300 .bf16) = V m c main_v1 := by
  have hf := idx_facts t
  funext x
  unfold iblk
  rw [View.read_apply]
  show V m c main_v1 _ = V m c main_v1 x
  congr 1
  funext a
  apply Fin.ext
  match a with
  | ⟨0, _⟩ => show win0_2.index t (0 : Fin 2) * 13 + 1 * (x 0).val = (x 0).val; rw [(hf.2.2.1)]; omega
  | ⟨1, _⟩ => show win0_2.index t (1 : Fin 2) * 300 + 1 * (x 1).val = (x 1).val; rw [(hf.2.2.2.1)]; omega

/-- Window 3 is fetched whole. -/
theorem iblk3_eq (c : Dev nD) (t : Fin cfg0.N) : (iblk m c 3 t : Vec Ideal S1x300 .f32) = V m c main_v8 := by
  have hf := idx_facts t
  funext x
  unfold iblk
  rw [View.read_apply]
  show V m c main_v8 _ = V m c main_v8 x
  congr 1
  funext a
  apply Fin.ext
  match a with
  | ⟨0, _⟩ => show win0_3.index t (0 : Fin 2) * 1 + 1 * (x 0).val = (x 0).val; rw [(hf.2.2.2.2.1)]; omega
  | ⟨1, _⟩ => show win0_3.index t (1 : Fin 2) * 300 + 1 * (x 1).val = (x 1).val; rw [(hf.2.2.2.2.2.1)]; omega

/-- Window 4 is fetched whole. -/
theorem iblk4_eq (c : Dev nD) (t : Fin cfg0.N) : (iblk m c 4 t : Vec Ideal S300x600 .bf16) = V m c main_v3 := by
  have hf := idx_facts t
  funext x
  unfold iblk
  rw [View.read_apply]
  show V m c main_v3 _ = V m c main_v3 x
  congr 1
  funext a
  apply Fin.ext
  match a with
  | ⟨0, _⟩ => show win0_4.index t (0 : Fin 2) * 300 + 1 * (x 0).val = (x 0).val; rw [(hf.2.2.2.2.2.2.1)]; omega
  | ⟨1, _⟩ => show win0_4.index t (1 : Fin 2) * 600 + 1 * (x 1).val = (x 1).val; rw [(hf.2.2.2.2.2.2.2.1)]; omega

/-- Window 5 is fetched whole. -/
theorem iblk5_eq (c : Dev nD) (t : Fin cfg0.N) : (iblk m c 5 t : Vec Ideal S1x600 .f32) = V m c main_v9 := by
  have hf := idx_facts t
  funext x
  unfold iblk
  rw [View.read_apply]
  show V m c main_v9 _ = V m c main_v9 x
  congr 1
  funext a
  apply Fin.ext
  match a with
  | ⟨0, _⟩ => show win0_5.index t (0 : Fin 2) * 1 + 1 * (x 0).val = (x 0).val; rw [(hf.2.2.2.2.2.2.2.2.1)]; omega
  | ⟨1, _⟩ => show win0_5.index t (1 : Fin 2) * 600 + 1 * (x 1).val = (x 1).val; rw [(hf.2.2.2.2.2.2.2.2.2.1)]; omega

/-- Window 6 is fetched whole. -/
theorem iblk6_eq (c : Dev nD) (t : Fin cfg0.N) : (iblk m c 6 t : Vec Ideal S600x100 .bf16) = V m c main_v5 := by
  have hf := idx_facts t
  funext x
  unfold iblk
  rw [View.read_apply]
  show V m c main_v5 _ = V m c main_v5 x
  congr 1
  funext a
  apply Fin.ext
  match a with
  | ⟨0, _⟩ => show win0_6.index t (0 : Fin 2) * 600 + 1 * (x 0).val = (x 0).val; rw [(hf.2.2.2.2.2.2.2.2.2.2.1)]; omega
  | ⟨1, _⟩ => show win0_6.index t (1 : Fin 2) * 100 + 1 * (x 1).val = (x 1).val; rw [(hf.2.2.2.2.2.2.2.2.2.2.2.1)]; omega

/-- Window 7 is fetched whole. -/
theorem iblk7_eq (c : Dev nD) (t : Fin cfg0.N) : (iblk m c 7 t : Vec Ideal S1x100 .f32) = V m c main_v10 := by
  have hf := idx_facts t
  funext x
  unfold iblk
  rw [View.read_apply]
  show V m c main_v10 _ = V m c main_v10 x
  congr 1
  funext a
  apply Fin.ext
  match a with
  | ⟨0, _⟩ => show win0_7.index t (0 : Fin 2) * 1 + 1 * (x 0).val = (x 0).val; rw [(hf.2.2.2.2.2.2.2.2.2.2.2.2.1)]; omega
  | ⟨1, _⟩ => show win0_7.index t (1 : Fin 2) * 100 + 1 * (x 1).val = (x 1).val; rw [(hf.2.2.2.2.2.2.2.2.2.2.2.2.2.1)]; omega

/-- Window 8 is fetched whole. -/
theorem iblk8_eq (c : Dev nD) (t : Fin cfg0.N) : (iblk m c 8 t : Vec Ideal S100x13 .bf16) = V m c main_v7 := by
  have hf := idx_facts t
  funext x
  unfold iblk
  rw [View.read_apply]
  show V m c main_v7 _ = V m c main_v7 x
  congr 1
  funext a
  apply Fin.ext
  match a with
  | ⟨0, _⟩ => show win0_8.index t (0 : Fin 2) * 100 + 1 * (x 0).val = (x 0).val; rw [(hf.2.2.2.2.2.2.2.2.2.2.2.2.2.2.1)]; omega
  | ⟨1, _⟩ => show win0_8.index t (1 : Fin 2) * 13 + 1 * (x 1).val = (x 1).val; rw [(hf.2.2.2.2.2.2.2.2.2.2.2.2.2.2.2.1)]; omega

/-- Window 9 is fetched whole. -/
theorem iblk9_eq (c : Dev nD) (t : Fin cfg0.N) : (iblk m c 9 t : Vec Ideal S1x13 .f32) = V m c main_v11 := by
  have hf := idx_facts t
  funext x
  unfold iblk
  rw [View.read_apply]
  show V m c main_v11 _ = V m c main_v11 x
  congr 1
  funext a
  apply Fin.ext
  match a with
  | ⟨0, _⟩ => show win0_9.index t (0 : Fin 2) * 1 + 1 * (x 0).val = (x 0).val; rw [(hf.2.2.2.2.2.2.2.2.2.2.2.2.2.2.2.2.1)]; omega
  | ⟨1, _⟩ => show win0_9.index t (1 : Fin 2) * 13 + 1 * (x 1).val = (x 1).val; rw [(hf.2.2.2.2.2.2.2.2.2.2.2.2.2.2.2.2.2.1)]; omega

/-- The memory tile at point `t`: row `r` of the block is row 1024·t + r of the array. -/
theorem iblk1_apply (c : Dev nD) (t : Fin cfg0.N) (r : Fin 1024) (k : Fin 13) (i : Fin 65536)
    (hi : i.val = t.val * 1024 + r.val) :
    (iblk m c 1 t : Vec Ideal S1024x13 .f32) (ix2 r k) = (V m c main_arg0 : S65536x13.Idx → EReal) (ix2 i k) := by
  have hf := idx_facts t
  unfold iblk
  rw [View.read_apply]
  show V m c main_arg0 _ = V m c main_arg0 _
  congr 1
  funext a
  apply Fin.ext
  match a with
  | ⟨0, _⟩ => show win0_1.index t (0 : Fin 2) * 1024 + 1 * r.val = i.val; rw [(hf.2.2.2.2.2.2.2.2.2.2.2.2.2.2.2.2.2.2.1), hi]; omega
  | ⟨1, _⟩ => show win0_1.index t (1 : Fin 2) * 13 + 1 * k.val = k.val; rw [(hf.2.2.2.2.2.2.2.2.2.2.2.2.2.2.2.2.2.2.2.1)]; omega

/-- The output window's block index at point `t`. -/
theorem out_index (t : Fin cfg0.N) :
    win0_10.index t (0 : Fin 3) = t.val / 32 ∧ win0_10.index t (1 : Fin 3) = 0 ∧ win0_10.index t (2 : Fin 3) = 0 :=
  have hf := idx_facts t; ⟨(hf.2.2.2.2.2.2.2.2.2.2.2.2.2.2.2.2.2.2.2.2.1), (hf.2.2.2.2.2.2.2.2.2.2.2.2.2.2.2.2.2.2.2.2.2.1), (hf.2.2.2.2.2.2.2.2.2.2.2.2.2.2.2.2.2.2.2.2.2.2)⟩

end Cert.KernelIdeal.Blocks

end
-- ==== Proof.Spec.lean ====
/-
  The mathematics both programs compute, stated once over plain index types.

  A row `x` of thirteen numbers passes through four dense layers (`lin`: a dot with a weight row plus a bias), with a
  rectifier after the first and third and a leaky rectifier (slope the binary32 nearest 0.01) after the second and
  fourth: `mlp`. A vector is scaled by the larger of its Euclidean length and a small positive floor: `unit`. The
  similarity of two vectors is the dot of their scaled forms times 23: `sim`. The result for a query row is the greatest
  similarity over all 65536 memory rows: a fold of `max` from the bottom element.

  The tiled program visits the memory rows in 64 tiles of 1024, two runs of 32 tiles, each run starting its running
  maximum from the finite number -1e30 (`floor30`) and the two runs' maxima combined at the end: `acc`.
-/
import Idealize.ShloMosaic.PureOps.Ideal
import Mathlib.Algebra.BigOperators.Group.Finset.Basic
import Mathlib.Data.Finset.Fold

noncomputable section

namespace Cert.Spec

open Idealize.ShloMosaic

/-- The leaky rectifier's slope on the negative side: the binary32 number nearest 0.01. -/
abbrev slope : EReal := Ideal.ofBits .f32 0x3C23D70A#32
/-- The floor under a vector's length: the binary32 number nearest 1e-8. -/
abbrev eps : EReal := Ideal.ofBits .f32 0x322BCC77#32
/-- The similarity's scale, 23. -/
abbrev scale : EReal := Ideal.ofBits .f32 0x41B80000#32
/-- The finite number a run's maximum starts from: the binary32 number nearest -1e30. -/
abbrev floor30 : EReal := Ideal.ofBits .f32 0xF149F2CA#32

/-- One output of a dense layer before its activation: the dot of `x` with the weight row `W h`, plus the bias. -/
def lin {K H : ℕ} (x : Fin K → EReal) (W : Fin H → Fin K → EReal) (b : Fin H → EReal) (h : Fin H) : EReal :=
  (∑ k, x k * W h k) + b h

/-- The rectifier. -/
def relu (x : EReal) : EReal := max x 0

/-- The leaky rectifier: the identity on the positive side, multiplication by `slope` elsewhere. -/
def leaky (x : EReal) : EReal := if 0 < x then x else x * slope

/-- The four-layer network applied to one row. -/
def mlp (W1 : Fin 300 → Fin 13 → EReal) (b1 : Fin 300 → EReal) (W2 : Fin 600 → Fin 300 → EReal) (b2 : Fin 600 → EReal)
    (W3 : Fin 100 → Fin 600 → EReal) (b3 : Fin 100 → EReal) (W4 : Fin 13 → Fin 100 → EReal) (b4 : Fin 13 → EReal)
    (x : Fin 13 → EReal) : Fin 13 → EReal :=
  fun j => leaky (lin (fun h3 => relu (lin (fun h2 => leaky (lin (fun h1 => relu (lin x W1 b1 h1)) W2 b2 h2)) W3 b3 h3))
    W4 b4 j)

/-- A vector divided by the larger of its Euclidean length and `eps`. -/
def unit {K : ℕ} (v : Fin K → EReal) (k : Fin K) : EReal :=
  Ideal.div (v k) (max (Ideal.sqrt (∑ j, v j * v j)) eps)

/-- The scaled cosine similarity of two vectors. -/
def sim (a b : Fin 13 → EReal) : EReal := (∑ k, unit a k * unit b k) * scale

/-- The greatest value of `f` over all 65536 rows, as a fold of `max` from the bottom element. -/
def top (f : ℕ → EReal) : EReal := (Finset.univ : Finset (Fin 65536)).fold max ⊥ (fun i => f i.val)

/-- The greatest value of `f` over the 1024 rows of tile `t`. -/
def tileMax (f : ℕ → EReal) (t : ℕ) : EReal :=
  (Finset.univ : Finset (Fin 1024)).fold max ⊥ (fun r => f (t * 1024 + r.val))

/-- The running maximum after tile `n`: it restarts from `floor30` at the first tile of each run of 32. -/
def acc (f : ℕ → EReal) : ℕ → EReal
  | 0 => max floor30 (tileMax f 0)
  | n + 1 => if (n + 1) % 32 = 0 then max floor30 (tileMax f (n + 1)) else max (acc f n) (tileMax f (n + 1))

/-- The two runs' final maxima combined, again as a fold of `max` from the bottom element. -/
def combined (f : ℕ → EReal) : EReal :=
  (Finset.univ : Finset (Fin 2)).fold max ⊥ (fun c => acc f (32 * c.val + 31))

end Cert.Spec

end
-- ==== Proof.Target.lean ====
/-
  The specification over the programs' own array types: an array of shape [a, b] read as the family of its rows, one of
  shape [a] as the family of its entries, and the result — for each of the 2048 query rows the greatest scaled cosine
  similarity with the network's image of a memory row — stated twice: over all 65536 memory rows at once (`whole`), and
  as the tiled program accumulates it (`tiled`).
-/
import proofs.«144253_j65335042507035_2_alg».proof.Proof.Spec
import Idealize.ShloMosaic.Lib.ValueIdx

noncomputable section

namespace Cert.Spec

open Idealize.ShloMosaic Idealize.ShloMosaic.ValueIdx

/-- A rank-2 array as the family of its rows. -/
def mat {n0 n1 : ℕ} (a : (⟨2, ![n0, n1]⟩ : Shape).Idx → EReal) (i : Fin n0) (j : Fin n1) : EReal := a (ix2 i j)

/-- A rank-1 array as the family of its entries. -/
def vec {n : ℕ} (a : (⟨1, ![n]⟩ : Shape).Idx → EReal) (i : Fin n) : EReal := a (ix1 i)

/-- Row `m` of a 65536-row matrix, for a natural number `m` (the zero row beyond the last). -/
def rowOf (a : Fin 65536 → Fin 13 → EReal) (m : ℕ) : Fin 13 → EReal :=
  fun k => if h : m < 65536 then a ⟨m, h⟩ k else 0

/-- The similarity of query row `q` with the network's image of memory row `m`. -/
def score (a0 : (⟨2, ![65536, 13]⟩ : Shape).Idx → EReal) (a1 : (⟨2, ![2048, 13]⟩ : Shape).Idx → EReal)
    (a2 : (⟨2, ![300, 13]⟩ : Shape).Idx → EReal) (a3 : (⟨1, ![300]⟩ : Shape).Idx → EReal)
    (a4 : (⟨2, ![600, 300]⟩ : Shape).Idx → EReal) (a5 : (⟨1, ![600]⟩ : Shape).Idx → EReal)
    (a6 : (⟨2, ![100, 600]⟩ : Shape).Idx → EReal) (a7 : (⟨1, ![100]⟩ : Shape).Idx → EReal)
    (a8 : (⟨2, ![13, 100]⟩ : Shape).Idx → EReal) (a9 : (⟨1, ![13]⟩ : Shape).Idx → EReal)
    (q : Fin 2048) (m : ℕ) : EReal :=
  sim (mat a1 q) (mlp (mat a2) (vec a3) (mat a4) (vec a5) (mat a6) (vec a7) (mat a8) (vec a9) (rowOf (mat a0) m))

/-- The result array: per query row the greatest score over all memory rows. -/
def whole (a0 : (⟨2, ![65536, 13]⟩ : Shape).Idx → EReal) (a1 : (⟨2, ![2048, 13]⟩ : Shape).Idx → EReal)
    (a2 : (⟨2, ![300, 13]⟩ : Shape).Idx → EReal) (a3 : (⟨1, ![300]⟩ : Shape).Idx → EReal)
    (a4 : (⟨2, ![600, 300]⟩ : Shape).Idx → EReal) (a5 : (⟨1, ![600]⟩ : Shape).Idx → EReal)
    (a6 : (⟨2, ![100, 600]⟩ : Shape).Idx → EReal) (a7 : (⟨1, ![100]⟩ : Shape).Idx → EReal)
    (a8 : (⟨2, ![13, 100]⟩ : Shape).Idx → EReal) (a9 : (⟨1, ![13]⟩ : Shape).Idx → EReal) :
    (⟨1, ![2048]⟩ : Shape).Idx → EReal :=
  fun i => top (score a0 a1 a2 a3 a4 a5 a6 a7 a8 a9 (i 0))

/-- The same, as accumulated tile by tile in two runs from the finite starting value. -/
def tiled (a0 : (⟨2, ![65536, 13]⟩ : Shape).Idx → EReal) (a1 : (⟨2, ![2048, 13]⟩ : Shape).Idx → EReal)
    (a2 : (⟨2, ![300, 13]⟩ : Shape).Idx → EReal) (a3 : (⟨1, ![300]⟩ : Shape).Idx → EReal)
    (a4 : (⟨2, ![600, 300]⟩ : Shape).Idx → EReal) (a5 : (⟨1, ![600]⟩ : Shape).Idx → EReal)
    (a6 : (⟨2, ![100, 600]⟩ : Shape).Idx → EReal) (a7 : (⟨1, ![100]⟩ : Shape).Idx → EReal)
    (a8 : (⟨2, ![13, 100]⟩ : Shape).Idx → EReal) (a9 : (⟨1, ![13]⟩ : Shape).Idx → EReal) :
    (⟨1, ![2048]⟩ : Shape).Idx → EReal :=
  fun i => combined (score a0 a1 a2 a3 a4 a5 a6 a7 a8 a9 (i 0))

end Cert.Spec

end
-- ==== Proof.LibCastForms.lean ====
/-
  Columns, rows and their stretchings read at coordinates, and two ways of writing the same column or row.

  * A one-column matrix [A,1] stretched along the columns by a host `broadcast_in_dim` (dims 0,1) reads, at (a, b), its entry (a, 0);
    a one-row matrix [1,B] stretched along the rows (dims 0,1) reads, at (a, b), its entry (0, b).
  * A vector [B] placed as the one row of a [1,B] matrix by `broadcast_in_dim` (dims 1) reads, at (z, b), the vector at b.
  * A vector [A] recast as an [A,1] column IS the vector placed as a column by `broadcast_in_dim` (dims 0), as whole arrays;
    a vector [B] recast as a [1,B] row IS the vector placed as a row by `broadcast_in_dim` (dims 1), as whole arrays.
-/
import Idealize.ShloMosaic.Lib.ValueIdx
import Idealize.ShloMosaic.Lib.ValueLayout
import Idealize.ShloMosaic.Lib.Pipeline.Value

namespace Cert.LibCastForms

open Idealize.ShloMosaic Idealize.ShloMosaic.ValueIdx

variable {α : Type}

/-- A column stretched over B columns: entry (a, b) is the column's entry in row a. -/
theorem bcast_a1_ab_apply {A B : ℕ} (x : (⟨2, ![A, 1]⟩ : Shape).Idx → α)
    (h : (⟨2, ![A, 1]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 a (0 : Fin 1)) := by
  refine broadcastInDim_apply _ h x _ _ fun d => ?_
  match d with
  | ⟨0, _⟩ =>
    show a.val = if A = 1 then 0 else a.val
    split
    · have := a.isLt; omega
    · rfl
  | ⟨1, _⟩ => rfl

/-- A row stretched over A rows: entry (a, b) is the row's entry in column b. -/
theorem bcast_1b_ab_apply {A B : ℕ} (x : (⟨2, ![1, B]⟩ : Shape).Idx → α)
    (h : (⟨2, ![1, B]⟩ : Shape).BroadcastsInDim ⟨2, ![A, B]⟩ (![0, 1] : Fin 2 → Fin 2)) (a : Fin A) (b : Fin B) :
    broadcastInDim ⟨2, ![A, B]⟩ (![0, 1] : Fin 2 → Fin 2) h x (ix2 a b) = x (ix2 (0 : Fin 1) b) := by
  refine broadcastInDim_apply _ h x _ _ fun d => ?_
  match d with
  | ⟨0, _⟩ => rfl
  | ⟨1, _⟩ =>
    show b.val = if B = 1 then 0 else b.val
    split
    · have := b.isLt; omega
    · rfl

/-- A vector placed as the one row of a matrix: entry (z, b) is the vector's entry b. -/
theorem bcast_row {B : ℕ} (x : (⟨1, ![B]⟩ : Shape).Idx → α)
    (h : (⟨1, ![B]⟩ : Shape).BroadcastsInDim ⟨2, ![1, B]⟩ (![1] : Fin 1 → Fin 2)) (z : Fin 1) (b : Fin B) :
    broadcastInDim ⟨2, ![1, B]⟩ (![1] : Fin 1 → Fin 2) h x (ix2 z b) = x (ix1 b) := by
  refine broadcastInDim_apply _ h x _ _ fun d => ?_
  match d with
  | ⟨0, _⟩ =>
    show b.val = if B = 1 then 0 else b.val
    split
    · have := b.isLt; omega
    · rfl

/-- A vector placed as the one column of a matrix: entry (a, z) is the vector's entry a. -/
theorem bcast_col {A : ℕ} (x : (⟨1, ![A]⟩ : Shape).Idx → α)
    (h : (⟨1, ![A]⟩ : Shape).BroadcastsInDim ⟨2, ![A, 1]⟩ (![0] : Fin 1 → Fin 2)) (a : Fin A) (z : Fin 1) :
    broadcastInDim ⟨2, ![A, 1]⟩ (![0] : Fin 1 → Fin 2) h x (ix2 a z) = x (ix1 a) := by
  refine broadcastInDim_apply _ h x _ _ fun d => ?_
  match d with
  | ⟨0, _⟩ =>
    show a.val = if A = 1 then 0 else a.val
    split
    · have := a.isLt; omega
    · rfl

/-- A vector recast as a column: entry (a, z) is the vector's entry a. -/
theorem cast_col {A : ℕ} (x : (⟨1, ![A]⟩ : Shape).Idx → α) (h : (⟨1, ![A]⟩ : Shape).ShapeCasts ⟨2, ![A, 1]⟩)
    (a : Fin A) (z : Fin 1) : shapeCast ⟨2, ![A, 1]⟩ x h (ix2 a z) = x (ix1 a) := by
  refine shapeCast_apply x h _ _ ?_
  rw [Shape.rowMajor_val_one, Shape.rowMajor_val_two]
  have hz : z.val = 0 := by omega
  show a.val = a.val * 1 + z.val
  omega

/-- Recasting a vector as a column and placing it as a column are one array. -/
theorem col_cast_eq_bcast {A : ℕ} (x : (⟨1, ![A]⟩ : Shape).Idx → α) (h : (⟨1, ![A]⟩ : Shape).ShapeCasts ⟨2, ![A, 1]⟩)
    (h' : (⟨1, ![A]⟩ : Shape).BroadcastsInDim ⟨2, ![A, 1]⟩ (![0] : Fin 1 → Fin 2)) :
    shapeCast ⟨2, ![A, 1]⟩ x h = broadcastInDim ⟨2, ![A, 1]⟩ (![0] : Fin 1 → Fin 2) h' x := by
  funext j
  obtain ⟨a, z, rfl⟩ : ∃ (a : Fin A) (z : Fin 1), j = ix2 a z := ⟨j 0, j 1, eq_ix2 j⟩
  rw [cast_col, bcast_col]

/-- Recasting a vector as a row and placing it as a row are one array. -/
theorem row_cast_eq_bcast {B : ℕ} (x : (⟨1, ![B]⟩ : Shape).Idx → α) (h : (⟨1, ![B]⟩ : Shape).ShapeCasts ⟨2, ![1, B]⟩)
    (h' : (⟨1, ![B]⟩ : Shape).BroadcastsInDim ⟨2, ![1, B]⟩ (![1] : Fin 1 → Fin 2)) :
    shapeCast ⟨2, ![1, B]⟩ x h = broadcastInDim ⟨2, ![1, B]⟩ (![1] : Fin 1 → Fin 2) h' x := by
  funext j
  obtain ⟨z, b, rfl⟩ : ∃ (z : Fin 1) (b : Fin B), j = ix2 z b := ⟨j 0, j 1, eq_ix2 j⟩
  rw [shapeCast_a_1a_apply, bcast_row]

end Cert.LibCastForms
-- ==== Proof.KernelHost.lean ====
/-
  What the tiled program's host operations hand to its one kernel launch, and what they make of its result, read entry
  by entry at the ideal (extended-real) values.

  Before the launch: each of the four weight matrices is transposed and changed in format — at the ideal values the
  change of format is the identity, so the launch finds the transpose; each of the four bias vectors is laid out as a
  single row; and every query row is divided by the larger of its Euclidean length and a small positive floor.

  After the launch: its result, one row of 2048 numbers for each of the two runs, is reduced over the two runs by
  `max` starting from −∞, which is the bottom element.
-/
import proofs.«144253_j65335042507035_2_alg».proof.Proof.Gen.KernelIdeal.Frame
import proofs.«144253_j65335042507035_2_alg».proof.Proof.Target
import proofs.«144253_j65335042507035_2_alg».proof.Proof.LibCastForms
import Idealize.ShloMosaic.Lib.ValueLayout
import Idealize.ShloMosaic.Lib.IdealHost

set_option maxRecDepth 16384

noncomputable section

namespace Cert.KernelIdeal.HostValue

open Idealize.ShloMosaic Idealize.ShloMosaic.TcCoe Idealize.ShloMosaic.Tactic
open Cert.KernelIdeal Cert.KernelIdeal.Gen Idealize.ShloMosaic.ValueIdx

variable (m : (ℓ : Loc nD τ sig) → Buf (Elt Ideal) ℓ)

/-! ## The weight matrices: each is its argument transposed (the change of format is the identity on extended reals) -/

/-- The array the region finds at `main_v1`: argument 2 transposed, then narrowed in format. -/
theorem e_w2 (c : Dev nD) :
    (V m c main_v1 : S13x300.Idx → EReal)
      = truncf .bf16 (transpose S13x300 [1, 0] (m ((c : Thread nD τ).loc main_arg2) : S300x13.Idx → EReal) transposes_S300x13_S13x300_1_0 : FVec Ideal S13x300 .f32) bitsLt_bf16_f32 := by
  dsimp only [Gen.V, Gen.V0]
  simp only [Gen.hostOps0, Gen.hostOps0_1, Gen.hostOps0_2, List.flatten_cons, List.flatten_nil, List.append_nil, List.cons_append, List.nil_append]
  after_results

/-- Read at row `i`, column `j`: the argument at row `j`, column `i`. -/
theorem V_w2 (c : Dev nD) (i : Fin 13) (j : Fin 300) :
    (V m c main_v1 : S13x300.Idx → EReal) (ix2 i j) = (m ((c : Thread nD τ).loc main_arg2) : S300x13.Idx → EReal) (ix2 j i) :=
  (congrFun (e_w2 m c) (ix2 i j)).trans (transpose_ix2_apply (m ((c : Thread nD τ).loc main_arg2) : S300x13.Idx → EReal) transposes_S300x13_S13x300_1_0 i j)

/-- The array the region finds at `main_v3`: argument 4 transposed, then narrowed in format. -/
theorem e_w4 (c : Dev nD) :
    (V m c main_v3 : S300x600.Idx → EReal)
      = truncf .bf16 (transpose S300x600 [1, 0] (m ((c : Thread nD τ).loc main_arg4) : S600x300.Idx → EReal) transposes_S600x300_S300x600_1_0 : FVec Ideal S300x600 .f32) bitsLt_bf16_f32 := by
  dsimp only [Gen.V, Gen.V0]
  simp only [Gen.hostOps0, Gen.hostOps0_1, Gen.hostOps0_2, List.flatten_cons, List.flatten_nil, List.append_nil, List.cons_append, List.nil_append]
  after_results

/-- Read at row `i`, column `j`: the argument at row `j`, column `i`. -/
theorem V_w4 (c : Dev nD) (i : Fin 300) (j : Fin 600) :
    (V m c main_v3 : S300x600.Idx → EReal) (ix2 i j) = (m ((c : Thread nD τ).loc main_arg4) : S600x300.Idx → EReal) (ix2 j i) :=
  (congrFun (e_w4 m c) (ix2 i j)).trans (transpose_ix2_apply (m ((c : Thread nD τ).loc main_arg4) : S600x300.Idx → EReal) transposes_S600x300_S300x600_1_0 i j)

/-- The array the region finds at `main_v5`: argument 6 transposed, then narrowed in format. -/
theorem e_w6 (c : Dev nD) :
    (V m c main_v5 : S600x100.Idx → EReal)
      = truncf .bf16 (transpose S600x100 [1, 0] (m ((c : Thread nD τ).loc main_arg6) : S100x600.Idx → EReal) transposes_S100x600_S600x100_1_0 : FVec Ideal S600x100 .f32) bitsLt_bf16_f32 := by
  dsimp only [Gen.V, Gen.V0]
  simp only [Gen.hostOps0, Gen.hostOps0_1, Gen.hostOps0_2, List.flatten_cons, List.flatten_nil, List.append_nil, List.cons_append, List.nil_append]
  after_results

/-- Read at row `i`, column `j`: the argument at row `j`, column `i`. -/
theorem V_w6 (c : Dev nD) (i : Fin 600) (j : Fin 100) :
    (V m c main_v5 : S600x100.Idx → EReal) (ix2 i j) = (m ((c : Thread nD τ).loc main_arg6) : S100x600.Idx → EReal) (ix2 j i) :=
  (congrFun (e_w6 m c) (ix2 i j)).trans (transpose_ix2_apply (m ((c : Thread nD τ).loc main_arg6) : S100x600.Idx → EReal) transposes_S100x600_S600x100_1_0 i j)

/-- The array the region finds at `main_v7`: argument 8 transposed, then narrowed in format. -/
theorem e_w8 (c : Dev nD) :
    (V m c main_v7 : S100x13.Idx → EReal)
      = truncf .bf16 (transpose S100x13 [1, 0] (m ((c : Thread nD τ).loc main_arg8) : S13x100.Idx → EReal) transposes_S13x100_S100x13_1_0 : FVec Ideal S100x13 .f32) bitsLt_bf16_f32 := by
  dsimp only [Gen.V, Gen.V0]
  simp only [Gen.hostOps0, Gen.hostOps0_1, Gen.hostOps0_2, List.flatten_cons, List.flatten_nil, List.append_nil, List.cons_append, List.nil_append]
  after_results

/-- Read at row `i`, column `j`: the argument at row `j`, column `i`. -/
theorem V_w8 (c : Dev nD) (i : Fin 100) (j : Fin 13) :
    (V m c main_v7 : S100x13.Idx → EReal) (ix2 i j) = (m ((c : Thread nD τ).loc main_arg8) : S13x100.Idx → EReal) (ix2 j i) :=
  (congrFun (e_w8 m c) (ix2 i j)).trans (transpose_ix2_apply (m ((c : Thread nD τ).loc main_arg8) : S13x100.Idx → EReal) transposes_S13x100_S100x13_1_0 i j)

/-! ## The bias vectors: each is its argument laid out as a single row -/

/-- The array the region finds at `main_v8`: argument 3 reshaped to one row. -/
theorem e_w3 (c : Dev nD) :
    (V m c main_v8 : S1x300.Idx → EReal) = shapeCast S1x300 (m ((c : Thread nD τ).loc main_arg3) : S300.Idx → EReal) shapeCasts_S300_S1x300 := by
  dsimp only [Gen.V, Gen.V0]
  simp only [Gen.hostOps0, Gen.hostOps0_1, Gen.hostOps0_2, List.flatten_cons, List.flatten_nil, List.append_nil, List.cons_append, List.nil_append]
  after_results
  rfl

/-- Read at the row's entry `i`: the argument's entry `i`. -/
theorem V_w3 (c : Dev nD) (i : Fin 300) :
    (V m c main_v8 : S1x300.Idx → EReal) (ix2 0 i) = (m ((c : Thread nD τ).loc main_arg3) : S300.Idx → EReal) (ix1 i) :=
  (congrFun (e_w3 m c) (ix2 0 i)).trans (shapeCast_a_1a_apply (m ((c : Thread nD τ).loc main_arg3) : S300.Idx → EReal) shapeCasts_S300_S1x300 0 i)

/-- The array the region finds at `main_v9`: argument 5 reshaped to one row. -/
theorem e_w5 (c : Dev nD) :
    (V m c main_v9 : S1x600.Idx → EReal) = shapeCast S1x600 (m ((c : Thread nD τ).loc main_arg5) : S600.Idx → EReal) shapeCasts_S600_S1x600 := by
  dsimp only [Gen.V, Gen.V0]
  simp only [Gen.hostOps0, Gen.hostOps0_1, Gen.hostOps0_2, List.flatten_cons, List.flatten_nil, List.append_nil, List.cons_append, List.nil_append]
  after_results
  rfl

/-- Read at the row's entry `i`: the argument's entry `i`. -/
theorem V_w5 (c : Dev nD) (i : Fin 600) :
    (V m c main_v9 : S1x600.Idx → EReal) (ix2 0 i) = (m ((c : Thread nD τ).loc main_arg5) : S600.Idx → EReal) (ix1 i) :=
  (congrFun (e_w5 m c) (ix2 0 i)).trans (shapeCast_a_1a_apply (m ((c : Thread nD τ).loc main_arg5) : S600.Idx → EReal) shapeCasts_S600_S1x600 0 i)

/-- The array the region finds at `main_v10`: argument 7 reshaped to one row. -/
theorem e_w7 (c : Dev nD) :
    (V m c main_v10 : S1x100.Idx → EReal) = shapeCast S1x100 (m ((c : Thread nD τ).loc main_arg7) : S100.Idx → EReal) shapeCasts_S100_S1x100 := by
  dsimp only [Gen.V, Gen.V0]
  simp only [Gen.hostOps0, Gen.hostOps0_1, Gen.hostOps0_2, List.flatten_cons, List.flatten_nil, List.append_nil, List.cons_append, List.nil_append]
  after_results
  rfl

/-- Read at the row's entry `i`: the argument's entry `i`. -/
theorem V_w7 (c : Dev nD) (i : Fin 100) :
    (V m c main_v10 : S1x100.Idx → EReal) (ix2 0 i) = (m ((c : Thread nD τ).loc main_arg7) : S100.Idx → EReal) (ix1 i) :=
  (congrFun (e_w7 m c) (ix2 0 i)).trans (shapeCast_a_1a_apply (m ((c : Thread nD τ).loc main_arg7) : S100.Idx → EReal) shapeCasts_S100_S1x100 0 i)

/-- The array the region finds at `main_v11`: argument 9 reshaped to one row. -/
theorem e_w9 (c : Dev nD) :
    (V m c main_v11 : S1x13.Idx → EReal) = shapeCast S1x13 (m ((c : Thread nD τ).loc main_arg9) : S13.Idx → EReal) shapeCasts_S13_S1x13 := by
  dsimp only [Gen.V, Gen.V0]
  simp only [Gen.hostOps0, Gen.hostOps0_1, Gen.hostOps0_2, List.flatten_cons, List.flatten_nil, List.append_nil, List.cons_append, List.nil_append]
  after_results
  rfl

/-- Read at the row's entry `i`: the argument's entry `i`. -/
theorem V_w9 (c : Dev nD) (i : Fin 13) :
    (V m c main_v11 : S1x13.Idx → EReal) (ix2 0 i) = (m ((c : Thread nD τ).loc main_arg9) : S13.Idx → EReal) (ix1 i) :=
  (congrFun (e_w9 m c) (ix2 0 i)).trans (shapeCast_a_1a_apply (m ((c : Thread nD τ).loc main_arg9) : S13.Idx → EReal) shapeCasts_S13_S1x13 0 i)

/-! ## The query rows: each divided by the larger of its Euclidean length and the floor -/

/-- A reduction of a [2048, 13] array over its second axis, at row `q`, ranges over the entries `(q, k)`. -/
theorem lift_row (h : S2048x13.Reduces [1] S2048) (q : Fin 2048) (k : Fin (S2048x13.size 1)) :
    h.lift (ix1 q) k = ix2 q (⟨k.val, k.isLt⟩ : Fin 13) := by
  funext a; apply Fin.ext
  fin_cases a <;> rfl

/-- The host's scaling of a [2048, 13] array, written as the program writes it. -/
def scaled (x : FVec Ideal S2048x13 .f32) : FVec Ideal S2048x13 .bf16 :=
  truncf .bf16
    (Host.divf x
      (broadcastInDim S2048x13 ![0, 1] bcast_S2048x1_S2048x13_0_1
        (maximumf
          (Host.sqrt
            (broadcastInDim S2048x1 ![0] bcast_S2048_S2048x1_0
              (Host.reduceAdd (mulf x x) (constant (F := Ideal) S_ .f32 0x00000000#32) reducesTo_S2048x13_S2048_d1 h_S_)))
          (broadcastInDim S2048x1 ![] bcast_S_S2048x1 (constant (F := Ideal) S_ .f32 0x322BCC77#32)))))
    bitsLt_bf16_f32

theorem e_w0 (c : Dev nD) :
    (V m c main_v17 : S2048x13.Idx → EReal) = scaled (m ((c : Thread nD τ).loc main_arg1) : S2048x13.Idx → EReal) := by
  unfold scaled
  dsimp only [Gen.V, Gen.V0]
  simp only [Gen.hostOps0, Gen.hostOps0_1, Gen.hostOps0_2, List.flatten_cons, List.flatten_nil, List.append_nil, List.cons_append, List.nil_append]
  after_results
  rfl

/-- The scaled array at `(q, k)`: entry `k` of row `q` over the larger of the row's Euclidean length and the floor. -/
theorem scaled_apply (hr : S2048x13.Reduces [1] S2048) (x : FVec Ideal S2048x13 .f32) (q : Fin 2048) (k : Fin 13) :
    scaled x (ix2 q k) = Cert.Spec.unit (Cert.Spec.mat x q) k := by
  unfold scaled Cert.Spec.unit Cert.Spec.mat
  rw [truncf_apply, hostDivf_apply, Cert.LibCastForms.bcast_a1_ab_apply, maximumf_apply]
  -- the row's sum of squares: the reduction from zero over the second axis, read at row `q`
  have hsum : Host.reduceAdd (mulf x x) (constant (F := Ideal) S_ .f32 0x00000000#32) reducesTo_S2048x13_S2048_d1 h_S_ (ix1 q)
      = ∑ j : Fin 13, x (ix2 q j) * x (ix2 q j) := by
    rw [hostReduceAdd_apply, Ideal.hostReduceAdd_single reducesTo_S2048x13_S2048_d1 hr]
    simp only [lift_row, mulf_apply, constant_apply, Ideal.ofBits_zero_f32, zero_add]
    rfl
  -- its square root, copied into the row's single column
  have hlen : Host.sqrt
        (broadcastInDim S2048x1 ![0] bcast_S2048_S2048x1_0
          (Host.reduceAdd (mulf x x) (constant (F := Ideal) S_ .f32 0x00000000#32) reducesTo_S2048x13_S2048_d1 h_S_))
        (ix2 q 0) = Ideal.sqrt (∑ j : Fin 13, x (ix2 q j) * x (ix2 q j)) := by
    show Ideal.sqrt (broadcastInDim S2048x1 ![0] bcast_S2048_S2048x1_0
          (Host.reduceAdd (mulf x x) (constant (F := Ideal) S_ .f32 0x00000000#32) reducesTo_S2048x13_S2048_d1 h_S_) (ix2 q 0)) = _
    rw [Cert.LibCastForms.bcast_col, hsum]
  -- the floor, a scalar copied everywhere
  have hfloor : broadcastInDim S2048x1 ![] bcast_S_S2048x1 (constant (F := Ideal) S_ .f32 0x322BCC77#32) (ix2 q 0)
      = Cert.Spec.eps := by
    rw [broadcastInDim_scalar_apply]; rfl
  rw [hlen, hfloor]

/-- The query array the launch finds, read at `(q, k)`: argument 1's row `q`, scaled, at entry `k`. -/
theorem V_w0 (c : Dev nD) (q : Fin 2048) (k : Fin 13) :
    (V m c main_v17 : S2048x13.Idx → EReal) (ix2 q k) = Cert.Spec.unit (Cert.Spec.mat (m ((c : Thread nD τ).loc main_arg1) : S2048x13.Idx → EReal) q) k :=
  (congrFun (e_w0 m c) (ix2 q k)).trans (scaled_apply (by decide) (m ((c : Thread nD τ).loc main_arg1) : S2048x13.Idx → EReal) q k)

/-! ## After the launch: the two runs' rows combined by `max` from the bottom element -/

/-- The program's result array: the launch's output laid out as [2, 2048] and reduced over its first axis by `max` from −∞. -/
theorem e_tail (c : Dev nD) :
    (Pipeline.afterTail₀ cfgs (dats m) 0 (V0 m) [hostOps1] c main_v20 : S2048.Idx → EReal)
      = Host.reduce FloatOps.maximumf
          (shapeCast S2x2048 ((dats m 0 c).arrAt 10 cfg0.N : S2x1x2048.Idx → EReal) shapeCasts_S2x1x2048_S2x2048 : FVec Ideal S2x2048 .f32)
          (constant (F := Ideal) S_ .f32 0xFF800000#32) reducesTo_S2x2048_S2048_d0 h_S_ := by
  unfold Pipeline.afterTail₀
  show StableHlo.after hostOps1 _ (Proc.devRef .tc main_v20) = _
  after_results
  exact congrArg
    (fun z : S2x1x2048.Idx → EReal =>
      Host.reduce FloatOps.maximumf (shapeCast S2x2048 z shapeCasts_S2x1x2048_S2x2048 : FVec Ideal S2x2048 .f32)
        (constant (F := Ideal) S_ .f32 0xFF800000#32) reducesTo_S2x2048_S2048_d0 h_S_)
    (Pipeline.withArrays_arr spec0 launch0.win.arr_inj c (V0 m c) (fun w => (dats m 0 c).arrAt w cfg0.N) 10)

/-- The binary32 word of −∞ is the bottom element. -/
theorem negInf_eq_bot : Ideal.ofBits .f32 0xFF800000#32 = (⊥ : EReal) := by
  simp [Ideal.ofBits, Ideal.ieee]

/-- A reduction of a [2, 2048] array over its first axis, at column `q`, ranges over the entries `(r, q)`. -/
theorem lift_col (h : S2x2048.Reduces [0] S2048) (q : Fin 2048) (r : Fin (S2x2048.size 0)) :
    h.lift (ix1 q) r = ix2 (⟨r.val, r.isLt⟩ : Fin 2) q := by
  funext a; apply Fin.ext
  fin_cases a <;> rfl

/-- A [2, 1, 2048] array laid out as [2, 2048], at `(r, q)`: the array at `(r, 0, q)`. -/
theorem runs_apply (x : S2x1x2048.Idx → EReal) (r : Fin 2) (q : Fin 2048) :
    shapeCast S2x2048 x shapeCasts_S2x1x2048_S2x2048 (ix2 r q) = x (ix3 r (0 : Fin 1) q) :=
  shapeCast_apply x shapeCasts_S2x1x2048_S2x2048 _ _ (by
    rw [Shape.rowMajor_val_three, Shape.rowMajor_val_two]
    show (r.val * 1 + 0) * 2048 + q.val = r.val * 2048 + q.val
    omega)

/-- The program's result at `q`: the greater of the two runs' entries `q` of the launch's output array. -/
theorem tail_apply (c : Dev nD) (q : Fin 2048) :
    (Pipeline.afterTail₀ cfgs (dats m) 0 (V0 m) [hostOps1] c main_v20 : S2048.Idx → EReal) (ix1 q)
      = (Finset.univ : Finset (Fin 2)).fold max (⊥ : EReal)
          (fun r => ((dats m 0 c).arrAt 10 cfg0.N : S2x1x2048.Idx → EReal) (ix3 r (0 : Fin 1) q)) := by
  have hr : S2x2048.Reduces [0] S2048 := by decide
  rw [e_tail m c, Host.reduce_eq_fold_single FloatOps.maximumf _ _ reducesTo_S2x2048_S2048_d0 hr h_S_]
  show (Finset.univ : Finset (Fin 2)).fold max (Ideal.ofBits .f32 0xFF800000#32)
      (fun r => shapeCast S2x2048 ((dats m 0 c).arrAt 10 cfg0.N : S2x1x2048.Idx → EReal) shapeCasts_S2x1x2048_S2x2048
        (hr.lift (ix1 q) r)) = _
  rw [negInf_eq_bot]
  refine congrArg (fun f => (Finset.univ : Finset (Fin 2)).fold max (⊥ : EReal) f) (funext fun r => ?_)
  exact (congrArg (shapeCast S2x2048 ((dats m 0 c).arrAt 10 cfg0.N : S2x1x2048.Idx → EReal) shapeCasts_S2x1x2048_S2x2048)
    (lift_col hr q r)).trans (runs_apply _ r q)

end Cert.KernelIdeal.HostValue
end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.LibDenseRelu.lean ====
/-
  Dense layers followed by a rectifier, read at coordinates over the extended reals.

  Two layers are named. `affineRelu X W b` is the matrix whose entry (a, q) is
  `max (∑ k, X (a, k) · W (k, q) + b (0, q)) 0`: a matrix product with a bias row added and the rectifier applied.
  `pairRelu A Wa Hm Wh b` has the entry `max ((∑ k, A (a, k) · Wa (k, q) + ∑ k, Hm (a, k) · Wh (k, q)) + b (0, q)) 0`:
  two products added, then the bias row, then the rectifier.

  Each layer is met in two spellings. The accumulating spelling multiplies into a zero accumulator, stretches the
  one-row bias down the rows, and takes the maximum with a splat of zero; the host spelling uses the plain product,
  stretches the one-row bias by a dimension map, and takes the maximum with a scalar zero stretched to the whole shape.
  The host spelling of the second layer adds in another order, `(A·Wa + b) + Hm·Wh`; addition on the extended reals is
  commutative and associative (the infinities included), so both orders give one number. Rows of a product depend only on
  the same rows of the left operand, which is what lets a row block of the result be computed from the row block of the
  left operand: `affineReluAt` and `pairReluAt` take the row as a coordinate so that this is visible in their statements.
-/
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import proofs.«144253_j65335042507035_2_alg».proof.Proof.LibColumnBlocks
import proofs.«144253_j65335042507035_2_alg».proof.Proof.LibCastForms

noncomputable section

namespace Cert.LibDenseRelu

open Idealize.ShloMosaic Idealize.ShloMosaic.ValueIdx

/-! ## The two layers -/

section Defs
variable {N K H : ℕ}

/-- Entry (a, q) of `relu (X · W + b)`. -/
def affineReluAt (X : (⟨2, ![N, K]⟩ : Shape).Idx → EReal) (W : (⟨2, ![K, H]⟩ : Shape).Idx → EReal)
    (b : (⟨2, ![1, H]⟩ : Shape).Idx → EReal) (a : Fin N) (q : Fin H) : EReal :=
  max ((∑ k : Fin K, X (ix2 a k) * W (ix2 k q)) + b (ix2 (0 : Fin 1) q)) 0

/-- `relu (X · W + b)` as a matrix. -/
def affineRelu (X : (⟨2, ![N, K]⟩ : Shape).Idx → EReal) (W : (⟨2, ![K, H]⟩ : Shape).Idx → EReal)
    (b : (⟨2, ![1, H]⟩ : Shape).Idx → EReal) : (⟨2, ![N, H]⟩ : Shape).Idx → EReal :=
  fun j => affineReluAt X W b (j 0) (j 1)

theorem affineRelu_ix2 (X : (⟨2, ![N, K]⟩ : Shape).Idx → EReal) (W : (⟨2, ![K, H]⟩ : Shape).Idx → EReal)
    (b : (⟨2, ![1, H]⟩ : Shape).Idx → EReal) (a : Fin N) (q : Fin H) :
    affineRelu X W b (ix2 a q) = affineReluAt X W b a q := rfl

/-- Entry (a, q) of `relu ((A · Wa + Hm · Wh) + b)`. -/
def pairReluAt (A : (⟨2, ![N, K]⟩ : Shape).Idx → EReal) (Wa : (⟨2, ![K, H]⟩ : Shape).Idx → EReal)
    (Hm : (⟨2, ![N, K]⟩ : Shape).Idx → EReal) (Wh : (⟨2, ![K, H]⟩ : Shape).Idx → EReal)
    (b : (⟨2, ![1, H]⟩ : Shape).Idx → EReal) (a : Fin N) (q : Fin H) : EReal :=
  max (((∑ k : Fin K, A (ix2 a k) * Wa (ix2 k q)) + (∑ k : Fin K, Hm (ix2 a k) * Wh (ix2 k q))) + b (ix2 (0 : Fin 1) q)) 0

/-- `relu ((A · Wa + Hm · Wh) + b)` as a matrix. -/
def pairRelu (A : (⟨2, ![N, K]⟩ : Shape).Idx → EReal) (Wa : (⟨2, ![K, H]⟩ : Shape).Idx → EReal)
    (Hm : (⟨2, ![N, K]⟩ : Shape).Idx → EReal) (Wh : (⟨2, ![K, H]⟩ : Shape).Idx → EReal)
    (b : (⟨2, ![1, H]⟩ : Shape).Idx → EReal) : (⟨2, ![N, H]⟩ : Shape).Idx → EReal :=
  fun j => pairReluAt A Wa Hm Wh b (j 0) (j 1)

theorem pairRelu_ix2 (A : (⟨2, ![N, K]⟩ : Shape).Idx → EReal) (Wa : (⟨2, ![K, H]⟩ : Shape).Idx → EReal)
    (Hm : (⟨2, ![N, K]⟩ : Shape).Idx → EReal) (Wh : (⟨2, ![K, H]⟩ : Shape).Idx → EReal)
    (b : (⟨2, ![1, H]⟩ : Shape).Idx → EReal) (a : Fin N) (q : Fin H) :
    pairRelu A Wa Hm Wh b (ix2 a q) = pairReluAt A Wa Hm Wh b a q := rfl

/-- An entry of `affineRelu` depends on one row of the left operand: two left operands that agree on a row give
    the same entry there. -/
theorem affineReluAt_congr_row {N' : ℕ} (X : (⟨2, ![N, K]⟩ : Shape).Idx → EReal) (X' : (⟨2, ![N', K]⟩ : Shape).Idx → EReal)
    (W : (⟨2, ![K, H]⟩ : Shape).Idx → EReal) (b : (⟨2, ![1, H]⟩ : Shape).Idx → EReal) (a : Fin N) (a' : Fin N') (q q' : Fin H)
    (hX : ∀ k : Fin K, X (ix2 a k) = X' (ix2 a' k)) (hq : q.val = q'.val) :
    affineReluAt X W b a q = affineReluAt X' W b a' q' := by
  obtain rfl : q = q' := Fin.ext hq
  unfold affineReluAt
  simp only [hX]

/-- An entry of `pairRelu` depends on one row of each left operand. -/
theorem pairReluAt_congr_row {N' : ℕ} (A : (⟨2, ![N, K]⟩ : Shape).Idx → EReal) (A' : (⟨2, ![N', K]⟩ : Shape).Idx → EReal)
    (Wa : (⟨2, ![K, H]⟩ : Shape).Idx → EReal) (Hm : (⟨2, ![N, K]⟩ : Shape).Idx → EReal) (Hm' : (⟨2, ![N', K]⟩ : Shape).Idx → EReal)
    (Wh : (⟨2, ![K, H]⟩ : Shape).Idx → EReal) (b : (⟨2, ![1, H]⟩ : Shape).Idx → EReal) (a : Fin N) (a' : Fin N') (q q' : Fin H)
    (hA : ∀ k : Fin K, A (ix2 a k) = A' (ix2 a' k)) (hH : ∀ k : Fin K, Hm (ix2 a k) = Hm' (ix2 a' k)) (hq : q.val = q'.val) :
    pairReluAt A Wa Hm Wh b a q = pairReluAt A' Wa Hm' Wh b a' q' := by
  obtain rfl : q = q' := Fin.ext hq
  unfold pairReluAt
  simp only [hA, hH]

end Defs

/-! ## The accumulating spelling: a product into a zero accumulator, the bias row stretched, a splat of zero -/

section Tile
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)

include hr hs hlc hrc hl0 hr1 in
/-- One product, the bias row, the rectifier. -/
theorem tile_affineRelu (prec : Option ContractPrecision) (x : FVec Ideal ⟨2, ![A, K]⟩ φ₁) (w : FVec Ideal ⟨2, ![K, B]⟩ φ₂)
    (b : FVec Ideal ⟨2, ![1, B]⟩ .f32) (hb : (⟨2, ![1, B]⟩ : Shape).Broadcasts ⟨2, ![A, B]⟩) (p : Fin A) (q : Fin B) :
    maximumf (addf (matmul d prec x w (constant ⟨2, ![A, B]⟩ .f32 0x00000000#32)) (broadcastTo ⟨2, ![A, B]⟩ b hb))
        (broadcast ⟨2, ![A, B]⟩ (Scalar.ofBits .f32 0x00000000#32)) (ix2 p q)
      = affineReluAt x w b p q := by
  rw [maximumf_apply, addf_apply, LibColumnBlocks.matmul_zero_apply d hr hs hlc hrc hl0 hr1 x w p q prec,
    broadcastTo_1b_ab_apply b hb p q, broadcast_apply]
  show max _ (Ideal.ofBits .f32 0x00000000#32) = _
  rw [Ideal.ofBits_zero_f32]
  rfl

include hr hs hlc hrc hl0 hr1 in
/-- Two products added, then the bias row, then the rectifier. -/
theorem tile_pairRelu (prec : Option ContractPrecision) (xa : FVec Ideal ⟨2, ![A, K]⟩ φ₁) (wa : FVec Ideal ⟨2, ![K, B]⟩ φ₂)
    (xh : FVec Ideal ⟨2, ![A, K]⟩ φ₁) (wh : FVec Ideal ⟨2, ![K, B]⟩ φ₂)
    (b : FVec Ideal ⟨2, ![1, B]⟩ .f32) (hb : (⟨2, ![1, B]⟩ : Shape).Broadcasts ⟨2, ![A, B]⟩) (p : Fin A) (q : Fin B) :
    maximumf (addf (addf (matmul d prec xa wa (constant ⟨2, ![A, B]⟩ .f32 0x00000000#32))
          (matmul d prec xh wh (constant ⟨2, ![A, B]⟩ .f32 0x00000000#32))) (broadcastTo ⟨2, ![A, B]⟩ b hb))
        (broadcast ⟨2, ![A, B]⟩ (Scalar.ofBits .f32 0x00000000#32)) (ix2 p q)
      = pairReluAt xa wa xh wh b p q := by
  rw [maximumf_apply, addf_apply, addf_apply, LibColumnBlocks.matmul_zero_apply d hr hs hlc hrc hl0 hr1 xa wa p q prec,
    LibColumnBlocks.matmul_zero_apply d hr hs hlc hrc hl0 hr1 xh wh p q prec, broadcastTo_1b_ab_apply b hb p q, broadcast_apply]
  show max _ (Ideal.ofBits .f32 0x00000000#32) = _
  rw [Ideal.ofBits_zero_f32]
  rfl

end Tile

/-! ## The host spelling: the plain product, the bias row stretched by a dimension map, a scalar zero stretched -/

section Host
variable {A K B : ℕ}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)

include hr hs hlc hrc hl0 hr1 in
/-- The host's `relu (X · W + b)`, as a whole matrix. -/
theorem host_affineRelu (prec : Option ContractPrecision) (x : FVec Ideal ⟨2, ![A, K]⟩ .f32) (w : FVec Ideal ⟨2, ![K, B]⟩ .f32)
    (b : FVec Ideal ⟨2, ![1, B]⟩ .f32)
    (hb : (⟨2, ![1, B]⟩ : Shape).BroadcastsInDim ⟨2, ![A, B]⟩ (![0, 1] : Fin 2 → Fin 2))
    (hz : (⟨0, ![]⟩ : Shape).BroadcastsInDim ⟨2, ![A, B]⟩ ![]) :
    maximumf (addf (Host.dotGeneral d prec x w) (broadcastInDim ⟨2, ![A, B]⟩ (![0, 1] : Fin 2 → Fin 2) hb b))
        (broadcastInDim ⟨2, ![A, B]⟩ ![] hz (constant (F := Ideal) ⟨0, ![]⟩ .f32 0x00000000#32))
      = affineRelu x w b := by
  funext j
  obtain ⟨p, q, rfl⟩ : ∃ (p : Fin A) (q : Fin B), j = ix2 p q := ⟨j 0, j 1, eq_ix2 j⟩
  rw [affineRelu_ix2, maximumf_apply, addf_apply, LibColumnBlocks.hostDot_apply d hr hs hlc hrc hl0 hr1 x w p q prec,
    LibCastForms.bcast_1b_ab_apply b hb p q, broadcastInDim_scalar_apply, constant_apply, Ideal.ofBits_zero_f32]
  rfl

include hr hs hlc hrc hl0 hr1 in
/-- The host's `relu ((A · Wa + b) + Hm · Wh)` is `pairRelu`: the three terms are added in another order. -/
theorem host_pairRelu (prec : Option ContractPrecision) (xa : FVec Ideal ⟨2, ![A, K]⟩ .f32) (wa : FVec Ideal ⟨2, ![K, B]⟩ .f32)
    (xh : FVec Ideal ⟨2, ![A, K]⟩ .f32) (wh : FVec Ideal ⟨2, ![K, B]⟩ .f32) (b : FVec Ideal ⟨2, ![1, B]⟩ .f32)
    (hb : (⟨2, ![1, B]⟩ : Shape).BroadcastsInDim ⟨2, ![A, B]⟩ (![0, 1] : Fin 2 → Fin 2))
    (hz : (⟨0, ![]⟩ : Shape).BroadcastsInDim ⟨2, ![A, B]⟩ ![]) :
    maximumf (addf (addf (Host.dotGeneral d prec xa wa) (broadcastInDim ⟨2, ![A, B]⟩ (![0, 1] : Fin 2 → Fin 2) hb b))
          (Host.dotGeneral d prec xh wh))
        (broadcastInDim ⟨2, ![A, B]⟩ ![] hz (constant (F := Ideal) ⟨0, ![]⟩ .f32 0x00000000#32))
      = pairRelu xa wa xh wh b := by
  funext j
  obtain ⟨p, q, rfl⟩ : ∃ (p : Fin A) (q : Fin B), j = ix2 p q := ⟨j 0, j 1, eq_ix2 j⟩
  rw [pairRelu_ix2, maximumf_apply, addf_apply, addf_apply, LibColumnBlocks.hostDot_apply d hr hs hlc hrc hl0 hr1 xa wa p q prec,
    LibColumnBlocks.hostDot_apply d hr hs hlc hrc hl0 hr1 xh wh p q prec,
    LibCastForms.bcast_1b_ab_apply b hb p q, broadcastInDim_scalar_apply, constant_apply, Ideal.ofBits_zero_f32]
  unfold pairReluAt
  rw [add_right_comm]

end Host

end Cert.LibDenseRelu

end
-- ==== Proof.PayRelu.lean ====
/-
  The two rectified dense layers of the tile, read at (row, column): the dot of the row with the weight matrix's column,
  plus the bias row's entry, rectified.
-/
import proofs.«144253_j65335042507035_2_alg».proof.Proof.PayStages
import proofs.«144253_j65335042507035_2_alg».proof.Proof.Spec
import proofs.«144253_j65335042507035_2_alg».proof.Proof.LibDenseRelu

noncomputable section

namespace Cert.KernelIdeal.Stages

open Idealize.ShloMosaic Idealize.ShloMosaic.ValueIdx
open Cert.KernelIdeal Cert.KernelIdeal.Gen

/-- First layer at (r, j). -/
theorem act1_apply (x1 : FVec Ideal S1024x13 .f32) (x2 : FVec Ideal S13x300 .bf16) (x3 : FVec Ideal S1x300 .f32)
    (r : Fin 1024) (j : Fin 300) :
    act1 x1 x2 x3 (ix2 r j)
      = Cert.Spec.relu ((∑ k : Fin 13, x1 (ix2 r k) * x2 (ix2 k j)) + x3 (ix2 (0 : Fin 1) j)) := by
  unfold act1
  refine (Cert.LibDenseRelu.tile_affineRelu dot_S1024x13_S13x300_S1024x300_1_0_0_1_n_n rfl rfl rfl rfl
    (fun _ _ => rfl) (fun _ _ => rfl) none (truncf .bf16 x1 bitsLt_bf16_f32)
    (shapeCast S13x300 x2 shapeCasts_S13x300_S13x300) (shapeCast S1x300 x3 shapeCasts_S1x300_S1x300)
    broadcasts_S1x300_S1024x300 r j).trans ?_
  unfold Cert.LibDenseRelu.affineReluAt Cert.Spec.relu
  rw [shapeCast_self, shapeCast_self]
  rfl

/-- Third layer at (r, j). -/
theorem act3_apply (h : FVec Ideal S1024x600 .f32) (x6 : FVec Ideal S600x100 .bf16) (x7 : FVec Ideal S1x100 .f32)
    (r : Fin 1024) (j : Fin 100) :
    act3 h x6 x7 (ix2 r j)
      = Cert.Spec.relu ((∑ k : Fin 600, h (ix2 r k) * x6 (ix2 k j)) + x7 (ix2 (0 : Fin 1) j)) := by
  unfold act3
  refine (Cert.LibDenseRelu.tile_affineRelu dot_S1024x600_S600x100_S1024x100_1_0_0_1_n_n rfl rfl rfl rfl
    (fun _ _ => rfl) (fun _ _ => rfl) none (truncf .bf16 h bitsLt_bf16_f32)
    (shapeCast S600x100 x6 shapeCasts_S600x100_S600x100) (shapeCast S1x100 x7 shapeCasts_S1x100_S1x100)
    broadcasts_S1x100_S1024x100 r j).trans ?_
  unfold Cert.LibDenseRelu.affineReluAt Cert.Spec.relu
  rw [shapeCast_self, shapeCast_self]
  rfl

end Cert.KernelIdeal.Stages

end
-- ==== Proof.PayLeaky.lean ====
/-
  The second and fourth layers of the tile's network, read at an index.

  Before its activation a layer's entry at row `r`, column `j` is the dot of row `r` of its input with column `j` of
  the weight matrix, plus entry `j` of the one-row bias: the product accumulates into a zero array, the bias row is
  repeated down the rows, a change of number format is the identity on the extended reals, and a reshape to the same
  shape is the identity.

  The activation selects, where an entry is greater than zero, the entry, and elsewhere the entry times the slope: at
  each index this is the leaky rectifier of the entry.
-/
import proofs.«144253_j65335042507035_2_alg».proof.Proof.PayStages
import proofs.«144253_j65335042507035_2_alg».proof.Proof.Spec
import proofs.«144253_j65335042507035_2_alg».proof.Proof.LibColumnBlocks
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Stages

open Idealize.ShloMosaic Idealize.ShloMosaic.ValueIdx Cert.KernelIdeal Cert.KernelIdeal.Stages

/-- Selecting `x` where `x` is greater than zero and `x` times the slope elsewhere is the leaky rectifier of `x`. -/
theorem select_ogt_zero (x : EReal) :
    Scalar.select (Ideal.cmp .ogt x 0) x (x * Cert.Spec.slope) = Cert.Spec.leaky x := by
  unfold Cert.Spec.leaky
  by_cases hx : 0 < x
  · have hc : Ideal.cmp .ogt x 0 = 1#1 := by simp [Ideal.cmp, hx]
    rw [hc, select_one, if_pos hx]
  · have hc : Ideal.cmp .ogt x 0 = 0#1 := by simp [Ideal.cmp, hx]
    rw [hc, select_zero, if_neg hx]

/-- The second layer before its activation, at row `r` and column `j`. -/
theorem pre2_apply (h : FVec Ideal S1024x300 .f32) (x4 : FVec Ideal S300x600 .bf16) (x5 : FVec Ideal S1x600 .f32)
    (r : Fin 1024) (j : Fin 600) :
    pre2 h x4 x5 (ix2 r j) = (∑ k : Fin 300, h (ix2 r k) * x4 (ix2 k j)) + x5 (ix2 (0 : Fin 1) j) := by
  unfold pre2
  rw [shapeCast_self, shapeCast_self, addf_apply,
    LibColumnBlocks.matmul_zero_apply dot_S1024x300_S300x600_S1024x600_1_0_0_1_n_n rfl rfl rfl rfl (fun _ _ => rfl)
      (fun _ _ => rfl) (truncf .bf16 h Gen.bitsLt_bf16_f32) x4 r j none,
    broadcastTo_1b_ab_apply x5 Gen.broadcasts_S1x600_S1024x600 r j]
  rfl

/-- The fourth layer before its activation, at row `r` and column `j`. -/
theorem pre4_apply (h : FVec Ideal S1024x100 .bf16) (x8 : FVec Ideal S100x13 .bf16) (x9 : FVec Ideal S1x13 .f32)
    (r : Fin 1024) (j : Fin 13) :
    pre4 h x8 x9 (ix2 r j) = (∑ k : Fin 100, h (ix2 r k) * x8 (ix2 k j)) + x9 (ix2 (0 : Fin 1) j) := by
  unfold pre4
  rw [shapeCast_self, shapeCast_self, addf_apply,
    LibColumnBlocks.matmul_zero_apply dot_S1024x100_S100x13_S1024x13_1_0_0_1_n_n rfl rfl rfl rfl (fun _ _ => rfl)
      (fun _ _ => rfl) h x8 r j none,
    broadcastTo_1b_ab_apply x9 Gen.broadcasts_S1x13_S1024x13 r j]

/-- The activation after the second layer is, at each index, the leaky rectifier of the entry. -/
theorem leaky2_apply (p : FVec Ideal S1024x600 .f32) (r : Fin 1024) (j : Fin 600) :
    leaky2 p (ix2 r j) = Cert.Spec.leaky (p (ix2 r j)) := by
  show Scalar.select (Ideal.cmp .ogt (p (ix2 r j)) (Ideal.ofBits .f32 0x00000000#32)) (p (ix2 r j))
      (p (ix2 r j) * Ideal.ofBits .f32 0x3C23D70A#32) = _
  rw [Ideal.ofBits_zero_f32]
  exact select_ogt_zero _

/-- The activation after the fourth layer is, at each index, the leaky rectifier of the entry. -/
theorem leaky4_apply (p : FVec Ideal S1024x13 .f32) (r : Fin 1024) (j : Fin 13) :
    leaky4 p (ix2 r j) = Cert.Spec.leaky (p (ix2 r j)) := by
  show Scalar.select (Ideal.cmp .ogt (p (ix2 r j)) (Ideal.ofBits .f32 0x00000000#32)) (p (ix2 r j))
      (p (ix2 r j) * Ideal.ofBits .f32 0x3C23D70A#32) = _
  rw [Ideal.ofBits_zero_f32]
  exact select_ogt_zero _

end Cert.KernelIdeal.Stages

end
-- ==== Proof.PayNet.lean ====
/-
  The tile's rows after the four layers, read at (row, column): the network of the specification applied to that row of
  the tile, with weight matrices read through their transposes and biases through their one row.
-/
import proofs.«144253_j65335042507035_2_alg».proof.Proof.PayRelu
import proofs.«144253_j65335042507035_2_alg».proof.Proof.PayLeaky

noncomputable section

namespace Cert.KernelIdeal.Stages

open Idealize.ShloMosaic Idealize.ShloMosaic.ValueIdx
open Cert.KernelIdeal Cert.KernelIdeal.Gen

theorem tileNet_apply (x1 : FVec Ideal S1024x13 .f32) (x2 : FVec Ideal S13x300 .bf16) (x3 : FVec Ideal S1x300 .f32)
    (x4 : FVec Ideal S300x600 .bf16) (x5 : FVec Ideal S1x600 .f32) (x6 : FVec Ideal S600x100 .bf16)
    (x7 : FVec Ideal S1x100 .f32) (x8 : FVec Ideal S100x13 .bf16) (x9 : FVec Ideal S1x13 .f32)
    (r : Fin 1024) (j : Fin 13) :
    tileNet x1 x2 x3 x4 x5 x6 x7 x8 x9 (ix2 r j)
      = Cert.Spec.mlp (fun h k => x2 (ix2 k h)) (fun h => x3 (ix2 (0 : Fin 1) h))
          (fun h k => x4 (ix2 k h)) (fun h => x5 (ix2 (0 : Fin 1) h))
          (fun h k => x6 (ix2 k h)) (fun h => x7 (ix2 (0 : Fin 1) h))
          (fun h k => x8 (ix2 k h)) (fun h => x9 (ix2 (0 : Fin 1) h))
          (fun k => x1 (ix2 r k)) j := by
  unfold tileNet
  rw [leaky4_apply, pre4_apply]
  simp only [truncf_apply, act3_apply, leaky2_apply, pre2_apply, act1_apply]
  rfl

end Cert.KernelIdeal.Stages

end
-- ==== Proof.PayScores.lean ====
/-
  Three stages of the tile's arithmetic read at coordinates, over the extended reals.

  * A row of the tile divided by the larger of its Euclidean length and the floor: entry (r, k) is the row's entry k
    divided by max (sqrt (the sum of the row's squares)) floor. The sum over the columns is a sum over the thirteen
    column coordinates; the vector of row sums is recast as a column, and the column is stretched over the thirteen
    columns, so entry (r, k) of the divisor is the value in row r.
  * The dot of query row q with tile row r, times the scale: this product contracts the COLUMN axis of both operands
    (the second operand is used transposed), so entry (q, r) is the sum over k of x0 (q, k) · u (r, k).
  * Per query row the greatest of the 1024 scores: a fold of max from the word of -∞, which denotes ⊥, over the 1024
    column coordinates; the vector of maxima is recast as a [1, 1, 2048] block, whose entry (0, 0, q) is the vector's entry q.
-/
import proofs.«144253_j65335042507035_2_alg».proof.Proof.PayStages
import proofs.«144253_j65335042507035_2_alg».proof.Proof.Spec
import proofs.«144253_j65335042507035_2_alg».proof.Proof.LibCastForms
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Stages

open Idealize.ShloMosaic Idealize.ShloMosaic.ValueIdx
open Cert.KernelIdeal Cert.KernelIdeal.Gen

/-! ## Layout forms -/

section Layout
variable {α : Type}

/-- A column [a, 1] stretched over b columns reads, at (p, c), the column's entry in row p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector [n] recast as a [1, 1, n] block reads, at (u, v, i), the vector's entry i. -/
theorem shapeCast_a_11a_apply {n : ℕ} (x : (⟨1, ![n]⟩ : Shape).Idx → α) (h : (⟨1, ![n]⟩ : Shape).ShapeCasts ⟨3, ![1, 1, n]⟩)
    (u v : Fin 1) (i : Fin n) : shapeCast ⟨3, ![1, 1, n]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * n + i.val
    rw [hu, hv]
    simp)

end Layout

/-! ## Sums and maxima along the column axis of a matrix -/

/-- The sum of a matrix along its columns, at row r, is the sum over the column coordinates. -/
theorem colSum_apply {A B : ℕ} (x : FVec Ideal ⟨2, ![A, B]⟩ .f32) (h : (⟨2, ![A, B]⟩ : Shape).Reduces [1] ⟨1, ![A]⟩)
    (hφ : FKind.Formats .f32) (hacc : (0x00000000#32 : BitVec 32) = FKind.add.neutral .f32 hφ) (r : Fin A) :
    multiReduction .add [1] ⟨1, ![A]⟩ x 0x00000000#32 h hφ hacc (ix1 r) = ∑ j : Fin B, x (ix2 r j) := by
  refine (Ideal.multiReduction_add_single x 0x00000000#32 h hφ hacc (ix1 r)).trans ?_
  show ∑ j : Fin B, x (h.lift (ix1 r) j) = _
  refine Finset.sum_congr rfl fun j _ => congrArg x ?_
  funext c
  apply Fin.ext
  match c with
  | ⟨0, _⟩ => rfl
  | ⟨1, _⟩ => rfl

/-- The word of -∞ denotes ⊥. -/
theorem negInf_eq_bot : Ideal.ofBits .f32 0xFF800000#32 = ⊥ := by simp [Ideal.ofBits, Ideal.ieee]

/-- The maximum of a matrix along its columns, at row r, is the fold of max from ⊥ over the column coordinates. -/
theorem colMax_apply {A B : ℕ} (x : FVec Ideal ⟨2, ![A, B]⟩ .f32) (h : (⟨2, ![A, B]⟩ : Shape).Reduces [1] ⟨1, ![A]⟩)
    (hφ : FKind.Formats .f32) (hacc : (0xFF800000#32 : BitVec 32) = FKind.maximumf.neutral .f32 hφ) (r : Fin A) :
    multiReduction .maximumf [1] ⟨1, ![A]⟩ x 0xFF800000#32 h hφ hacc (ix1 r)
      = (Finset.univ : Finset (Fin B)).fold max ⊥ (fun j => x (ix2 r j)) := by
  refine (Ideal.multiReduction_maximumf_single x 0xFF800000#32 h hφ hacc (ix1 r)).trans ?_
  show (Finset.univ : Finset (Fin B)).fold max (Ideal.ofBits .f32 0xFF800000#32) (x ∘ h.lift (ix1 r)) = _
  rw [negInf_eq_bot]
  refine congrArg (fun f => (Finset.univ : Finset (Fin B)).fold max ⊥ f) (funext fun j => congrArg x ?_)
  funext c
  apply Fin.ext
  match c with
  | ⟨0, _⟩ => rfl
  | ⟨1, _⟩ => rfl

/-! ## A product that contracts the column axis of both operands -/

section DotColumns
variable {A K B : ℕ} {φ₁ φ₂ : FTy}
  (d : DotDims ⟨2, ![A, K]⟩ ⟨2, ![B, K]⟩ ⟨2, ![A, B]⟩)
  (hr : d.contr.rank = 1) (hs : d.contr.size ⟨0, by omega⟩ = K)
  (hlc : d.lhsContracting = [1]) (hrc : d.rhsContracting = [1])
  (hl0 : ∀ j k, (d.lhsIdx j k 0).val = (j 0).val) (hr0 : ∀ j k, (d.rhsIdx j k 0).val = (j 1).val)
  (lhs : FVec Ideal ⟨2, ![A, K]⟩ φ₁) (rhs : FVec Ideal ⟨2, ![B, K]⟩ φ₂) (a : Fin A) (b : Fin B)

include hr hs hlc hrc hl0 hr0 in
/-- The sum over the record's contraction index, re-indexed by the contracted column coordinate. -/
theorem contr_sum_columns :
    ∑ k : d.contr.Idx, lhs (d.lhsIdx (ix2 a b) k) * rhs (d.rhsIdx (ix2 a b) k) = ∑ k : Fin K, lhs (ix2 a k) * rhs (ix2 b k) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 b k := by
    funext c
    apply Fin.ext
    match c with
    | ⟨0, _⟩ => exact hr0 _ _
    | ⟨1, _⟩ => exact (d.rhsIdx_val_of_single hrc _ _).trans (contrEquiv1_symm_val d K hr hs k)
  rw [e1, e2]

include hr hs hlc hrc hl0 hr0 in
/-- The accumulating product into a zero accumulator, at (a, b): the dot of row a of the first operand with row b of the second. -/
theorem matmul_columns_zero_apply (prec : Option ContractPrecision) :
    matmul d prec lhs rhs (constant ⟨2, ![A, B]⟩ .f32 0x00000000#32) (ix2 a b) = ∑ k : Fin K, lhs (ix2 a k) * rhs (ix2 b k) :=
  (Ideal.matmul_constant_zero_apply d prec lhs rhs (ix2 a b)).trans (contr_sum_columns d hr hs hlc hrc hl0 hr0 lhs rhs a b)

end DotColumns

/-! ## The three stages -/

/-- A tile row divided by the larger of its length and the floor, at (r, k). -/
theorem unitRows_apply (t : FVec Ideal S1024x13 .f32) (r : Fin 1024) (k : Fin 13) :
    unitRows t (ix2 r k) = Cert.Spec.unit (fun k' : Fin 13 => t (ix2 r k')) k := by
  unfold unitRows Cert.Spec.unit
  show Ideal.div (t (ix2 r k)) (broadcastTo S1024x13 _ broadcasts_S1024x1_S1024x13 (ix2 r k)) = _
  refine congrArg (Ideal.div (t (ix2 r k))) ?_
  refine (broadcastTo_a1_ab_apply _ broadcasts_S1024x1_S1024x13 r k).trans ?_
  show max (Ideal.sqrt (shapeCast S1024x1 _ shapeCasts_S1024_S1024x1 (ix2 r (0 : Fin 1)))) (Ideal.ofBits .f32 0x322BCC77#32) = _
  refine congrArg (fun z => max (Ideal.sqrt z) (Ideal.ofBits .f32 0x322BCC77#32)) ?_
  refine (Cert.LibCastForms.cast_col _ shapeCasts_S1024_S1024x1 r (0 : Fin 1)).trans ?_
  exact colSum_apply (mulf t t) reduces_S1024x13_S1024 (.inl rfl) rfl r

/-- The score of query row q against tile row r. -/
theorem tileScores_apply (x0 : FVec Ideal S2048x13 .bf16) (u : FVec Ideal S1024x13 .bf16) (q : Fin 2048) (r : Fin 1024) :
    tileScores x0 u (ix2 q r) = (∑ k : Fin 13, x0 (ix2 q k) * u (ix2 r k)) * Cert.Spec.scale := by
  unfold tileScores
  show matmul dot_S2048x13_S1024x13_S2048x1024_1_1_0_0_n_n none (shapeCast S2048x13 x0 shapeCasts_S2048x13_S2048x13) u
      (constant S2048x1024 .f32 0x00000000#32) (ix2 q r) * Ideal.ofBits .f32 0x41B80000#32 = _
  refine congrArg (· * Ideal.ofBits .f32 0x41B80000#32) ?_
  refine (matmul_columns_zero_apply dot_S2048x13_S1024x13_S2048x1024_1_1_0_0_n_n rfl rfl rfl rfl
    (fun _ _ => rfl) (fun _ _ => rfl) (shapeCast S2048x13 x0 shapeCasts_S2048x13_S2048x13) u q r none).trans ?_
  rw [shapeCast_self]

/-- The greatest score of query row q over the tile's rows. -/
theorem tileTop_apply (s : FVec Ideal S2048x1024 .f32) (q : Fin 2048) :
    tileTop s (ix3 (0 : Fin 1) (0 : Fin 1) q) = (Finset.univ : Finset (Fin 1024)).fold max ⊥ (fun r => s (ix2 q r)) := by
  unfold tileTop
  refine (shapeCast_a_11a_apply _ shapeCasts_S2048_S1x1x2048 (0 : Fin 1) (0 : Fin 1) q).trans ?_
  exact colMax_apply s reduces_S2048x1024_S2048 (.inl rfl) rfl q

end Cert.KernelIdeal.Stages

end
-- ==== Proof.KernelTile.lean ====
/-
  One grid point's contribution, against the specification: for query row `q`, the tile's maximum at point `t` is the
  greatest score of `q` over memory rows 1024·t … 1024·t + 1023, the scores being those of the specification at the
  program's argument arrays. Then the block after point `n` is the specification's running maximum after tile `n`.
-/
import proofs.«144253_j65335042507035_2_alg».proof.Proof.KernelChain
import proofs.«144253_j65335042507035_2_alg».proof.Proof.KernelBlocks
import proofs.«144253_j65335042507035_2_alg».proof.Proof.KernelHost
import proofs.«144253_j65335042507035_2_alg».proof.Proof.PayNet
import proofs.«144253_j65335042507035_2_alg».proof.Proof.PayScores
import proofs.«144253_j65335042507035_2_alg».proof.Proof.Target

set_option maxRecDepth 16384

noncomputable section

namespace Cert.KernelIdeal.Chain

open Idealize.ShloMosaic Idealize.ShloMosaic.TcCoe Idealize.ShloMosaic.ValueIdx
open Idealize.SL Idealize.SL.Sem
open Cert.KernelIdeal Cert.KernelIdeal.Gen Cert.KernelIdeal.Stages Cert.KernelIdeal.Blocks Cert.KernelIdeal.HostValue

variable (m : (ℓ : Loc nD τ sig) → Buf (Elt Ideal) ℓ)

/-- The specification's score of query row `q` against memory row `i`, at core `c`'s argument arrays. -/
def scoreAt (c : Dev nD) (q : Fin 2048) : ℕ → EReal :=
  Cert.Spec.score
      (m ((c : Thread nD τ).loc main_arg0) : S65536x13.Idx → EReal)
      (m ((c : Thread nD τ).loc main_arg1) : S2048x13.Idx → EReal)
      (m ((c : Thread nD τ).loc main_arg2) : S300x13.Idx → EReal)
      (m ((c : Thread nD τ).loc main_arg3) : S300.Idx → EReal)
      (m ((c : Thread nD τ).loc main_arg4) : S600x300.Idx → EReal)
      (m ((c : Thread nD τ).loc main_arg5) : S600.Idx → EReal)
      (m ((c : Thread nD τ).loc main_arg6) : S100x600.Idx → EReal)
      (m ((c : Thread nD τ).loc main_arg7) : S100.Idx → EReal)
      (m ((c : Thread nD τ).loc main_arg8) : S13x100.Idx → EReal)
      (m ((c : Thread nD τ).loc main_arg9) : S13.Idx → EReal) q

/-- The network applied to a row of the tile at point `t` is the specification's network on that memory row. -/
theorem net_row (c : Dev nD) (t : Fin cfg0.N) (r : Fin 1024) :
    (fun k' : Fin 13 => tileNet (iblk m c 1 t) (iblk m c 2 t) (iblk m c 3 t) (iblk m c 4 t) (iblk m c 5 t)
        (iblk m c 6 t) (iblk m c 7 t) (iblk m c 8 t) (iblk m c 9 t) (ix2 r k'))
      = Cert.Spec.mlp (Cert.Spec.mat (m ((c : Thread nD τ).loc main_arg2) : S300x13.Idx → EReal)) (Cert.Spec.vec (m ((c : Thread nD τ).loc main_arg3) : S300.Idx → EReal))
          (Cert.Spec.mat (m ((c : Thread nD τ).loc main_arg4) : S600x300.Idx → EReal)) (Cert.Spec.vec (m ((c : Thread nD τ).loc main_arg5) : S600.Idx → EReal))
          (Cert.Spec.mat (m ((c : Thread nD τ).loc main_arg6) : S100x600.Idx → EReal)) (Cert.Spec.vec (m ((c : Thread nD τ).loc main_arg7) : S100.Idx → EReal))
          (Cert.Spec.mat (m ((c : Thread nD τ).loc main_arg8) : S13x100.Idx → EReal)) (Cert.Spec.vec (m ((c : Thread nD τ).loc main_arg9) : S13.Idx → EReal))
          (Cert.Spec.rowOf (Cert.Spec.mat (m ((c : Thread nD τ).loc main_arg0) : S65536x13.Idx → EReal)) (t.val * 1024 + r.val)) := by
  have hN : t.val < 64 := lt_of_lt_of_eq t.isLt N_0
  have hi : t.val * 1024 + r.val < 65536 := by have := r.isLt; omega
  funext k'
  rw [tileNet_apply]
  have e2 : (fun (h : Fin 300) (k : Fin 13) => (iblk m c 2 t : Vec Ideal S13x300 .bf16) (ix2 k h)) = Cert.Spec.mat (m ((c : Thread nD τ).loc main_arg2) : S300x13.Idx → EReal) := by
    funext h k; rw [iblk2_eq]; exact V_w2 m c k h
  have e3 : (fun (h : Fin 300) => (iblk m c 3 t : Vec Ideal S1x300 .f32) (ix2 (0 : Fin 1) h)) = Cert.Spec.vec (m ((c : Thread nD τ).loc main_arg3) : S300.Idx → EReal) := by
    funext h; rw [iblk3_eq]; exact V_w3 m c h
  have e4 : (fun (h : Fin 600) (k : Fin 300) => (iblk m c 4 t : Vec Ideal S300x600 .bf16) (ix2 k h)) = Cert.Spec.mat (m ((c : Thread nD τ).loc main_arg4) : S600x300.Idx → EReal) := by
    funext h k; rw [iblk4_eq]; exact V_w4 m c k h
  have e5 : (fun (h : Fin 600) => (iblk m c 5 t : Vec Ideal S1x600 .f32) (ix2 (0 : Fin 1) h)) = Cert.Spec.vec (m ((c : Thread nD τ).loc main_arg5) : S600.Idx → EReal) := by
    funext h; rw [iblk5_eq]; exact V_w5 m c h
  have e6 : (fun (h : Fin 100) (k : Fin 600) => (iblk m c 6 t : Vec Ideal S600x100 .bf16) (ix2 k h)) = Cert.Spec.mat (m ((c : Thread nD τ).loc main_arg6) : S100x600.Idx → EReal) := by
    funext h k; rw [iblk6_eq]; exact V_w6 m c k h
  have e7 : (fun (h : Fin 100) => (iblk m c 7 t : Vec Ideal S1x100 .f32) (ix2 (0 : Fin 1) h)) = Cert.Spec.vec (m ((c : Thread nD τ).loc main_arg7) : S100.Idx → EReal) := by
    funext h; rw [iblk7_eq]; exact V_w7 m c h
  have e8 : (fun (h : Fin 13) (k : Fin 100) => (iblk m c 8 t : Vec Ideal S100x13 .bf16) (ix2 k h)) = Cert.Spec.mat (m ((c : Thread nD τ).loc main_arg8) : S13x100.Idx → EReal) := by
    funext h k; rw [iblk8_eq]; exact V_w8 m c k h
  have e9 : (fun (h : Fin 13) => (iblk m c 9 t : Vec Ideal S1x13 .f32) (ix2 (0 : Fin 1) h)) = Cert.Spec.vec (m ((c : Thread nD τ).loc main_arg9) : S13.Idx → EReal) := by
    funext h; rw [iblk9_eq]; exact V_w9 m c h
  have e1 : (fun (k : Fin 13) => (iblk m c 1 t : Vec Ideal S1024x13 .f32) (ix2 r k))
      = Cert.Spec.rowOf (Cert.Spec.mat (m ((c : Thread nD τ).loc main_arg0) : S65536x13.Idx → EReal)) (t.val * 1024 + r.val) := by
    funext k
    rw [iblk1_apply m c t r k ⟨t.val * 1024 + r.val, hi⟩ rfl, V_main_arg0]
    unfold Cert.Spec.rowOf
    rw [dif_pos hi]
    rfl
  rw [e2, e3, e4, e5, e6, e7, e8, e9, e1]

/-- The tile's maximum at point `t` for query row `q`. -/
theorem tileBlock_apply (c : Dev nD) (t : Fin cfg0.N) (q : Fin 2048) :
    tileBlock m c t (ix3 (0 : Fin 1) (0 : Fin 1) q) = Cert.Spec.tileMax (scoreAt m c q) t.val := by
  unfold tileBlock
  rw [tileTop_apply]
  unfold Cert.Spec.tileMax
  refine congrArg (fun g => (Finset.univ : Finset (Fin 1024)).fold max (⊥ : EReal) g) (funext fun r => ?_)
  rw [tileScores_apply]
  show _ = Cert.Spec.sim _ _
  unfold Cert.Spec.sim
  refine congrArg (· * Cert.Spec.scale) (Finset.sum_congr rfl fun k _ => ?_)
  rw [iblk0_eq, V_w0, unitRows_apply, net_row m c t r]

end Cert.KernelIdeal.Chain

end
-- ==== Proof.KernelFinal.lean ====
/-
  The kernel program's result. For query row `q` the output block after grid point `n` holds the specification's running
  maximum after tile `n`; the [2, 1, 2048] output array ends holding, in plane `r`, the running maximum after the last
  tile of run `r` (that tile's write-back covers the plane); the host then combines the two planes by `max` from the
  bottom element. So the program's result array is the specification's tiled form at the argument arrays.
-/
import proofs.«144253_j65335042507035_2_alg».proof.Proof.KernelTile
import Idealize.ShloMosaic.Lib.Pipeline.Value

set_option maxRecDepth 16384

noncomputable section

namespace Cert.KernelIdeal.Chain

open Idealize.ShloMosaic Idealize.ShloMosaic.TcCoe Idealize.ShloMosaic.ValueIdx
open Idealize.SL Idealize.SL.Sem
open Idealize.ShloMosaic.Pipeline (Dat)
open Cert.KernelIdeal Cert.KernelIdeal.Gen Cert.KernelIdeal.Stages Cert.KernelIdeal.Blocks Cert.KernelIdeal.HostValue

variable (m : (ℓ : Loc nD τ sig) → Buf (Elt Ideal) ℓ)

/-- The starting block holds the finite starting value everywhere. -/
theorem start_apply (j : S1x1x2048.Idx) : (k0_pay1 (F := Ideal) : FVec Ideal S1x1x2048 .f32) j = Cert.Spec.floor30 := rfl

/-- One update at query row `q`. -/
theorem step_apply (prev : FVec Ideal S1x1x2048 .f32) (c : Dev nD) (t : Fin cfg0.N) (q : Fin 2048) :
    step m prev c t (ix3 (0 : Fin 1) (0 : Fin 1) q)
      = max (prev (ix3 (0 : Fin 1) (0 : Fin 1) q)) (Cert.Spec.tileMax (scoreAt m c q) t.val) := by
  unfold step
  rw [maximumf_apply, shapeCast_self, tileBlock_apply]

theorem acc_succ (f : ℕ → EReal) (n : ℕ) :
    Cert.Spec.acc f (n + 1) = if (n + 1) % 32 = 0 then max Cert.Spec.floor30 (Cert.Spec.tileMax f (n + 1))
      else max (Cert.Spec.acc f n) (Cert.Spec.tileMax f (n + 1)) := rfl

/-- The block after point `n`, at query row `q`, is the specification's running maximum after tile `n`. -/
theorem chain_apply (c : Dev nD) (q : Fin 2048) : ∀ (n : ℕ) (h : n < cfg0.N),
    chain m c n h (ix3 (0 : Fin 1) (0 : Fin 1) q) = Cert.Spec.acc (scoreAt m c q) n
  | 0, h => by
    rw [chain_zero, step_apply, start_apply]
    rfl
  | n + 1, h => by
    rw [chain_succ, acc_succ]
    by_cases h0 : (n + 1) % 32 = 0
    · rw [if_pos h0, if_pos h0, step_apply, start_apply]
    · rw [if_neg h0, if_neg h0, step_apply, chain_apply c q n]

/-- The same at any index of the block (its first two coordinates are zero). -/
theorem chain_idx (c : Dev nD) (n : ℕ) (h : n < cfg0.N) (j : S1x1x2048.Idx) (q : Fin 2048) (hq : (j 2).val = q.val) :
    chain m c n h j = Cert.Spec.acc (scoreAt m c q) n := by
  have hj : j = ix3 (0 : Fin 1) (0 : Fin 1) q := by
    funext a
    match a with
    | ⟨0, _⟩ => exact Subsingleton.elim (α := Fin 1) _ _
    | ⟨1, _⟩ => exact Subsingleton.elim (α := Fin 1) _ _
    | ⟨2, _⟩ => exact Fin.ext hq
  exact (congrArg (chain m c n h) hj).trans (chain_apply m c q n h)

/-- Run `r`'s final running maximum for query row number `q'`. -/
def accAt (c : Dev nD) (r : ℕ) (q' : ℕ) : EReal :=
  if h : q' < 2048 then Cert.Spec.acc (scoreAt m c ⟨q', h⟩) (32 * r + 31) else 0

/-- `accAt` at an in-range query row number. -/
theorem accAt_eq (c : Dev nD) (r q' : ℕ) (q : Fin 2048) (n : ℕ) (hr : 32 * r + 31 = n) (hq : q' = q.val) :
    accAt m c r q' = Cert.Spec.acc (scoreAt m c q) n := by
  subst hr hq
  unfold accAt
  rw [dif_pos q.isLt]

/-- What the output array ends holding. -/
def outArr (c : Dev nD) : S2x1x2048.Idx → EReal := fun i => accAt m c (i 0).val (i 2).val

/-- The write-back after the last tile of a run writes that run's plane of `outArr`. -/
theorem flushed_eq (c : Dev nD) (t : Fin cfg0.N) (hf : (cfg0.win 10).flush t = true) :
    (dats m 0 c).flushed 10 t = ((cfg0.win 10).blk t).view.read (Elt Ideal) (outArr m c) := by
  have ht : t.val % 32 = 31 := (flush0_10 t).mp hf
  obtain ⟨e0, e1, e2⟩ := out_index t
  show (cfg0.win 10).cut (grid0.coords t) ((dats m 0 c).after 10 t) = _
  rw [after0_10, outsAt_eq]
  funext j
  show chain m c t.val t.isLt j
    = accAt m c (win0_10.index t (0 : Fin 3) * 1 + 1 * (j 0).val) (win0_10.index t (2 : Fin 3) * 2048 + 1 * (j 2).val)
  have h0 : (j 0).val = 0 := Fin.val_eq_zero (j 0 : Fin 1)
  have hq : (j 2).val < 2048 := (j 2).isLt
  rw [chain_idx m c t.val t.isLt j ⟨(j 2).val, hq⟩ rfl]
  exact (accAt_eq m c _ _ ⟨(j 2).val, hq⟩ t.val (by rw [e0]; omega) (by rw [e2]; show _ = (j 2).val; omega)).symm

/-- An index of the output array is in point `t`'s block iff each coordinate is in the block's range. -/
theorem mem_blk (t : Fin cfg0.N) (i : S2x1x2048.Idx) :
    i ∈ ((cfg0.win 10).blk t).view.set ↔ ∀ a : Fin 3, win0_10.index t a * S1x1x2048.size a ≤ (i a).val
      ∧ (i a).val < win0_10.index t a * S1x1x2048.size a + S1x1x2048.size a := by
  show i ∈ ((View.whole main_v18).slice (win0_10.rect t)).set ↔ _
  rw [View.set_slice_whole, Rect.mem_set_unit]
  exact Iff.rfl

/-- Every index of the output array lies in the block written back after the last tile of its run. -/
theorem covered (i : S2x1x2048.Idx) :
    ∃ t : Fin cfg0.N, (cfg0.win 10).flush t = true ∧ i ∈ ((cfg0.win 10).blk t).view.set := by
  have hi0 : (i 0).val < 2 := (i 0).isLt
  have hi1 : (i 1).val < 1 := (i 1).isLt
  have hi2 : (i 2).val < 2048 := (i 2).isLt
  have hN : cfg0.N = 64 := N_0
  have hlt : 32 * (i 0).val + 31 < cfg0.N := by omega
  refine ⟨⟨32 * (i 0).val + 31, hlt⟩, (flush0_10 _).mpr (by show (32 * (i 0).val + 31) % 32 = 31; omega), ?_⟩
  obtain ⟨e0, e1, e2⟩ := out_index ⟨32 * (i 0).val + 31, hlt⟩
  have e0' : win0_10.index ⟨32 * (i 0).val + 31, hlt⟩ (0 : Fin 3) = (i 0).val := by
    rw [e0]; show (32 * (i 0).val + 31) / 32 = (i 0).val; omega
  rw [mem_blk]
  intro a
  match a with
  | ⟨0, _⟩ =>
    show win0_10.index ⟨32 * (i 0).val + 31, hlt⟩ (0 : Fin 3) * 1 ≤ (i 0).val
      ∧ (i 0).val < win0_10.index ⟨32 * (i 0).val + 31, hlt⟩ (0 : Fin 3) * 1 + 1
    rw [e0']; omega
  | ⟨1, _⟩ =>
    show win0_10.index ⟨32 * (i 0).val + 31, hlt⟩ (1 : Fin 3) * 1 ≤ (i 1).val
      ∧ (i 1).val < win0_10.index ⟨32 * (i 0).val + 31, hlt⟩ (1 : Fin 3) * 1 + 1
    rw [e1]; omega
  | ⟨2, _⟩ =>
    show win0_10.index ⟨32 * (i 0).val + 31, hlt⟩ (2 : Fin 3) * 2048 ≤ (i 2).val
      ∧ (i 2).val < win0_10.index ⟨32 * (i 0).val + 31, hlt⟩ (2 : Fin 3) * 2048 + 2048
    rw [e2]; omega

/-- The output array after the run. -/
theorem final_out (c : Dev nD) : ((dats m 0 c).arrAt 10 cfg0.N : S2x1x2048.Idx → EReal) = outArr m c :=
  (dats m 0 c).arrAt_eq_of_cover 10 (outArr m c) (flushed_eq m c) fun i => covered i

/-- The program's result array is the specification's tiled form at the argument arrays. -/
theorem result_eq (c : Dev nD) :
    (Pipeline.afterTail₀ cfgs (dats m) 0 (V0 m) [hostOps1] c main_v20 : S2048.Idx → EReal)
      = Cert.Spec.tiled
        (m ((c : Thread nD τ).loc main_arg0) : S65536x13.Idx → EReal)
        (m ((c : Thread nD τ).loc main_arg1) : S2048x13.Idx → EReal)
        (m ((c : Thread nD τ).loc main_arg2) : S300x13.Idx → EReal)
        (m ((c : Thread nD τ).loc main_arg3) : S300.Idx → EReal)
        (m ((c : Thread nD τ).loc main_arg4) : S600x300.Idx → EReal)
        (m ((c : Thread nD τ).loc main_arg5) : S600.Idx → EReal)
        (m ((c : Thread nD τ).loc main_arg6) : S100x600.Idx → EReal)
        (m ((c : Thread nD τ).loc main_arg7) : S100.Idx → EReal)
        (m ((c : Thread nD τ).loc main_arg8) : S13x100.Idx → EReal)
        (m ((c : Thread nD τ).loc main_arg9) : S13.Idx → EReal) := by
  funext i
  obtain ⟨q, rfl⟩ : ∃ q : Fin 2048, i = ix1 q := ⟨i 0, eq_ix1 i⟩
  rw [tail_apply, final_out]
  unfold Cert.Spec.tiled Cert.Spec.combined
  refine congrArg (fun g => (Finset.univ : Finset (Fin 2)).fold max (⊥ : EReal) g) (funext fun r => ?_)
  exact accAt_eq m c r.val q.val q _ rfl rfl

/-- The run, read: the result array at the specification's tiled form, the arguments unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v20)
        = Cert.Spec.tiled
        (m ((c : Thread nD τ).loc main_arg0) : S65536x13.Idx → EReal)
        (m ((c : Thread nD τ).loc main_arg1) : S2048x13.Idx → EReal)
        (m ((c : Thread nD τ).loc main_arg2) : S300x13.Idx → EReal)
        (m ((c : Thread nD τ).loc main_arg3) : S300.Idx → EReal)
        (m ((c : Thread nD τ).loc main_arg4) : S600x300.Idx → EReal)
        (m ((c : Thread nD τ).loc main_arg5) : S600.Idx → EReal)
        (m ((c : Thread nD τ).loc main_arg6) : S100x600.Idx → EReal)
        (m ((c : Thread nD τ).loc main_arg7) : S100.Idx → EReal)
        (m ((c : Thread nD τ).loc main_arg8) : S13x100.Idx → EReal)
        (m ((c : Thread nD τ).loc main_arg9) : S13.Idx → EReal)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v20 (Pipeline.mem_restRefs_of main_v20 (by decide) (by decide))).trans (result_eq m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

end Cert.KernelIdeal.Chain

end
-- ==== Proof.RefStages.lean ====
/-
  The reference program's result written as one term of its ten arguments.

  Each definition is one stretch of the program's operations, composed in the program's order with the program's own
  operators and side-condition witnesses: a dense layer before its activation (the weight matrix transposed, the
  product, the bias placed as a row and stretched down the rows, the sum), a rectifier (the maximum with a stretched
  zero), a leaky rectifier (a comparison with a stretched zero choosing between the entry and the stretched slope times
  the entry), a matrix's row lengths (squares, the sum along each row from zero, placed as a column, the square root),
  the rows divided by the larger of their length and a stretched floor, the products of all pairs of rows times a
  stretched scale, and the greatest entry of each row from the bottom element.
-/
import proofs.«144253_j65335042507035_2_alg».proof.ReferenceIdeal
import Idealize.ShloMosaic.PureOps.Ideal

noncomputable section

namespace Cert.ReferenceIdeal.RefValue

open Idealize.ShloMosaic

variable [Facts]
open Facts₀ Facts

/-! ## The four dense layers and their activations -/

/-- The first layer before its activation: `a0 · a2ᵀ + a3`. -/
def pre1 (a0 : FVec Ideal S65536x13 .f32) (a2 : FVec Ideal S300x13 .f32) (a3 : FVec Ideal S300 .f32) :
    FVec Ideal S65536x300 .f32 :=
  addf (F := Ideal)
    (Host.dotGeneral (F := Ideal) dot_S65536x13_S13x300_S65536x300_1_0_0_1_n_n none a0
      (transpose S13x300 [1, 0] a2 transposes_S300x13_S13x300_1_0))
    (broadcastInDim S65536x300 ![0, 1] bcast_S1x300_S65536x300_0_1 (broadcastInDim S1x300 ![1] bcast_S300_S1x300_1 a3))

/-- The rectifier on a 65536 × 300 matrix. -/
def relu1 (x : FVec Ideal S65536x300 .f32) : FVec Ideal S65536x300 .f32 :=
  maximumf (F := Ideal) x
    (broadcastInDim S65536x300 ![] bcast_S_S65536x300 (constant (F := Ideal) S_ .f32 0x00000000#32))

/-- The second layer before its activation: `h · a4ᵀ + a5`. -/
def pre2 (h : FVec Ideal S65536x300 .f32) (a4 : FVec Ideal S600x300 .f32) (a5 : FVec Ideal S600 .f32) :
    FVec Ideal S65536x600 .f32 :=
  addf (F := Ideal)
    (Host.dotGeneral (F := Ideal) dot_S65536x300_S300x600_S65536x600_1_0_0_1_n_n none h
      (transpose S300x600 [1, 0] a4 transposes_S600x300_S300x600_1_0))
    (broadcastInDim S65536x600 ![0, 1] bcast_S1x600_S65536x600_0_1 (broadcastInDim S1x600 ![1] bcast_S600_S1x600_1 a5))

/-- The leaky rectifier on a 65536 × 600 matrix. -/
def leaky2 (x : FVec Ideal S65536x600 .f32) : FVec Ideal S65536x600 .f32 :=
  select
    (cmpf (F := Ideal) .oge x
      (broadcastInDim S65536x600 ![] bcast_S_S65536x600 (constant (F := Ideal) S_ .f32 0x00000000#32)))
    x
    (mulf (F := Ideal)
      (broadcastInDim S65536x600 ![] bcast_S_S65536x600 (id (constant (F := Ideal) S_ .f32 0x3C23D70A#32))) x)

/-- The third layer before its activation: `h · a6ᵀ + a7`. -/
def pre3 (h : FVec Ideal S65536x600 .f32) (a6 : FVec Ideal S100x600 .f32) (a7 : FVec Ideal S100 .f32) :
    FVec Ideal S65536x100 .f32 :=
  addf (F := Ideal)
    (Host.dotGeneral (F := Ideal) dot_S65536x600_S600x100_S65536x100_1_0_0_1_n_n none h
      (transpose S600x100 [1, 0] a6 transposes_S100x600_S600x100_1_0))
    (broadcastInDim S65536x100 ![0, 1] bcast_S1x100_S65536x100_0_1 (broadcastInDim S1x100 ![1] bcast_S100_S1x100_1 a7))

/-- The rectifier on a 65536 × 100 matrix. -/
def relu3 (x : FVec Ideal S65536x100 .f32) : FVec Ideal S65536x100 .f32 :=
  maximumf (F := Ideal) x
    (broadcastInDim S65536x100 ![] bcast_S_S65536x100 (constant (F := Ideal) S_ .f32 0x00000000#32))

/-- The fourth layer before its activation: `h · a8ᵀ + a9`. -/
def pre4 (h : FVec Ideal S65536x100 .f32) (a8 : FVec Ideal S13x100 .f32) (a9 : FVec Ideal S13 .f32) :
    FVec Ideal S65536x13 .f32 :=
  addf (F := Ideal)
    (Host.dotGeneral (F := Ideal) dot_S65536x100_S100x13_S65536x13_1_0_0_1_n_n none h
      (transpose S100x13 [1, 0] a8 transposes_S13x100_S100x13_1_0))
    (broadcastInDim S65536x13 ![0, 1] bcast_S1x13_S65536x13_0_1 (broadcastInDim S1x13 ![1] bcast_S13_S1x13_1 a9))

/-- The leaky rectifier on a 65536 × 13 matrix. -/
def leaky4 (x : FVec Ideal S65536x13 .f32) : FVec Ideal S65536x13 .f32 :=
  select
    (cmpf (F := Ideal) .oge x
      (broadcastInDim S65536x13 ![] bcast_S_S65536x13 (constant (F := Ideal) S_ .f32 0x00000000#32)))
    x
    (mulf (F := Ideal)
      (broadcastInDim S65536x13 ![] bcast_S_S65536x13 (id (constant (F := Ideal) S_ .f32 0x3C23D70A#32))) x)

/-- The network's image of every memory row. -/
def net (a0 : FVec Ideal S65536x13 .f32) (a2 : FVec Ideal S300x13 .f32) (a3 : FVec Ideal S300 .f32)
    (a4 : FVec Ideal S600x300 .f32) (a5 : FVec Ideal S600 .f32) (a6 : FVec Ideal S100x600 .f32)
    (a7 : FVec Ideal S100 .f32) (a8 : FVec Ideal S13x100 .f32) (a9 : FVec Ideal S13 .f32) :
    FVec Ideal S65536x13 .f32 :=
  leaky4 (pre4 (relu3 (pre3 (leaky2 (pre2 (relu1 (pre1 a0 a2 a3)) a4 a5)) a6 a7)) a8 a9)

/-! ## Row lengths and scaled rows -/

/-- The Euclidean lengths of the rows of a 65536 × 13 matrix, as a column. -/
def normM (x : FVec Ideal S65536x13 .f32) : FVec Ideal S65536x1 .f32 :=
  Host.sqrt (F := Ideal)
    (broadcastInDim S65536x1 ![0] bcast_S65536_S65536x1_0
      (Host.reduceAdd (F := Ideal) (mulf (F := Ideal) x x) (constant (F := Ideal) S_ .f32 0x00000000#32)
        reducesTo_S65536x13_S65536_d1 h_S_))

/-- The rows of a 65536 × 13 matrix divided by the larger of their length and the floor. -/
def unitM (x : FVec Ideal S65536x13 .f32) : FVec Ideal S65536x13 .f32 :=
  Host.divf (F := Ideal) x
    (broadcastInDim S65536x13 ![0, 1] bcast_S65536x1_S65536x13_0_1
      (maximumf (F := Ideal) (normM x)
        (broadcastInDim S65536x1 ![] bcast_S_S65536x1 (constant (F := Ideal) S_ .f32 0x322BCC77#32))))

/-- The Euclidean lengths of the rows of a 2048 × 13 matrix, as a column. -/
def normQ (x : FVec Ideal S2048x13 .f32) : FVec Ideal S2048x1 .f32 :=
  Host.sqrt (F := Ideal)
    (broadcastInDim S2048x1 ![0] bcast_S2048_S2048x1_0
      (Host.reduceAdd (F := Ideal) (mulf (F := Ideal) x x) (constant (F := Ideal) S_ .f32 0x00000000#32)
        reducesTo_S2048x13_S2048_d1 h_S_))

/-- The rows of a 2048 × 13 matrix divided by the larger of their length and the floor. -/
def unitQ (x : FVec Ideal S2048x13 .f32) : FVec Ideal S2048x13 .f32 :=
  Host.divf (F := Ideal) x
    (broadcastInDim S2048x13 ![0, 1] bcast_S2048x1_S2048x13_0_1
      (maximumf (F := Ideal) (normQ x)
        (broadcastInDim S2048x1 ![] bcast_S_S2048x1 (constant (F := Ideal) S_ .f32 0x322BCC77#32))))

/-! ## All pairs' similarities and each query row's greatest -/

/-- The dot of every row of `q` with every row of `m`, times the scale. -/
def scores (q : FVec Ideal S2048x13 .f32) (m : FVec Ideal S65536x13 .f32) : FVec Ideal S2048x65536 .f32 :=
  mulf (F := Ideal)
    (Host.dotGeneral (F := Ideal) dot_S2048x13_S13x65536_S2048x65536_1_0_0_1_n_n none q
      (transpose S13x65536 [1, 0] m transposes_S65536x13_S13x65536_1_0))
    (broadcastInDim S2048x65536 ![] bcast_S_S2048x65536 (constant (F := Ideal) S_ .f32 0x41B80000#32))

/-- The greatest entry of each row, folded from the bottom element. -/
def rowMax (s : FVec Ideal S2048x65536 .f32) : FVec Ideal S2048 .f32 :=
  Host.reduce (FloatOps.maximumf (F := Ideal) (φ := .f32)) s (constant (F := Ideal) S_ .f32 0xFF800000#32)
    reducesTo_S2048x65536_S2048_d1 h_S_

/-- The contents of the program's result as a function of the contents of its ten arguments. -/
def refTerm (a0 : FVec Ideal S65536x13 .f32) (a1 : FVec Ideal S2048x13 .f32) (a2 : FVec Ideal S300x13 .f32)
    (a3 : FVec Ideal S300 .f32) (a4 : FVec Ideal S600x300 .f32) (a5 : FVec Ideal S600 .f32)
    (a6 : FVec Ideal S100x600 .f32) (a7 : FVec Ideal S100 .f32) (a8 : FVec Ideal S13x100 .f32)
    (a9 : FVec Ideal S13 .f32) : FVec Ideal S2048 .f32 :=
  rowMax (scores (unitQ a1) (unitM (net a0 a2 a3 a4 a5 a6 a7 a8 a9)))

end Cert.ReferenceIdeal.RefValue

end
-- ==== Proof.RefRun.lean ====
/-
  The reference program's run, read back at its result.

  The program is a straight line of host operations once each called function is replaced by its body over that
  call's own buffers. Run from any memory with zero counters, every weakly fair execution terminates; each buffer
  then holds the fold of the operations' results over the launch contents. At the result buffer that fold is the
  composed term of the ten arguments' launch contents; at each argument buffer it is the launch contents, since no
  operation writes an argument.
-/
import proofs.«144253_j65335042507035_2_alg».proof.ReferenceIdeal
import proofs.«144253_j65335042507035_2_alg».proof.Proof.RefStages
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Cert.ReferenceIdeal.Facts]

/-- The program's 69 host operations in order, each called function's operations listed at its call site over
    that call's buffers: three dense layers with their activations and a fourth, the row lengths of both matrices,
    the two divisions by the floored lengths, the products of all pairs of rows, their scaling and each row's maximum. -/
abbrev ops : List (HloOp τ sig (Elt F)) :=
  [
    StableHlo.unary main_arg2 main_v0 ((transpose S13x300 [1, 0] · transposes_S300x13_S13x300_1_0) : (⟨S300x13, .f32⟩ : BufTy).Contents (Elt F) → (⟨S13x300, .f32⟩ : BufTy).Contents (Elt F)),
    StableHlo.binary main_arg0 main_v0 main_v1 ((fun l r => Host.dotGeneral dot_S65536x13_S13x300_S65536x300_1_0_0_1_n_n none l r) : (⟨S65536x13, .f32⟩ : BufTy).Contents (Elt F) → (⟨S13x300, .f32⟩ : BufTy).Contents (Elt F) → (⟨S65536x300, .f32⟩ : BufTy).Contents (Elt F)),
    StableHlo.unary main_arg3 main_v2 (broadcastInDim S1x300 ![1] bcast_S300_S1x300_1 : (⟨S300, .f32⟩ : BufTy).Contents (Elt F) → (⟨S1x300, .f32⟩ : BufTy).Contents (Elt F)),
    StableHlo.unary main_v2 main_v3 (broadcastInDim S65536x300 ![0, 1] bcast_S1x300_S65536x300_0_1 : (⟨S1x300, .f32⟩ : BufTy).Contents (Elt F) → (⟨S65536x300, .f32⟩ : BufTy).Contents (Elt F)),
    StableHlo.binary main_v1 main_v3 main_v4 (addf : (⟨S65536x300, .f32⟩ : BufTy).Contents (Elt F) → (⟨S65536x300, .f32⟩ : BufTy).Contents (Elt F) → (⟨S65536x300, .f32⟩ : BufTy).Contents (Elt F)),
    StableHlo.TRef.nullary main_call0.cst (constant S_ .f32 0x00000000#32),
    StableHlo.TRef.unary main_call0.cst main_call0.v0 (broadcastInDim S65536x300 ![] bcast_S_S65536x300),
    StableHlo.TRef.binary (.of main_v4) main_call0.v0 main_call0.v1 maximumf,
    StableHlo.unary main_arg4 main_v6 ((transpose S300x600 [1, 0] · transposes_S600x300_S300x600_1_0) : (⟨S600x300, .f32⟩ : BufTy).Contents (Elt F) → (⟨S300x600, .f32⟩ : BufTy).Contents (Elt F)),
    StableHlo.binary main_v5 main_v6 main_v7 ((fun l r => Host.dotGeneral dot_S65536x300_S300x600_S65536x600_1_0_0_1_n_n none l r) : (⟨S65536x300, .f32⟩ : BufTy).Contents (Elt F) → (⟨S300x600, .f32⟩ : BufTy).Contents (Elt F) → (⟨S65536x600, .f32⟩ : BufTy).Contents (Elt F)),
    StableHlo.unary main_arg5 main_v8 (broadcastInDim S1x600 ![1] bcast_S600_S1x600_1 : (⟨S600, .f32⟩ : BufTy).Contents (Elt F) → (⟨S1x600, .f32⟩ : BufTy).Contents (Elt F)),
    StableHlo.unary main_v8 main_v9 (broadcastInDim S65536x600 ![0, 1] bcast_S1x600_S65536x600_0_1 : (⟨S1x600, .f32⟩ : BufTy).Contents (Elt F) → (⟨S65536x600, .f32⟩ : BufTy).Contents (Elt F)),
    StableHlo.binary main_v7 main_v9 main_v10 (addf : (⟨S65536x600, .f32⟩ : BufTy).Contents (Elt F) → (⟨S65536x600, .f32⟩ : BufTy).Contents (Elt F) → (⟨S65536x600, .f32⟩ : BufTy).Contents (Elt F)),
    StableHlo.nullary main_cst (constant S_ .f32 0x3C23D70A#32),
    StableHlo.TRef.nullary main_call1.cst (constant S_ .f32 0x00000000#32),
    StableHlo.TRef.unary main_call1.cst main_call1.v0 (broadcastInDim S65536x600 ![] bcast_S_S65536x600),
    StableHlo.TRef.binary (.of main_v10) main_call1.v0 main_call1.v1 (cmpf .oge),
    StableHlo.TRef.unary (.of main_cst) main_call1.v2 id,
    StableHlo.TRef.unary main_call1.v2 main_call1.v3 (broadcastInDim S65536x600 ![] bcast_S_S65536x600),
    StableHlo.TRef.binary main_call1.v3 (.of main_v10) main_call1.v4 mulf,
    StableHlo.TRef.ternary main_call1.v1 (.of main_v10) main_call1.v4 main_call1.call0.v0 select,
    StableHlo.unary main_arg6 main_v12 ((transpose S600x100 [1, 0] · transposes_S100x600_S600x100_1_0) : (⟨S100x600, .f32⟩ : BufTy).Contents (Elt F) → (⟨S600x100, .f32⟩ : BufTy).Contents (Elt F)),
    StableHlo.binary main_v11 main_v12 main_v13 ((fun l r => Host.dotGeneral dot_S65536x600_S600x100_S65536x100_1_0_0_1_n_n none l r) : (⟨S65536x600, .f32⟩ : BufTy).Contents (Elt F) → (⟨S600x100, .f32⟩ : BufTy).Contents (Elt F) → (⟨S65536x100, .f32⟩ : BufTy).Contents (Elt F)),
    StableHlo.unary main_arg7 main_v14 (broadcastInDim S1x100 ![1] bcast_S100_S1x100_1 : (⟨S100, .f32⟩ : BufTy).Contents (Elt F) → (⟨S1x100, .f32⟩ : BufTy).Contents (Elt F)),
    StableHlo.unary main_v14 main_v15 (broadcastInDim S65536x100 ![0, 1] bcast_S1x100_S65536x100_0_1 : (⟨S1x100, .f32⟩ : BufTy).Contents (Elt F) → (⟨S65536x100, .f32⟩ : BufTy).Contents (Elt F)),
    StableHlo.binary main_v13 main_v15 main_v16 (addf : (⟨S65536x100, .f32⟩ : BufTy).Contents (Elt F) → (⟨S65536x100, .f32⟩ : BufTy).Contents (Elt F) → (⟨S65536x100, .f32⟩ : BufTy).Contents (Elt F)),
    StableHlo.TRef.nullary main_call2.cst (constant S_ .f32 0x00000000#32),
    StableHlo.TRef.unary main_call2.cst main_call2.v0 (broadcastInDim S65536x100 ![] bcast_S_S65536x100),
    StableHlo.TRef.binary (.of main_v16) main_call2.v0 main_call2.v1 maximumf,
    StableHlo.unary main_arg8 main_v18 ((transpose S100x13 [1, 0] · transposes_S13x100_S100x13_1_0) : (⟨S13x100, .f32⟩ : BufTy).Contents (Elt F) → (⟨S100x13, .f32⟩ : BufTy).Contents (Elt F)),
    StableHlo.binary main_v17 main_v18 main_v19 ((fun l r => Host.dotGeneral dot_S65536x100_S100x13_S65536x13_1_0_0_1_n_n none l r) : (⟨S65536x100, .f32⟩ : BufTy).Contents (Elt F) → (⟨S100x13, .f32⟩ : BufTy).Contents (Elt F) → (⟨S65536x13, .f32⟩ : BufTy).Contents (Elt F)),
    StableHlo.unary main_arg9 main_v20 (broadcastInDim S1x13 ![1] bcast_S13_S1x13_1 : (⟨S13, .f32⟩ : BufTy).Contents (Elt F) → (⟨S1x13, .f32⟩ : BufTy).Contents (Elt F)),
    StableHlo.unary main_v20 main_v21 (broadcastInDim S65536x13 ![0, 1] bcast_S1x13_S65536x13_0_1 : (⟨S1x13, .f32⟩ : BufTy).Contents (Elt F) → (⟨S65536x13, .f32⟩ : BufTy).Contents (Elt F)),
    StableHlo.binary main_v19 main_v21 main_v22 (addf : (⟨S65536x13, .f32⟩ : BufTy).Contents (Elt F) → (⟨S65536x13, .f32⟩ : BufTy).Contents (Elt F) → (⟨S65536x13, .f32⟩ : BufTy).Contents (Elt F)),
    StableHlo.nullary main_cst_0 (constant S_ .f32 0x3C23D70A#32),
    StableHlo.TRef.nullary main_call3.cst (constant S_ .f32 0x00000000#32),
    StableHlo.TRef.unary main_call3.cst main_call3.v0 (broadcastInDim S65536x13 ![] bcast_S_S65536x13),
    StableHlo.TRef.binary (.of main_v22) main_call3.v0 main_call3.v1 (cmpf .oge),
    StableHlo.TRef.unary (.of main_cst_0) main_call3.v2 id,
    StableHlo.TRef.unary main_call3.v2 main_call3.v3 (broadcastInDim S65536x13 ![] bcast_S_S65536x13),
    StableHlo.TRef.binary main_call3.v3 (.of main_v22) main_call3.v4 mulf,
    StableHlo.TRef.ternary main_call3.v1 (.of main_v22) main_call3.v4 main_call3.call0.v0 select,
    StableHlo.TRef.binary (.of main_v23) (.of main_v23) main_call4.v0 mulf,
    StableHlo.TRef.nullary main_call4.cst (constant S_ .f32 0x00000000#32),
    StableHlo.TRef.binary main_call4.v0 main_call4.cst main_call4.v1 (fun x v => Host.reduceAdd x v reducesTo_S65536x13_S65536_d1 h_S_),
    StableHlo.TRef.unary main_call4.v1 main_call4.v2 (broadcastInDim S65536x1 ![0] bcast_S65536_S65536x1_0),
    StableHlo.TRef.unary main_call4.v2 main_call4.v3 Host.sqrt,
    StableHlo.nullary main_cst_1 (constant S_ .f32 0x322BCC77#32),
    StableHlo.unary main_cst_1 main_v25 (broadcastInDim S65536x1 ![] bcast_S_S65536x1 : (⟨S_, .f32⟩ : BufTy).Contents (Elt F) → (⟨S65536x1, .f32⟩ : BufTy).Contents (Elt F)),
    StableHlo.binary main_v24 main_v25 main_v26 (maximumf : (⟨S65536x1, .f32⟩ : BufTy).Contents (Elt F) → (⟨S65536x1, .f32⟩ : BufTy).Contents (Elt F) → (⟨S65536x1, .f32⟩ : BufTy).Contents (Elt F)),
    StableHlo.unary main_v26 main_v27 (broadcastInDim S65536x13 ![0, 1] bcast_S65536x1_S65536x13_0_1 : (⟨S65536x1, .f32⟩ : BufTy).Contents (Elt F) → (⟨S65536x13, .f32⟩ : BufTy).Contents (Elt F)),
    StableHlo.binary main_v23 main_v27 main_v28 (Host.divf : (⟨S65536x13, .f32⟩ : BufTy).Contents (Elt F) → (⟨S65536x13, .f32⟩ : BufTy).Contents (Elt F) → (⟨S65536x13, .f32⟩ : BufTy).Contents (Elt F)),
    StableHlo.TRef.binary (.of main_arg1) (.of main_arg1) main_call5.v0 mulf,
    StableHlo.TRef.nullary main_call5.cst (constant S_ .f32 0x00000000#32),
    StableHlo.TRef.binary main_call5.v0 main_call5.cst main_call5.v1 (fun x v => Host.reduceAdd x v reducesTo_S2048x13_S2048_d1 h_S_),
    StableHlo.TRef.unary main_call5.v1 main_call5.v2 (broadcastInDim S2048x1 ![0] bcast_S2048_S2048x1_0),
    StableHlo.TRef.unary main_call5.v2 main_call5.v3 Host.sqrt,
    StableHlo.nullary main_cst_2 (constant S_ .f32 0x322BCC77#32),
    StableHlo.unary main_cst_2 main_v30 (broadcastInDim S2048x1 ![] bcast_S_S2048x1 : (⟨S_, .f32⟩ : BufTy).Contents (Elt F) → (⟨S2048x1, .f32⟩ : BufTy).Contents (Elt F)),
    StableHlo.binary main_v29 main_v30 main_v31 (maximumf : (⟨S2048x1, .f32⟩ : BufTy).Contents (Elt F) → (⟨S2048x1, .f32⟩ : BufTy).Contents (Elt F) → (⟨S2048x1, .f32⟩ : BufTy).Contents (Elt F)),
    StableHlo.unary main_v31 main_v32 (broadcastInDim S2048x13 ![0, 1] bcast_S2048x1_S2048x13_0_1 : (⟨S2048x1, .f32⟩ : BufTy).Contents (Elt F) → (⟨S2048x13, .f32⟩ : BufTy).Contents (Elt F)),
    StableHlo.binary main_arg1 main_v32 main_v33 (Host.divf : (⟨S2048x13, .f32⟩ : BufTy).Contents (Elt F) → (⟨S2048x13, .f32⟩ : BufTy).Contents (Elt F) → (⟨S2048x13, .f32⟩ : BufTy).Contents (Elt F)),
    StableHlo.unary main_v28 main_v34 ((transpose S13x65536 [1, 0] · transposes_S65536x13_S13x65536_1_0) : (⟨S65536x13, .f32⟩ : BufTy).Contents (Elt F) → (⟨S13x65536, .f32⟩ : BufTy).Contents (Elt F)),
    StableHlo.binary main_v33 main_v34 main_v35 ((fun l r => Host.dotGeneral dot_S2048x13_S13x65536_S2048x65536_1_0_0_1_n_n none l r) : (⟨S2048x13, .f32⟩ : BufTy).Contents (Elt F) → (⟨S13x65536, .f32⟩ : BufTy).Contents (Elt F) → (⟨S2048x65536, .f32⟩ : BufTy).Contents (Elt F)),
    StableHlo.nullary main_cst_3 (constant S_ .f32 0x41B80000#32),
    StableHlo.unary main_cst_3 main_v36 (broadcastInDim S2048x65536 ![] bcast_S_S2048x65536 : (⟨S_, .f32⟩ : BufTy).Contents (Elt F) → (⟨S2048x65536, .f32⟩ : BufTy).Contents (Elt F)),
    StableHlo.binary main_v35 main_v36 main_v37 (mulf : (⟨S2048x65536, .f32⟩ : BufTy).Contents (Elt F) → (⟨S2048x65536, .f32⟩ : BufTy).Contents (Elt F) → (⟨S2048x65536, .f32⟩ : BufTy).Contents (Elt F)),
    StableHlo.nullary main_cst_4 (constant S_ .f32 0xFF800000#32),
    StableHlo.binary main_v37 main_cst_4 main_v38 ((fun x v => Host.reduce FloatOps.maximumf x v reducesTo_S2048x65536_S2048_d1 h_S_) : (⟨S2048x65536, .f32⟩ : BufTy).Contents (Elt F) → (⟨S_, .f32⟩ : BufTy).Contents (Elt F) → (⟨S2048, .f32⟩ : BufTy).Contents (Elt F)) ]

set_option maxRecDepth 8192 in
/-- The program is that straight line: a called function's body grafted in place of its call is, leaf by leaf,
    the same tree of requests. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every operation touches the core's own buffers only. -/
theorem ops_sub : (ops : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., unary_bufs_sub .., binary_bufs_sub .., nullary_bufs_sub .., unary_bufs_sub .., binary_bufs_sub .., nullary_bufs_sub .., binary_bufs_sub ..⟩

/-- From any memory with zero counters every weakly fair execution terminates, and every buffer of every core
    ends at the operations' fold over its launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduce Host.reduceAdd Host.sqrt Host.divf mulf addf maximumf cmpf select broadcastInDim transpose constant in
set_option maxRecDepth 8192 in
set_option maxHeartbeats 1600000 in
/-- The fold at the result buffer is the composed term of the contents of the ten arguments: each operation's
    result is its function applied to its operands' contents, and a stage of the composed term is the same
    functions applied in the same order. The elementwise and contracting operators stay folded: the equation
    never looks inside them. -/
theorem out_eq (V : Valuation τ sig (Elt Ideal)) :
    after (ops (F := Ideal)) V (Proc.devRef .tc main_v38)
      = refTerm (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) := by
  after_results_simp
  rfl

/-- No operation writes this argument. -/
theorem main_arg0_eq (V : Valuation τ sig (Elt F)) :
    after (ops (F := F)) V (Proc.devRef .tc main_arg0) = V (Proc.devRef .tc main_arg0) := by
  after_results_simp

/-- No operation writes this argument. -/
theorem main_arg1_eq (V : Valuation τ sig (Elt F)) :
    after (ops (F := F)) V (Proc.devRef .tc main_arg1) = V (Proc.devRef .tc main_arg1) := by
  after_results_simp

/-- No operation writes this argument. -/
theorem main_arg2_eq (V : Valuation τ sig (Elt F)) :
    after (ops (F := F)) V (Proc.devRef .tc main_arg2) = V (Proc.devRef .tc main_arg2) := by
  after_results_simp

/-- No operation writes this argument. -/
theorem main_arg3_eq (V : Valuation τ sig (Elt F)) :
    after (ops (F := F)) V (Proc.devRef .tc main_arg3) = V (Proc.devRef .tc main_arg3) := by
  after_results_simp

/-- No operation writes this argument. -/
theorem main_arg4_eq (V : Valuation τ sig (Elt F)) :
    after (ops (F := F)) V (Proc.devRef .tc main_arg4) = V (Proc.devRef .tc main_arg4) := by
  after_results_simp

/-- No operation writes this argument. -/
theorem main_arg5_eq (V : Valuation τ sig (Elt F)) :
    after (ops (F := F)) V (Proc.devRef .tc main_arg5) = V (Proc.devRef .tc main_arg5) := by
  after_results_simp

/-- No operation writes this argument. -/
theorem main_arg6_eq (V : Valuation τ sig (Elt F)) :
    after (ops (F := F)) V (Proc.devRef .tc main_arg6) = V (Proc.devRef .tc main_arg6) := by
  after_results_simp

/-- No operation writes this argument. -/
theorem main_arg7_eq (V : Valuation τ sig (Elt F)) :
    after (ops (F := F)) V (Proc.devRef .tc main_arg7) = V (Proc.devRef .tc main_arg7) := by
  after_results_simp

/-- No operation writes this argument. -/
theorem main_arg8_eq (V : Valuation τ sig (Elt F)) :
    after (ops (F := F)) V (Proc.devRef .tc main_arg8) = V (Proc.devRef .tc main_arg8) := by
  after_results_simp

/-- No operation writes this argument. -/
theorem main_arg9_eq (V : Valuation τ sig (Elt F)) :
    after (ops (F := F)) V (Proc.devRef .tc main_arg9) = V (Proc.devRef .tc main_arg9) := by
  after_results_simp

/-- On every device, from any memory with zero counters: every weakly fair execution of the program terminates
    with the result at the composed term of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v38) = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v38).trans (out_eq _),
      (h c main_arg0).trans (main_arg0_eq _),
      (h c main_arg1).trans (main_arg1_eq _),
      (h c main_arg2).trans (main_arg2_eq _),
      (h c main_arg3).trans (main_arg3_eq _),
      (h c main_arg4).trans (main_arg4_eq _),
      (h c main_arg5).trans (main_arg5_eq _),
      (h c main_arg6).trans (main_arg6_eq _),
      (h c main_arg7).trans (main_arg7_eq _),
      (h c main_arg8).trans (main_arg8_eq _),
      (h c main_arg9).trans (main_arg9_eq _)⟩)
    (run_main m ρ)

end Cert.ReferenceIdeal.RefValue

end
-- ==== Proof.RefRead.lean ====
/-
  The reference program's result term is the specification.

  Every stage of the term is read at coordinates. A dense layer at (row, column) is the dot of the input's row with the
  weight matrix's row of that column, plus the bias entry: the program multiplies by the transposed weight matrix, so
  the contracted coordinate runs along the weight's row. A rectifier is the maximum with zero and a leaky rectifier,
  written by the program as "the entry where it is at least zero, the slope times the entry elsewhere", is the
  specification's "the entry where it is positive, the entry times the slope elsewhere": the two differ in form only
  at zero, where both give zero, and in the order of a product. A row divided by the larger of its length and the floor
  is the specification's scaled vector, the product of all pairs of scaled rows times the scale is the similarity, and
  the program's fold of the maximum along a row from the bottom element is the fold over the 65536 memory rows.
-/
import proofs.«144253_j65335042507035_2_alg».proof.Proof.RefStages
import proofs.«144253_j65335042507035_2_alg».proof.Proof.Target
import proofs.«144253_j65335042507035_2_alg».proof.Proof.LibColumnBlocks
import proofs.«144253_j65335042507035_2_alg».proof.Proof.LibCastForms
import Idealize.ShloMosaic.Lib.IdealHost
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Idealize.ShloMosaic Idealize.ShloMosaic.ValueIdx

/-! ## Readings that hold at every shape -/

section General

/-- A transposed matrix at (p, q) is the matrix at (q, p). -/
theorem transpose10_apply {α : Type} {A B : ℕ} (x : (⟨2, ![A, B]⟩ : Shape).Idx → α)
    (h : (⟨2, ![A, B]⟩ : Shape).Transposes [1, 0] ⟨2, ![B, A]⟩) (p : Fin B) (q : Fin A) :
    transpose ⟨2, ![B, A]⟩ [1, 0] x h (ix2 p q) = x (ix2 q p) :=
  transpose_apply [1, 0] x h (ix2 p q) (ix2 q p) fun b => by
    match b with
    | ⟨0, _⟩ => rfl
    | ⟨1, _⟩ => rfl

/-- The rectifier as the program writes it, at an index. -/
theorem reluS_apply {T : Shape} (x : FVec Ideal T .f32) (hz : (⟨0, ![]⟩ : Shape).BroadcastsInDim T ![]) (j : T.Idx) :
    maximumf (F := Ideal) x (broadcastInDim T ![] hz (constant (F := Ideal) ⟨0, ![]⟩ .f32 0x00000000#32)) j
      = Cert.Spec.relu (x j) := by
  rw [maximumf_apply, broadcastInDim_scalar_apply, constant_apply, Ideal.ofBits_zero_f32]
  rfl

/-- The program's leaky rectifier on one number is the specification's. -/
theorem leaky_scalar (v : EReal) :
    Scalar.select (Ideal.cmp .oge v 0) v (Cert.Spec.slope * v) = Cert.Spec.leaky v := by
  show Scalar.select (BitVec.ofBool (decide ((0 : EReal) ≤ v))) v (Cert.Spec.slope * v) = if 0 < v then v else v * Cert.Spec.slope
  by_cases h : (0 : EReal) ≤ v
  · rw [decide_eq_true h]
    show Scalar.select 1#1 v (Cert.Spec.slope * v) = _
    rw [select_one]
    rcases h.lt_or_eq with hlt | heq
    · rw [if_pos hlt]
    · rw [← heq, if_neg (lt_irrefl _), zero_mul]
  · rw [decide_eq_false h]
    show Scalar.select 0#1 v (Cert.Spec.slope * v) = _
    rw [select_zero, if_neg (fun hlt => h hlt.le), mul_comm]

/-- The leaky rectifier as the program writes it, at an index. -/
theorem leakyS_apply {T : Shape} (x : FVec Ideal T .f32) (hz : (⟨0, ![]⟩ : Shape).BroadcastsInDim T ![]) (j : T.Idx) :
    select
        (cmpf (F := Ideal) .oge x (broadcastInDim T ![] hz (constant (F := Ideal) ⟨0, ![]⟩ .f32 0x00000000#32)))
        x
        (mulf (F := Ideal) (broadcastInDim T ![] hz (id (constant (F := Ideal) ⟨0, ![]⟩ .f32 0x3C23D70A#32))) x) j
      = Cert.Spec.leaky (x j) := by
  rw [select_apply, cmpf_apply, mulf_apply, broadcastInDim_scalar_apply, broadcastInDim_scalar_apply, Ideal.cmpf_def]
  simp only [id_eq, constant_apply, Ideal.ofBits_zero_f32]
  exact leaky_scalar (x j)

/-- A vector placed as a row and stretched down the rows, at (p, q), is the vector at q. -/
theorem bias_apply {α : Type} {A B : ℕ} (b : (⟨1, ![B]⟩ : Shape).Idx → α)
    (hb : (⟨2, ![1, B]⟩ : Shape).BroadcastsInDim ⟨2, ![A, B]⟩ (![0, 1] : Fin 2 → Fin 2))
    (hb' : (⟨1, ![B]⟩ : Shape).BroadcastsInDim ⟨2, ![1, B]⟩ (![1] : Fin 1 → Fin 2)) (p : Fin A) (q : Fin B) :
    broadcastInDim ⟨2, ![A, B]⟩ (![0, 1] : Fin 2 → Fin 2) hb
        (broadcastInDim ⟨2, ![1, B]⟩ (![1] : Fin 1 → Fin 2) hb' b) (ix2 p q) = b (ix1 q) := by
  rw [Cert.LibCastForms.bcast_1b_ab_apply, Cert.LibCastForms.bcast_row]

section Dot
variable {A K B : ℕ}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)

include hr hs hlc hrc hl0 hr1 in
/-- A product with a transposed matrix, at (p, q): the dot of row p of the left factor with row q of the matrix. -/
theorem dotT_apply (x : FVec Ideal ⟨2, ![A, K]⟩ .f32) (W : FVec Ideal ⟨2, ![B, K]⟩ .f32)
    (hT : (⟨2, ![B, K]⟩ : Shape).Transposes [1, 0] ⟨2, ![K, B]⟩) (p : Fin A) (q : Fin B) :
    Host.dotGeneral (F := Ideal) d none x (transpose ⟨2, ![K, B]⟩ [1, 0] W hT) (ix2 p q)
      = ∑ k : Fin K, x (ix2 p k) * W (ix2 q k) := by
  rw [Cert.LibColumnBlocks.hostDot_apply d hr hs hlc hrc hl0 hr1 x _ p q none]
  exact Finset.sum_congr rfl fun k _ => by rw [transpose10_apply]

include hr hs hlc hrc hl0 hr1 in
/-- A dense layer before its activation, at (p, q). -/
theorem dense_apply (x : FVec Ideal ⟨2, ![A, K]⟩ .f32) (W : FVec Ideal ⟨2, ![B, K]⟩ .f32) (b : FVec Ideal ⟨1, ![B]⟩ .f32)
    (hT : (⟨2, ![B, K]⟩ : Shape).Transposes [1, 0] ⟨2, ![K, B]⟩)
    (hb : (⟨2, ![1, B]⟩ : Shape).BroadcastsInDim ⟨2, ![A, B]⟩ (![0, 1] : Fin 2 → Fin 2))
    (hb' : (⟨1, ![B]⟩ : Shape).BroadcastsInDim ⟨2, ![1, B]⟩ (![1] : Fin 1 → Fin 2)) (p : Fin A) (q : Fin B) :
    addf (F := Ideal) (Host.dotGeneral (F := Ideal) d none x (transpose ⟨2, ![K, B]⟩ [1, 0] W hT))
        (broadcastInDim ⟨2, ![A, B]⟩ (![0, 1] : Fin 2 → Fin 2) hb
          (broadcastInDim ⟨2, ![1, B]⟩ (![1] : Fin 1 → Fin 2) hb' b)) (ix2 p q)
      = Cert.Spec.lin (fun k => x (ix2 p k)) (Cert.Spec.mat W) (Cert.Spec.vec b) q := by
  rw [addf_apply, dotT_apply d hr hs hlc hrc hl0 hr1, bias_apply]
  rfl

include hr hs hlc hrc hl0 hr1 in
/-- The dots of all pairs of rows times a stretched constant, at (p, q). -/
theorem pairs_apply (x : FVec Ideal ⟨2, ![A, K]⟩ .f32) (W : FVec Ideal ⟨2, ![B, K]⟩ .f32) (c : BitVec 32)
    (hT : (⟨2, ![B, K]⟩ : Shape).Transposes [1, 0] ⟨2, ![K, B]⟩)
    (hz : (⟨0, ![]⟩ : Shape).BroadcastsInDim ⟨2, ![A, B]⟩ ![]) (p : Fin A) (q : Fin B) :
    mulf (F := Ideal) (Host.dotGeneral (F := Ideal) d none x (transpose ⟨2, ![K, B]⟩ [1, 0] W hT))
        (broadcastInDim ⟨2, ![A, B]⟩ ![] hz (constant (F := Ideal) ⟨0, ![]⟩ .f32 c)) (ix2 p q)
      = (∑ k : Fin K, x (ix2 p k) * W (ix2 q k)) * Ideal.ofBits .f32 c := by
  rw [mulf_apply, dotT_apply d hr hs hlc hrc hl0 hr1, broadcastInDim_scalar_apply, constant_apply]

end Dot

/-- The squares of a matrix's entries summed along row i from zero. -/
theorem rowSq_apply {A K : ℕ} (x : FVec Ideal ⟨2, ![A, K]⟩ .f32)
    (h' : (⟨2, ![A, K]⟩ : Shape).ReducesTo [1] ⟨1, ![A]⟩) (h : (⟨2, ![A, K]⟩ : Shape).Reduces [1] ⟨1, ![A]⟩)
    (hu : 0 < (⟨0, ![]⟩ : Shape).numel) (i : Fin A) :
    Host.reduceAdd (F := Ideal) (mulf (F := Ideal) x x) (constant (F := Ideal) ⟨0, ![]⟩ .f32 0x00000000#32) h' hu (ix1 i)
      = ∑ k : Fin K, x (ix2 i k) * x (ix2 i k) := by
  rw [hostReduceAdd_apply, Ideal.hostReduceAdd_single h' h, constant_apply, Ideal.ofBits_zero_f32, zero_add]
  show ∑ k : Fin K, mulf (F := Ideal) x x (h.lift (ix1 i) k) = _
  refine Finset.sum_congr rfl fun k _ => ?_
  have hl : h.lift (ix1 i) k = ix2 i k := funext fun c => Fin.ext (by
    match c with
    | ⟨0, _⟩ => rfl
    | ⟨1, _⟩ => rfl)
  rw [mulf_apply, hl]

/-- A matrix's row divided by the larger of its length and the floor, at (i, j). -/
theorem unitRows_apply {A K : ℕ} (x : FVec Ideal ⟨2, ![A, K]⟩ .f32)
    (h' : (⟨2, ![A, K]⟩ : Shape).ReducesTo [1] ⟨1, ![A]⟩) (h : (⟨2, ![A, K]⟩ : Shape).Reduces [1] ⟨1, ![A]⟩)
    (hu : 0 < (⟨0, ![]⟩ : Shape).numel)
    (hc : (⟨1, ![A]⟩ : Shape).BroadcastsInDim ⟨2, ![A, 1]⟩ (![0] : Fin 1 → Fin 2))
    (hz : (⟨0, ![]⟩ : Shape).BroadcastsInDim ⟨2, ![A, 1]⟩ ![])
    (hb : (⟨2, ![A, 1]⟩ : Shape).BroadcastsInDim ⟨2, ![A, K]⟩ (![0, 1] : Fin 2 → Fin 2)) (i : Fin A) (j : Fin K) :
    Host.divf (F := Ideal) x
        (broadcastInDim ⟨2, ![A, K]⟩ (![0, 1] : Fin 2 → Fin 2) hb
          (maximumf (F := Ideal)
            (Host.sqrt (F := Ideal)
              (broadcastInDim ⟨2, ![A, 1]⟩ (![0] : Fin 1 → Fin 2) hc
                (Host.reduceAdd (F := Ideal) (mulf (F := Ideal) x x)
                  (constant (F := Ideal) ⟨0, ![]⟩ .f32 0x00000000#32) h' hu)))
            (broadcastInDim ⟨2, ![A, 1]⟩ ![] hz (constant (F := Ideal) ⟨0, ![]⟩ .f32 0x322BCC77#32)))) (ix2 i j)
      = Cert.Spec.unit (fun k => x (ix2 i k)) j := by
  rw [hostDivf_apply, Cert.LibCastForms.bcast_a1_ab_apply, maximumf_apply, broadcastInDim_scalar_apply, constant_apply]
  show Ideal.div (x (ix2 i j))
      (max (Ideal.sqrt (broadcastInDim ⟨2, ![A, 1]⟩ (![0] : Fin 1 → Fin 2) hc
        (Host.reduceAdd (F := Ideal) (mulf (F := Ideal) x x)
          (constant (F := Ideal) ⟨0, ![]⟩ .f32 0x00000000#32) h' hu) (ix2 i (0 : Fin 1)))) Cert.Spec.eps) = _
  rw [Cert.LibCastForms.bcast_col, rowSq_apply x h' h hu i]
  rfl

/-- The greatest entry of row i, folded from the bottom element. -/
theorem rowFold_apply {A N : ℕ} (s : FVec Ideal ⟨2, ![A, N]⟩ .f32)
    (h' : (⟨2, ![A, N]⟩ : Shape).ReducesTo [1] ⟨1, ![A]⟩) (h : (⟨2, ![A, N]⟩ : Shape).Reduces [1] ⟨1, ![A]⟩)
    (hu : 0 < (⟨0, ![]⟩ : Shape).numel) (i : Fin A) :
    Host.reduce (FloatOps.maximumf (F := Ideal) (φ := .f32)) s (constant (F := Ideal) ⟨0, ![]⟩ .f32 0xFF800000#32) h' hu (ix1 i)
      = (Finset.univ : Finset (Fin N)).fold max ⊥ (fun b => s (ix2 i b)) := by
  have hbot : Ideal.ofBits .f32 0xFF800000#32 = (⊥ : EReal) := by simp [Ideal.ofBits, Ideal.ieee]
  have hl : (s ∘ h.lift (ix1 i)) = fun b : Fin N => s (ix2 i b) := funext fun b => congrArg s (funext fun c => Fin.ext (by
    match c with
    | ⟨0, _⟩ => rfl
    | ⟨1, _⟩ => rfl))
  rw [Host.reduce_eq_fold_single _ s _ h' h hu (ix1 i), constant_apply, hbot, hl]
  rfl

end General

/-! ## The stages of the reference's term -/

variable [Facts]
open Facts₀ Facts

theorem pre1_apply (a0 : FVec Ideal S65536x13 .f32) (a2 : FVec Ideal S300x13 .f32) (a3 : FVec Ideal S300 .f32)
    (i : Fin 65536) (j : Fin 300) :
    pre1 a0 a2 a3 (ix2 i j) = Cert.Spec.lin (fun k => a0 (ix2 i k)) (Cert.Spec.mat a2) (Cert.Spec.vec a3) j :=
  dense_apply _ rfl rfl rfl rfl (fun _ _ => rfl) (fun _ _ => rfl) a0 a2 a3 _ _ _ i j

theorem relu1_apply (x : FVec Ideal S65536x300 .f32) (i : Fin 65536) (j : Fin 300) :
    relu1 x (ix2 i j) = Cert.Spec.relu (x (ix2 i j)) :=
  reluS_apply x _ (ix2 i j)

theorem pre2_apply (h : FVec Ideal S65536x300 .f32) (a4 : FVec Ideal S600x300 .f32) (a5 : FVec Ideal S600 .f32)
    (i : Fin 65536) (j : Fin 600) :
    pre2 h a4 a5 (ix2 i j) = Cert.Spec.lin (fun k => h (ix2 i k)) (Cert.Spec.mat a4) (Cert.Spec.vec a5) j :=
  dense_apply _ rfl rfl rfl rfl (fun _ _ => rfl) (fun _ _ => rfl) h a4 a5 _ _ _ i j

theorem leaky2_apply (x : FVec Ideal S65536x600 .f32) (i : Fin 65536) (j : Fin 600) :
    leaky2 x (ix2 i j) = Cert.Spec.leaky (x (ix2 i j)) :=
  leakyS_apply x _ (ix2 i j)

theorem pre3_apply (h : FVec Ideal S65536x600 .f32) (a6 : FVec Ideal S100x600 .f32) (a7 : FVec Ideal S100 .f32)
    (i : Fin 65536) (j : Fin 100) :
    pre3 h a6 a7 (ix2 i j) = Cert.Spec.lin (fun k => h (ix2 i k)) (Cert.Spec.mat a6) (Cert.Spec.vec a7) j :=
  dense_apply _ rfl rfl rfl rfl (fun _ _ => rfl) (fun _ _ => rfl) h a6 a7 _ _ _ i j

theorem relu3_apply (x : FVec Ideal S65536x100 .f32) (i : Fin 65536) (j : Fin 100) :
    relu3 x (ix2 i j) = Cert.Spec.relu (x (ix2 i j)) :=
  reluS_apply x _ (ix2 i j)

theorem pre4_apply (h : FVec Ideal S65536x100 .f32) (a8 : FVec Ideal S13x100 .f32) (a9 : FVec Ideal S13 .f32)
    (i : Fin 65536) (j : Fin 13) :
    pre4 h a8 a9 (ix2 i j) = Cert.Spec.lin (fun k => h (ix2 i k)) (Cert.Spec.mat a8) (Cert.Spec.vec a9) j :=
  dense_apply _ rfl rfl rfl rfl (fun _ _ => rfl) (fun _ _ => rfl) h a8 a9 _ _ _ i j

theorem leaky4_apply (x : FVec Ideal S65536x13 .f32) (i : Fin 65536) (j : Fin 13) :
    leaky4 x (ix2 i j) = Cert.Spec.leaky (x (ix2 i j)) :=
  leakyS_apply x _ (ix2 i j)

/-- The network's image of memory row i is the specification's network applied to that row. -/
theorem net_apply (a0 : FVec Ideal S65536x13 .f32) (a2 : FVec Ideal S300x13 .f32) (a3 : FVec Ideal S300 .f32)
    (a4 : FVec Ideal S600x300 .f32) (a5 : FVec Ideal S600 .f32) (a6 : FVec Ideal S100x600 .f32)
    (a7 : FVec Ideal S100 .f32) (a8 : FVec Ideal S13x100 .f32) (a9 : FVec Ideal S13 .f32) (i : Fin 65536) (j : Fin 13) :
    net a0 a2 a3 a4 a5 a6 a7 a8 a9 (ix2 i j)
      = Cert.Spec.mlp (Cert.Spec.mat a2) (Cert.Spec.vec a3) (Cert.Spec.mat a4) (Cert.Spec.vec a5) (Cert.Spec.mat a6)
          (Cert.Spec.vec a7) (Cert.Spec.mat a8) (Cert.Spec.vec a9) (Cert.Spec.mat a0 i) j := by
  unfold net Cert.Spec.mlp
  rw [leaky4_apply, pre4_apply]
  simp only [relu3_apply, pre3_apply, leaky2_apply, pre2_apply, relu1_apply, pre1_apply]
  rfl

theorem unitM_apply (x : FVec Ideal S65536x13 .f32) (i : Fin 65536) (j : Fin 13) :
    unitM x (ix2 i j) = Cert.Spec.unit (fun k => x (ix2 i k)) j :=
  unitRows_apply x reducesTo_S65536x13_S65536_d1 (by decide) h_S_ _ _ _ i j

theorem unitQ_apply (x : FVec Ideal S2048x13 .f32) (i : Fin 2048) (j : Fin 13) :
    unitQ x (ix2 i j) = Cert.Spec.unit (fun k => x (ix2 i k)) j :=
  unitRows_apply x reducesTo_S2048x13_S2048_d1 (by decide) h_S_ _ _ _ i j

theorem scores_apply (q : FVec Ideal S2048x13 .f32) (m : FVec Ideal S65536x13 .f32) (a : Fin 2048) (b : Fin 65536) :
    scores q m (ix2 a b) = (∑ k : Fin 13, q (ix2 a k) * m (ix2 b k)) * Cert.Spec.scale :=
  pairs_apply _ rfl rfl rfl rfl (fun _ _ => rfl) (fun _ _ => rfl) q m _ _ _ a b

theorem rowMax_apply (s : FVec Ideal S2048x65536 .f32) (i : Fin 2048) :
    rowMax s (ix1 i) = (Finset.univ : Finset (Fin 65536)).fold max ⊥ (fun b => s (ix2 i b)) :=
  rowFold_apply s reducesTo_S2048x65536_S2048_d1 (by decide) h_S_ i

/-- Row m of a matrix of 65536 rows, for m the number of one of its rows. -/
theorem rowOf_val (a : Fin 65536 → Fin 13 → EReal) (i : Fin 65536) : Cert.Spec.rowOf a i.val = a i := by
  funext k
  unfold Cert.Spec.rowOf
  rw [dif_pos i.isLt]

/-- The reference's result is the specification: per query row the greatest similarity over all memory rows. -/
theorem refTerm_eq (a0 : FVec Ideal S65536x13 .f32) (a1 : FVec Ideal S2048x13 .f32) (a2 : FVec Ideal S300x13 .f32)
    (a3 : FVec Ideal S300 .f32) (a4 : FVec Ideal S600x300 .f32) (a5 : FVec Ideal S600 .f32)
    (a6 : FVec Ideal S100x600 .f32) (a7 : FVec Ideal S100 .f32) (a8 : FVec Ideal S13x100 .f32)
    (a9 : FVec Ideal S13 .f32) :
    refTerm a0 a1 a2 a3 a4 a5 a6 a7 a8 a9 = Cert.Spec.whole a0 a1 a2 a3 a4 a5 a6 a7 a8 a9 := by
  funext j
  obtain ⟨i, rfl⟩ : ∃ i : Fin 2048, j = ix1 i := ⟨j 0, eq_ix1 j⟩
  unfold refTerm
  rw [rowMax_apply]
  show _ = Cert.Spec.top (Cert.Spec.score a0 a1 a2 a3 a4 a5 a6 a7 a8 a9 i)
  unfold Cert.Spec.top
  refine Finset.fold_congr fun b _ => ?_
  rw [scores_apply]
  unfold Cert.Spec.score Cert.Spec.sim
  simp only [unitQ_apply, unitM_apply, net_apply]
  rw [rowOf_val]
  rfl

end Cert.ReferenceIdeal.RefValue

end
-- ==== Proof.LibRankFactor.lean ====
/-
  A sum over a rank index of (a row contracted with a factor's column) times the other factor's entry is the row
  contracted with the product of the two factors: on the extended reals, for entries that are all finite,

      ∑ k, (∑ i, a i * v i k) * u k  =  ∑ i, a i * ∑ k, u k * v i k.

  Distributivity and the exchange of the two sums are laws of the reals; they fail at the infinities, so every entry
  is first written as the coercion of a real number, the identity is proved there, and the coercion is pushed back
  through products and finite sums.
-/
import Mathlib.Data.EReal.Operations
import Mathlib.Algebra.BigOperators.Ring.Finset
import Mathlib.Algebra.BigOperators.Group.Finset.Sigma
import Mathlib.Tactic.Ring

namespace RankFactor

/-- The coercion of the reals into the extended reals commutes with a finite sum. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of extended reals none of which is infinite is the coercion of a family of reals. -/
theorem exists_real {α : Type*} (f : α → EReal) (h : ∀ a, f a ≠ ⊤ ∧ f a ≠ ⊥) :
    ∃ g : α → ℝ, ∀ a, f a = (g a : EReal) :=
  ⟨fun a => (f a).toReal, fun a => (EReal.coe_toReal (h a).1 (h a).2).symm⟩

/-- An extended real whose absolute value `max x (-x)` is below `⊤` is neither infinity. -/
theorem finite_of_abs_lt_top {x : EReal} (h : max x (-x) < ⊤) : x ≠ ⊤ ∧ x ≠ ⊥ := by
  constructor
  · rintro rfl
    exact absurd h (by simp)
  · rintro rfl
    exact absurd h (by simp)

/-- The identity on the reals: expand both sides into the double sum of `a i * v i k * u k`. -/
theorem real_factor {ι κ : Type*} [Fintype ι] [Fintype κ] (a : ι → ℝ) (v : ι → κ → ℝ) (u : κ → ℝ) :
    ∑ k, (∑ i, a i * v i k) * u k = ∑ i, a i * ∑ k, u k * v i k := by
  simp only [Finset.sum_mul, Finset.mul_sum]
  rw [Finset.sum_comm]
  exact Finset.sum_congr rfl fun i _ => Finset.sum_congr rfl fun k _ => by ring

/-- The identity on the extended reals, for finite entries. -/
theorem factor {ι κ : Type*} [Fintype ι] [Fintype κ] (a : ι → EReal) (v : ι → κ → EReal) (u : κ → EReal)
    (ha : ∀ i, a i ≠ ⊤ ∧ a i ≠ ⊥) (hv : ∀ i k, v i k ≠ ⊤ ∧ v i k ≠ ⊥) (hu : ∀ k, u k ≠ ⊤ ∧ u k ≠ ⊥) :
    ∑ k, (∑ i, a i * v i k) * u k = ∑ i, a i * ∑ k, u k * v i k := by
  obtain ⟨a', ha'⟩ := exists_real a ha
  obtain ⟨v', hv'⟩ := exists_real (fun p : ι × κ => v p.1 p.2) (fun p => hv p.1 p.2)
  obtain ⟨u', hu'⟩ := exists_real u hu
  have hv'' : ∀ i k, v i k = (v' (i, k) : EReal) := fun i k => hv' (i, k)
  calc ∑ k, (∑ i, a i * v i k) * u k
      = ∑ k, (((∑ i, a' i * v' (i, k)) * u' k : ℝ) : EReal) :=
        Finset.sum_congr rfl fun k _ => by
          rw [EReal.coe_mul, coe_sum, hu' k]
          exact congrArg (· * (u' k : EReal)) (Finset.sum_congr rfl fun i _ => by rw [ha' i, hv'' i k, EReal.coe_mul])
    _ = ((∑ k, (∑ i, a' i * v' (i, k)) * u' k : ℝ) : EReal) := (coe_sum _ _).symm
    _ = ((∑ i, a' i * ∑ k, u' k * v' (i, k) : ℝ) : EReal) :=
        congrArg _ (real_factor a' (fun i k => v' (i, k)) u')
    _ = ∑ i, ((a' i * ∑ k, u' k * v' (i, k) : ℝ) : EReal) := coe_sum _ _
    _ = ∑ i, a i * ∑ k, u k * v i k :=
        Finset.sum_congr rfl fun i _ => by
          rw [EReal.coe_mul, coe_sum, ha' i]
          exact congrArg ((a' i : EReal) * ·) (Finset.sum_congr rfl fun k _ => by rw [hu' k, hv'' i k, EReal.coe_mul])

end RankFactor
-- ==== Proof.Bounds.lean ====
/-
  Finiteness of every intermediate value, and the lower bound on a similarity.

  An extended real is finite when it is neither infinity, that is, when it is the coercion of a real number. Products
  and finite sums of finite numbers are finite, so a dense layer's output is; the rectifier returns its argument or
  zero, the leaky rectifier its argument or a finite multiple of it: the four-layer network maps a finite row, under
  finite weights and biases, to a finite row.

  For a finite vector `v` with real entries `v' k`, the sum of squares `S` is a real number `≥ 0`, its square root is
  the real square root, and the larger of that and the positive real `eps` is a positive real `d`. Each entry
  satisfies `|v' k| = sqrt (v' k ^ 2) ≤ sqrt S ≤ d`, so each entry of the scaled vector is a real number in `[-1, 1]`.
  The dot of two such thirteen-entry vectors is then a real number of absolute value at most 13, and its product with
  the scale 23 is at least `-299`, far above the number near `-1e30` a run's maximum starts from.

  The four numeric constants are first identified with the real numbers their bit patterns denote.
-/
import proofs.«144253_j65335042507035_2_alg».proof.Proof.Spec
import proofs.«144253_j65335042507035_2_alg».proof.Proof.LibRankFactor

noncomputable section

namespace Cert.Spec

open Idealize.ShloMosaic

/-! ### The constants as real numbers -/

/-- The scale is the real number 23. -/
theorem scale_eq : scale = ((23 : ℝ) : EReal) := by
  show Ideal.ofBits .f32 0x41B80000#32 = _
  simp [Ideal.ofBits, Ideal.ieee, -EReal.coe_mul]; norm_num

/-- The leaky rectifier's slope is the real number `10737418 · 2⁻³⁰`. -/
theorem slope_eq : slope = ((10737418 * (2 : ℝ) ^ (-30 : Int) : ℝ) : EReal) := by
  show Ideal.ofBits .f32 0x3C23D70A#32 = _
  simp [Ideal.ofBits, Ideal.ieee, -EReal.coe_mul]

/-- The floor under a vector's length is the real number `11258999 · 2⁻⁵⁰`. -/
theorem eps_eq : eps = ((11258999 * (2 : ℝ) ^ (-50 : Int) : ℝ) : EReal) := by
  show Ideal.ofBits .f32 0x322BCC77#32 = _
  simp [Ideal.ofBits, Ideal.ieee, -EReal.coe_mul]

/-- The starting value of a run's maximum is the real number `-(13234890 · 2⁷⁶)`. -/
theorem floor30_eq : floor30 = ((-(13234890 * (2 : ℝ) ^ (76 : Int)) : ℝ) : EReal) := by
  show Ideal.ofBits .f32 0xF149F2CA#32 = _
  simp [Ideal.ofBits, Ideal.ieee, -EReal.coe_mul]

/-! ### Finite extended reals are real numbers -/

/-- The coercion of a real number is neither infinity. -/
theorem coe_finite (r : ℝ) : (r : EReal) ≠ ⊤ ∧ (r : EReal) ≠ ⊥ := ⟨EReal.coe_ne_top r, EReal.coe_ne_bot r⟩

/-- An extended real that is neither infinity is the coercion of a real number. -/
theorem real_of_finite {x : EReal} (h : x ≠ ⊤ ∧ x ≠ ⊥) : ∃ r : ℝ, x = (r : EReal) :=
  ⟨x.toReal, (EReal.coe_toReal h.1 h.2).symm⟩

/-- The dot of two real vectors, computed in the extended reals, is the coercion of the real dot. -/
theorem dot_coe {K : ℕ} (x y : Fin K → ℝ) :
    ∑ k, (x k : EReal) * (y k : EReal) = ((∑ k, x k * y k : ℝ) : EReal) := by
  rw [RankFactor.coe_sum]
  exact Finset.sum_congr rfl fun k _ => (EReal.coe_mul _ _).symm

/-! ### Closure of finiteness under the network's operations -/

/-- A dense layer's output is finite when the row, the weight row and the bias are. -/
theorem lin_finite {K H : ℕ} (x : Fin K → EReal) (W : Fin H → Fin K → EReal) (b : Fin H → EReal) (h : Fin H)
    (hx : ∀ k, x k ≠ ⊤ ∧ x k ≠ ⊥) (hW : ∀ k, W h k ≠ ⊤ ∧ W h k ≠ ⊥) (hb : b h ≠ ⊤ ∧ b h ≠ ⊥) :
    lin x W b h ≠ ⊤ ∧ lin x W b h ≠ ⊥ := by
  obtain ⟨x', hx'⟩ := RankFactor.exists_real x hx
  obtain ⟨w', hw'⟩ := RankFactor.exists_real (W h) hW
  obtain ⟨b', hb'⟩ := real_of_finite hb
  have hlin : lin x W b h = (((∑ k, x' k * w' k) + b' : ℝ) : EReal) := by
    unfold lin
    rw [EReal.coe_add, ← dot_coe, hb']
    exact congrArg (· + (b' : EReal)) (Finset.sum_congr rfl fun k _ => by rw [hx' k, hw' k])
  rw [hlin]
  exact coe_finite _

/-- The rectifier of a finite number is finite: it is the number itself or zero. -/
theorem relu_finite (x : EReal) (hx : x ≠ ⊤ ∧ x ≠ ⊥) : relu x ≠ ⊤ ∧ relu x ≠ ⊥ := by
  unfold relu
  rcases max_choice x 0 with h | h <;> rw [h]
  · exact hx
  · simpa using coe_finite 0

/-- The leaky rectifier of a finite number is finite: it is the number itself or its product with the real slope. -/
theorem leaky_finite (x : EReal) (hx : x ≠ ⊤ ∧ x ≠ ⊥) : leaky x ≠ ⊤ ∧ leaky x ≠ ⊥ := by
  unfold leaky
  split
  · exact hx
  · obtain ⟨r, rfl⟩ := real_of_finite hx
    rw [slope_eq, ← EReal.coe_mul]
    exact coe_finite _

/-- The four-layer network maps a finite row to a finite row when all weights and biases are finite. -/
theorem mlp_finite (W1 : Fin 300 → Fin 13 → EReal) (b1 : Fin 300 → EReal) (W2 : Fin 600 → Fin 300 → EReal)
    (b2 : Fin 600 → EReal) (W3 : Fin 100 → Fin 600 → EReal) (b3 : Fin 100 → EReal) (W4 : Fin 13 → Fin 100 → EReal)
    (b4 : Fin 13 → EReal) (x : Fin 13 → EReal)
    (hW1 : ∀ h k, W1 h k ≠ ⊤ ∧ W1 h k ≠ ⊥) (hb1 : ∀ h, b1 h ≠ ⊤ ∧ b1 h ≠ ⊥)
    (hW2 : ∀ h k, W2 h k ≠ ⊤ ∧ W2 h k ≠ ⊥) (hb2 : ∀ h, b2 h ≠ ⊤ ∧ b2 h ≠ ⊥)
    (hW3 : ∀ h k, W3 h k ≠ ⊤ ∧ W3 h k ≠ ⊥) (hb3 : ∀ h, b3 h ≠ ⊤ ∧ b3 h ≠ ⊥)
    (hW4 : ∀ h k, W4 h k ≠ ⊤ ∧ W4 h k ≠ ⊥) (hb4 : ∀ h, b4 h ≠ ⊤ ∧ b4 h ≠ ⊥)
    (hx : ∀ k, x k ≠ ⊤ ∧ x k ≠ ⊥) :
    ∀ j, mlp W1 b1 W2 b2 W3 b3 W4 b4 x j ≠ ⊤ ∧ mlp W1 b1 W2 b2 W3 b3 W4 b4 x j ≠ ⊥ := by
  intro j
  have l1 : ∀ h1, relu (lin x W1 b1 h1) ≠ ⊤ ∧ relu (lin x W1 b1 h1) ≠ ⊥ := fun h1 =>
    relu_finite _ (lin_finite x W1 b1 h1 hx (hW1 h1) (hb1 h1))
  have l2 : ∀ h2, leaky (lin (fun h1 => relu (lin x W1 b1 h1)) W2 b2 h2) ≠ ⊤
      ∧ leaky (lin (fun h1 => relu (lin x W1 b1 h1)) W2 b2 h2) ≠ ⊥ := fun h2 =>
    leaky_finite _ (lin_finite _ W2 b2 h2 l1 (hW2 h2) (hb2 h2))
  have l3 : ∀ h3, relu (lin (fun h2 => leaky (lin (fun h1 => relu (lin x W1 b1 h1)) W2 b2 h2)) W3 b3 h3) ≠ ⊤
      ∧ relu (lin (fun h2 => leaky (lin (fun h1 => relu (lin x W1 b1 h1)) W2 b2 h2)) W3 b3 h3) ≠ ⊥ := fun h3 =>
    relu_finite _ (lin_finite _ W3 b3 h3 l2 (hW3 h3) (hb3 h3))
  exact leaky_finite _ (lin_finite _ W4 b4 j l3 (hW4 j) (hb4 j))

/-! ### The scaled vector and the similarity -/

/-- Each entry of a finite vector divided by the larger of its length and `eps` is a real number in `[-1, 1]`. -/
theorem unit_real {K : ℕ} (v : Fin K → EReal) (hv : ∀ k, v k ≠ ⊤ ∧ v k ≠ ⊥) (k : Fin K) :
    ∃ u : ℝ, unit v k = (u : EReal) ∧ |u| ≤ 1 := by
  obtain ⟨v', hv'⟩ := RankFactor.exists_real v hv
  have hS0 : 0 ≤ ∑ j, v' j * v' j := Finset.sum_nonneg fun j _ => mul_self_nonneg _
  have hsum : ∑ j, v j * v j = ((∑ j, v' j * v' j : ℝ) : EReal) := by
    rw [← dot_coe]
    exact Finset.sum_congr rfl fun j _ => by rw [hv' j]
  have he0 : (0 : ℝ) < 11258999 * (2 : ℝ) ^ (-50 : Int) := by positivity
  have hd0 : 0 < max (Real.sqrt (∑ j, v' j * v' j)) (11258999 * (2 : ℝ) ^ (-50 : Int)) :=
    lt_of_lt_of_le he0 (le_max_right _ _)
  have hden : max (Ideal.sqrt (∑ j, v j * v j)) eps
      = ((max (Real.sqrt (∑ j, v' j * v' j)) (11258999 * (2 : ℝ) ^ (-50 : Int)) : ℝ) : EReal) := by
    rw [hsum, Ideal.sqrt_coe, if_neg (not_lt.2 hS0), eps_eq]
    exact (EReal.coe_strictMono.monotone.map_max).symm
  refine ⟨v' k * (1 / max (Real.sqrt (∑ j, v' j * v' j)) (11258999 * (2 : ℝ) ^ (-50 : Int))), ?_, ?_⟩
  · unfold unit
    rw [hden, Ideal.div_coe hd0.ne', hv' k, ← EReal.coe_mul]
  · rw [mul_one_div, abs_div, abs_of_pos hd0, div_le_one hd0]
    have hk : |v' k| ≤ Real.sqrt (∑ j, v' j * v' j) := Real.abs_le_sqrt (by
      rw [sq]
      exact Finset.single_le_sum (f := fun j => v' j * v' j) (fun j _ => mul_self_nonneg _) (Finset.mem_univ k))
    exact le_trans hk (le_max_left _ _)

/-- The similarity of two finite thirteen-entry vectors is at least the starting value of a run's maximum: it is a
    real number `≥ -13 · 23 = -299`. -/
theorem floor30_le_sim (a b : Fin 13 → EReal) (ha : ∀ k, a k ≠ ⊤ ∧ a k ≠ ⊥) (hb : ∀ k, b k ≠ ⊤ ∧ b k ≠ ⊥) :
    floor30 ≤ sim a b := by
  choose ua hua hua1 using unit_real a ha
  choose ub hub hub1 using unit_real b hb
  have hsim : sim a b = (((∑ k, ua k * ub k) * 23 : ℝ) : EReal) := by
    unfold sim
    rw [scale_eq, EReal.coe_mul, ← dot_coe]
    exact congrArg (· * ((23 : ℝ) : EReal)) (Finset.sum_congr rfl fun k _ => by rw [hua k, hub k])
  have hdot : |∑ k, ua k * ub k| ≤ 13 := by
    calc |∑ k, ua k * ub k| ≤ ∑ k, |ua k * ub k| := Finset.abs_sum_le_sum_abs _ _
      _ ≤ ∑ _k : Fin 13, (1 : ℝ) := Finset.sum_le_sum fun k _ => by
          rw [abs_mul]
          exact mul_le_one₀ (hua1 k) (abs_nonneg _) (hub1 k)
      _ = 13 := by simp
  have hlow : -13 ≤ ∑ k, ua k * ub k := (abs_le.1 hdot).1
  have hF : -(13234890 * (2 : ℝ) ^ (76 : Int)) ≤ -299 := by norm_num
  rw [hsim, floor30_eq, EReal.coe_le_coe_iff]
  linarith

/-- The leaky rectifier spelled with `0 ≤ x` and the slope on the left is the same function: at `x = 0` both give
    zero, and multiplication commutes. -/
theorem leaky_of_ge (x : EReal) : (if 0 ≤ x then x else slope * x) = leaky x := by
  unfold leaky
  rcases lt_trichotomy 0 x with h | h | h
  · rw [if_pos h.le, if_pos h]
  · subst h
    rw [if_pos le_rfl, if_neg (lt_irrefl _), zero_mul]
  · rw [if_neg (not_le.2 h), if_neg (not_lt.2 h.le), mul_comm]

end Cert.Spec

end
-- ==== Proof.Tiles.lean ====
/-
  The tiled running maximum equals the maximum over all rows.

  The 65536 rows are visited as 64 tiles of 1024 rows: row `m` lies in tile `m / 1024` at offset `m % 1024`. The tiles
  are visited in two runs of 32; within a run the running maximum only grows, and it restarts from the finite number
  `floor30` at the first tile of a run. The two runs' last values are combined by one more maximum.

  Every row's value is below its tile's maximum, which is below the running maximum after that tile, which is below the
  run's last value: so the maximum over all rows is below the combined value. Conversely each tile's maximum is a
  maximum over some of the rows, and `floor30` itself is below the value at row 0 by hypothesis: so every running
  maximum is below the maximum over all rows.

  A fold of `max` over a finite family is at most `c` exactly when its starting value and every member are, and `c` is
  at most the fold exactly when `c` is at most the starting value or some member: every step below is one of these two.
-/
import proofs.«144253_j65335042507035_2_alg».proof.Proof.Spec

noncomputable section

namespace Cert.Spec

/-- The value at a row below 65536 is at most the maximum over all rows. -/
theorem row_le_top (f : ℕ → EReal) {m : ℕ} (hm : m < 65536) : f m ≤ top f := by
  unfold top
  rw [Finset.le_fold_max]
  exact Or.inr ⟨⟨m, hm⟩, Finset.mem_univ _, le_rfl⟩

/-- The value at offset `r` of tile `t` is at most that tile's maximum. -/
theorem le_tileMax (f : ℕ → EReal) (t : ℕ) {r : ℕ} (hr : r < 1024) : f (t * 1024 + r) ≤ tileMax f t := by
  unfold tileMax
  rw [Finset.le_fold_max]
  exact Or.inr ⟨⟨r, hr⟩, Finset.mem_univ _, le_rfl⟩

/-- The maximum of one of the 64 tiles is at most the maximum over all rows. -/
theorem tileMax_le_top (f : ℕ → EReal) {t : ℕ} (ht : t < 64) : tileMax f t ≤ top f := by
  unfold tileMax
  rw [Finset.fold_max_le]
  refine ⟨bot_le, fun r _ => row_le_top f ?_⟩
  have := r.isLt
  omega

/-- A tile's maximum is at most the running maximum after that tile. -/
theorem tileMax_le_acc (f : ℕ → EReal) (n : ℕ) : tileMax f n ≤ acc f n := by
  cases n with
  | zero => exact le_max_right _ _
  | succ n =>
    rw [acc]
    split
    · exact le_max_right _ _
    · exact le_max_right _ _

/-- Within a run the running maximum does not decrease from one tile to the next. -/
theorem acc_le_succ (f : ℕ → EReal) (n : ℕ) (hn : (n + 1) % 32 ≠ 0) : acc f n ≤ acc f (n + 1) := by
  rw [acc, if_neg hn]
  exact le_max_left _ _

/-- Within run `c` the running maximum after tile `32 c + j` is at most the run's last value. -/
theorem acc_le_last (f : ℕ → EReal) (c : ℕ) (j k : ℕ) (hjk : j + k ≤ 31) :
    acc f (32 * c + j) ≤ acc f (32 * c + j + k) := by
  induction k with
  | zero => exact le_rfl
  | succ k ih =>
    refine le_trans (ih (by omega)) ?_
    have h := acc_le_succ f (32 * c + j + k) (by omega)
    simpa [Nat.add_assoc] using h

/-- The last value of each of the two runs is at most the combined value. -/
theorem acc_le_combined (f : ℕ → EReal) {c : ℕ} (hc : c < 2) : acc f (32 * c + 31) ≤ combined f := by
  unfold combined
  rw [Finset.le_fold_max]
  exact Or.inr ⟨⟨c, hc⟩, Finset.mem_univ _, le_rfl⟩

/-- Every running maximum over the 64 tiles is at most the maximum over all rows, once `floor30` is. -/
theorem acc_le_top (f : ℕ → EReal) (h0 : floor30 ≤ top f) (n : ℕ) (hn : n < 64) : acc f n ≤ top f := by
  induction n with
  | zero => exact max_le h0 (tileMax_le_top f hn)
  | succ n ih =>
    rw [acc]
    split
    · exact max_le h0 (tileMax_le_top f hn)
    · exact max_le (ih (by omega)) (tileMax_le_top f hn)

/-- If `floor30` is below the value at every row, the two runs' combined running maximum is the maximum over all
    65536 rows. -/
theorem combined_eq_top (f : ℕ → EReal) (h : ∀ m, m < 65536 → floor30 ≤ f m) : combined f = top f := by
  apply le_antisymm
  · have h0 : floor30 ≤ top f := le_trans (h 0 (by norm_num)) (row_le_top f (by norm_num))
    unfold combined
    rw [Finset.fold_max_le]
    refine ⟨bot_le, fun c _ => acc_le_top f h0 _ ?_⟩
    have := c.isLt
    omega
  · unfold top
    rw [Finset.fold_max_le]
    refine ⟨bot_le, fun i _ => ?_⟩
    have hi := i.isLt
    have hrow : f i.val = f (i.val / 1024 * 1024 + i.val % 1024) := by rw [Nat.div_add_mod']
    have ht : i.val / 1024 < 64 := by omega
    have hc : i.val / 1024 / 32 < 2 := by omega
    have hsplit : i.val / 1024 = 32 * (i.val / 1024 / 32) + i.val / 1024 % 32 := by omega
    have hlast : 32 * (i.val / 1024 / 32) + i.val / 1024 % 32 + (31 - i.val / 1024 % 32)
        = 32 * (i.val / 1024 / 32) + 31 := by omega
    calc f i.val = f (i.val / 1024 * 1024 + i.val % 1024) := hrow
      _ ≤ tileMax f (i.val / 1024) := le_tileMax f _ (Nat.mod_lt _ (by norm_num))
      _ ≤ acc f (i.val / 1024) := tileMax_le_acc f _
      _ = acc f (32 * (i.val / 1024 / 32) + i.val / 1024 % 32) := by rw [← hsplit]
      _ ≤ acc f (32 * (i.val / 1024 / 32) + i.val / 1024 % 32 + (31 - i.val / 1024 % 32)) :=
          acc_le_last f _ _ _ (by omega)
      _ = acc f (32 * (i.val / 1024 / 32) + 31) := by rw [hlast]
      _ ≤ combined f := acc_le_combined f hc

end Cert.Spec

end
-- ==== Proof.TiledWhole.lean ====
/-
  The tiled accumulation and the maximum over all rows give the same result array, for finite inputs.

  For a query row `q`, the score against memory row `m` is the similarity of two thirteen-entry vectors: the query row
  itself, and the network's image of the memory row (the zero row past the last). When every input entry is finite both
  vectors are finite, so the score is at least the finite number a run's maximum starts from; the tiled running maximum
  then equals the maximum over all rows.
-/
import proofs.«144253_j65335042507035_2_alg».proof.Proof.Target
import proofs.«144253_j65335042507035_2_alg».proof.Proof.Bounds
import proofs.«144253_j65335042507035_2_alg».proof.Proof.Tiles

noncomputable section

namespace Cert.Spec

open Idealize.ShloMosaic Idealize.ShloMosaic.ValueIdx

/-- A row of a finite matrix, or the zero row past its last row, is finite. -/
theorem rowOf_finite (a : Fin 65536 → Fin 13 → EReal) (ha : ∀ i k, a i k ≠ ⊤ ∧ a i k ≠ ⊥) (m : ℕ) (k : Fin 13) :
    rowOf a m k ≠ ⊤ ∧ rowOf a m k ≠ ⊥ := by
  unfold rowOf
  split
  · exact ha _ _
  · simpa using coe_finite 0

/-- With all ten inputs finite, every score is at least the starting value of a run's maximum. -/
theorem floor30_le_score (a0 : (⟨2, ![65536, 13]⟩ : Shape).Idx → EReal) (a1 : (⟨2, ![2048, 13]⟩ : Shape).Idx → EReal)
    (a2 : (⟨2, ![300, 13]⟩ : Shape).Idx → EReal) (a3 : (⟨1, ![300]⟩ : Shape).Idx → EReal)
    (a4 : (⟨2, ![600, 300]⟩ : Shape).Idx → EReal) (a5 : (⟨1, ![600]⟩ : Shape).Idx → EReal)
    (a6 : (⟨2, ![100, 600]⟩ : Shape).Idx → EReal) (a7 : (⟨1, ![100]⟩ : Shape).Idx → EReal)
    (a8 : (⟨2, ![13, 100]⟩ : Shape).Idx → EReal) (a9 : (⟨1, ![13]⟩ : Shape).Idx → EReal)
    (h0 : ∀ i, a0 i ≠ ⊤ ∧ a0 i ≠ ⊥) (h1 : ∀ i, a1 i ≠ ⊤ ∧ a1 i ≠ ⊥) (h2 : ∀ i, a2 i ≠ ⊤ ∧ a2 i ≠ ⊥)
    (h3 : ∀ i, a3 i ≠ ⊤ ∧ a3 i ≠ ⊥) (h4 : ∀ i, a4 i ≠ ⊤ ∧ a4 i ≠ ⊥) (h5 : ∀ i, a5 i ≠ ⊤ ∧ a5 i ≠ ⊥)
    (h6 : ∀ i, a6 i ≠ ⊤ ∧ a6 i ≠ ⊥) (h7 : ∀ i, a7 i ≠ ⊤ ∧ a7 i ≠ ⊥) (h8 : ∀ i, a8 i ≠ ⊤ ∧ a8 i ≠ ⊥)
    (h9 : ∀ i, a9 i ≠ ⊤ ∧ a9 i ≠ ⊥) (q : Fin 2048) (m : ℕ) :
    floor30 ≤ score a0 a1 a2 a3 a4 a5 a6 a7 a8 a9 q m := by
  unfold score
  exact floor30_le_sim _ _ (fun k => h1 (ix2 q k))
    (mlp_finite _ _ _ _ _ _ _ _ _ (fun h k => h2 (ix2 h k)) (fun h => h3 (ix1 h)) (fun h k => h4 (ix2 h k))
      (fun h => h5 (ix1 h)) (fun h k => h6 (ix2 h k)) (fun h => h7 (ix1 h)) (fun h k => h8 (ix2 h k))
      (fun h => h9 (ix1 h)) (rowOf_finite _ (fun i k => h0 (ix2 i k)) m))

/-- With all ten inputs finite, the tiled accumulation and the maximum over all rows are the same array. -/
theorem tiled_eq_whole (a0 : (⟨2, ![65536, 13]⟩ : Shape).Idx → EReal) (a1 : (⟨2, ![2048, 13]⟩ : Shape).Idx → EReal)
    (a2 : (⟨2, ![300, 13]⟩ : Shape).Idx → EReal) (a3 : (⟨1, ![300]⟩ : Shape).Idx → EReal)
    (a4 : (⟨2, ![600, 300]⟩ : Shape).Idx → EReal) (a5 : (⟨1, ![600]⟩ : Shape).Idx → EReal)
    (a6 : (⟨2, ![100, 600]⟩ : Shape).Idx → EReal) (a7 : (⟨1, ![100]⟩ : Shape).Idx → EReal)
    (a8 : (⟨2, ![13, 100]⟩ : Shape).Idx → EReal) (a9 : (⟨1, ![13]⟩ : Shape).Idx → EReal)
    (h0 : ∀ i, a0 i ≠ ⊤ ∧ a0 i ≠ ⊥) (h1 : ∀ i, a1 i ≠ ⊤ ∧ a1 i ≠ ⊥) (h2 : ∀ i, a2 i ≠ ⊤ ∧ a2 i ≠ ⊥)
    (h3 : ∀ i, a3 i ≠ ⊤ ∧ a3 i ≠ ⊥) (h4 : ∀ i, a4 i ≠ ⊤ ∧ a4 i ≠ ⊥) (h5 : ∀ i, a5 i ≠ ⊤ ∧ a5 i ≠ ⊥)
    (h6 : ∀ i, a6 i ≠ ⊤ ∧ a6 i ≠ ⊥) (h7 : ∀ i, a7 i ≠ ⊤ ∧ a7 i ≠ ⊥) (h8 : ∀ i, a8 i ≠ ⊤ ∧ a8 i ≠ ⊥)
    (h9 : ∀ i, a9 i ≠ ⊤ ∧ a9 i ≠ ⊥) :
    tiled a0 a1 a2 a3 a4 a5 a6 a7 a8 a9 = whole a0 a1 a2 a3 a4 a5 a6 a7 a8 a9 := by
  funext i
  unfold tiled whole
  exact combined_eq_top _ fun m _ => floor30_le_score a0 a1 a2 a3 a4 a5 a6 a7 a8 a9 h0 h1 h2 h3 h4 h5 h6 h7 h8 h9 (i 0) m

end Cert.Spec

end
-- ==== Proof.FiniteArgs.lean ====
/-
  The precondition states, of each of the ten argument arrays, that every entry's absolute value is below +∞
  (an "all" over the entrywise comparison |x| < +∞), and takes the conjunction of the ten. On the extended reals the
  word 0x7F800000 denotes ⊤ and the absolute value of x is max x (-x); so max x (-x) < ⊤ at every entry of every
  array, and an extended real whose absolute value is below ⊤ is neither ⊤ nor ⊥.
-/
import proofs.«144253_j65335042507035_2_alg».proof.Proof.Gen.Pre_finite_inputs
import proofs.«144253_j65335042507035_2_alg».proof.Proof.LibRankFactor
import Idealize.ShloMosaic.Lib.ReduceAll
import Idealize.ShloMosaic.Lib.ValueIdx
import Idealize.ShloMosaic.PureOps.Ideal.Laws

noncomputable section

namespace Cert.FiniteArgs

open Idealize.ShloMosaic Idealize.ShloMosaic.ValueIdx
open Cert.Pre_finite_inputs

/-- The scalar shape has one index. -/
instance : Subsingleton S_.Idx := ⟨fun a b => funext fun d => d.elim0⟩

/-- The word of +∞ denotes ⊤. -/
theorem inf_eq_top : Ideal.ofBits .f32 0x7F800000#32 = ⊤ := by simp [Ideal.ofBits, Ideal.ieee]

/-- One conjunct, over any shape: when the "all" of the entrywise comparison |x| < +∞ is 1, every entry of x is finite. -/
theorem finite_of_all {s : Shape} {axes : List (Fin s.rank)} (hb : S_.BroadcastsInDim s (![] : Fin 0 → Fin s.rank))
    (hr : s.ReducesTo axes S_) (hu : 0 < S_.numel) (x : FVec Ideal s .f32)
    (e : Host.reduce IntOp.andi
          (cmpf .olt (Host.absf x) (broadcastInDim s ![] hb (constant (F := Ideal) S_ .f32 0x7F800000#32)))
          (constantI S_ 1 1#1) hr hu ix0 = 1#1) (i : s.Idx) : x i ≠ ⊤ ∧ x i ≠ ⊥ := by
  have h1 := Host.reduce_andi_all _ _ hr hu ix0 e i
  have h2 : Ideal.cmp .olt (max (x i) (-(x i))) (Ideal.ofBits .f32 0x7F800000#32) = 1#1 := h1
  rw [inf_eq_top] at h2
  have hlt : max (x i) (-(x i)) < ⊤ := by
    by_contra hn
    simp [Ideal.cmp, hn] at h2
  exact RankFactor.finite_of_abs_lt_top hlt

/-- The precondition decoded: every entry of every argument array is a finite extended real. -/
theorem finite_of_pre [Facts] (x0 : FVec Ideal S65536x13 .f32) (x1 : FVec Ideal S2048x13 .f32) (x2 : FVec Ideal S300x13 .f32)
    (x3 : FVec Ideal S300 .f32) (x4 : FVec Ideal S600x300 .f32) (x5 : FVec Ideal S600 .f32) (x6 : FVec Ideal S100x600 .f32)
    (x7 : FVec Ideal S100 .f32) (x8 : FVec Ideal S13x100 .f32) (x9 : FVec Ideal S13 .f32)
    (h : Cert.Pre_finite_inputs.fn (F := Ideal) x0 x1 x2 x3 x4 x5 x6 x7 x8 x9 = fun _ => 1#1) :
    (∀ i, x0 i ≠ ⊤ ∧ x0 i ≠ ⊥) ∧ (∀ i, x1 i ≠ ⊤ ∧ x1 i ≠ ⊥) ∧ (∀ i, x2 i ≠ ⊤ ∧ x2 i ≠ ⊥) ∧ (∀ i, x3 i ≠ ⊤ ∧ x3 i ≠ ⊥)
      ∧ (∀ i, x4 i ≠ ⊤ ∧ x4 i ≠ ⊥) ∧ (∀ i, x5 i ≠ ⊤ ∧ x5 i ≠ ⊥) ∧ (∀ i, x6 i ≠ ⊤ ∧ x6 i ≠ ⊥) ∧ (∀ i, x7 i ≠ ⊤ ∧ x7 i ≠ ⊥)
      ∧ (∀ i, x8 i ≠ ⊤ ∧ x8 i ≠ ⊥) ∧ (∀ i, x9 i ≠ ⊤ ∧ x9 i ≠ ⊥) := by
  have e := congrFun h ix0
  simp only [fn, fn_part1, fn_part2, Idealize.ShloMosaic.andi, IntOp.andi_eq_one] at e
  obtain ⟨⟨⟨⟨⟨⟨⟨⟨⟨e0, e1⟩, e2⟩, e3⟩, e4⟩, e5⟩, e6⟩, e7⟩, e8⟩, e9⟩ := e
  exact ⟨finite_of_all _ _ _ x0 e0, finite_of_all _ _ _ x1 e1, finite_of_all _ _ _ x2 e2, finite_of_all _ _ _ x3 e3,
    finite_of_all _ _ _ x4 e4, finite_of_all _ _ _ x5 e5, finite_of_all _ _ _ x6 e6, finite_of_all _ _ _ x7 e7,
    finite_of_all _ _ _ x8 e8, finite_of_all _ _ _ x9 e9⟩

end Cert.FiniteArgs

end
-- ==== Proof.lean ====
/-
  Both programs compute, for each of 2048 query rows, the greatest scaled cosine similarity between the query row and
  the image of a memory row under a four-layer network (dense layers with a rectifier after the first and third and a
  leaky rectifier after the second and fourth), over all 65536 memory rows. A vector enters the similarity divided by the
  larger of its Euclidean length and a small positive floor; the similarity is the dot of two such vectors times 23.

  The reference does this in one piece: the network on all rows, the two normalisations, one product, one maximum per
  query row starting from the bottom element. The kernel tiles the memory rows in 64 tiles of 1024, in two runs of 32;
  each grid point applies the network to its tile, normalises, multiplies against all (already normalised) query rows,
  takes the tile's maximum per query row, and folds it into a running maximum that each run starts from the finite
  number -1e30; the host finally takes the larger of the two runs' maxima. On the extended reals every operation of the
  two programs is the same exact operation, a product against a transposed matrix is a product contracting the other
  axis, and a maximum may be taken in any grouping; so the two results differ only in that the kernel's is never below
  -1e30. Under the precondition every input is a real number, hence so is every intermediate; each entry of a
  normalised vector then lies in [-1, 1], a similarity is at least -13 · 23, far above -1e30, and the starting value
  never binds. That is the only use of the precondition, and the only law beyond commutativity and regrouping.

  The frames of the two kernel programs are the generated ones; the reference's frame is its run with the result
  dropped; the idealization rewrote nothing, so nothing is owed for it.
-/
import proofs.«144253_j65335042507035_2_alg».proof.Defs
import proofs.«144253_j65335042507035_2_alg».proof.Proof.Gen.Kernel
import proofs.«144253_j65335042507035_2_alg».proof.Proof.Gen.Kernel.Frame
import proofs.«144253_j65335042507035_2_alg».proof.Proof.Gen.KernelIdeal
import proofs.«144253_j65335042507035_2_alg».proof.Proof.Gen.KernelIdeal.Frame
import proofs.«144253_j65335042507035_2_alg».proof.Proof.Gen.ReferenceIdeal
import proofs.«144253_j65335042507035_2_alg».proof.Proof.Gen.Pre_finite_inputs
import proofs.«144253_j65335042507035_2_alg».proof.Proof.KernelFinal
import proofs.«144253_j65335042507035_2_alg».proof.Proof.RefRun
import proofs.«144253_j65335042507035_2_alg».proof.Proof.RefRead
import proofs.«144253_j65335042507035_2_alg».proof.Proof.TiledWhole
import proofs.«144253_j65335042507035_2_alg».proof.Proof.FiniteArgs
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does the kernel program read over the extended reals. -/
theorem frame_ki : Cert.frame_KernelIdeal := fun m ρ _ => Cert.KernelIdeal.Gen.frame m ρ

/-- The reference's run, with its result dropped. -/
theorem frame_ri : Cert.frame_ReferenceIdeal := fun m ρ _ =>
  (θ_run Cert.ReferenceIdeal.defs _ _).mono (fun _ h c => (h c).2) (Cert.ReferenceIdeal.RefValue.run m ρ)

/-- The two programs end with the same result array: the greatest similarity over all memory rows, per query row.
    The kernel's run ends at the tiled form, which under the precondition — every input finite — is the whole maximum;
    the reference's run ends at the whole maximum of arguments that agree with the kernel's. -/
theorem algebraic : Cert.algebraic_KernelIdeal_ReferenceIdeal := by
  intro m ρ m' ρ' hpre hagree
  refine ⟨fun c => Cert.Spec.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · refine (θ_run Cert.KernelIdeal.defs _ _).mono (fun r h c => ⟨(h c).1.trans ?_, (h c).2⟩)
      (Cert.KernelIdeal.Chain.run m ρ)
    obtain ⟨h0, h1, h2, h3, h4, h5, h6, h7, h8, h9⟩ := Cert.FiniteArgs.finite_of_pre _ _ _ _ _ _ _ _ _ _ (hpre c)
    exact Cert.Spec.tiled_eq_whole _ _ _ _ _ _ _ _ _ _ h0 h1 h2 h3 h4 h5 h6 h7 h8 h9
  · refine (θ_run Cert.ReferenceIdeal.defs _ _).mono (fun r h c => ⟨(h c).1.trans ?_, (h c).2⟩)
      (Cert.ReferenceIdeal.RefValue.run m' ρ')
    rw [Cert.ReferenceIdeal.RefValue.refTerm_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
